-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1x1x2048x64 : Shape := ⟨4, ![1, 1, 2048, 64]⟩
abbrev S3072x1024 : Shape := ⟨2, ![3072, 1024]⟩
abbrev S1024x1024 : Shape := ⟨2, ![1024, 1024]⟩
abbrev S1024 : Shape := ⟨1, ![1024]⟩
abbrev S64 : Shape := ⟨1, ![64]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1x1x2048x64 : S_.BroadcastsInDim S1x1x2048x64 (![] : Fin 0 → Fin S1x1x2048x64.rank)
  reducesTo_S1x1x2048x64_S_d0_1_2_3 : S1x1x2048x64.ReducesTo [0, 1, 2, 3] S_
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S1024x1024 .f32) (main_arg5 : FVec F S1024 .f32) (main_arg6 : FVec F S64 .f32) (main_arg7 : FVec F S64 .f32) (main_v13 : IVec S_ 1) (main_v16 : IVec S3072x1024 1) : IVec S_ 1 :=
  let main_c_5 : IVec S_ 1 := constantI S_ 1 1#1
  let main_v17 : IVec S_ 1 := (fun x v => Host.reduce IntOp.andi x v reducesTo_S3072x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_v33

def fn {F : FTy → Type} [FloatOps F] (main_arg0 : FVec F S4x2048x1024 .f32) (main_arg1 : FVec F S1x1x2048x64 .f32) (main_arg2 : FVec F S1x1x2048x64 .f32) (main_arg3 : FVec F S3072x1024 .f32) (main_arg4 : FVec F S1024x1024 .f32) (main_arg5 : FVec F S1024 .f32) (main_arg6 : FVec F S64 .f32) (main_arg7 : FVec F S64 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1x1x2048x64 .f32 := Host.absf main_arg1
  let main_cst_0 : FVec F S_ .f32 := constant S_ .f32 0x7F800000#32
  let main_v5 : FVec F S1x1x2048x64 .f32 := broadcastInDim S1x1x2048x64 ![] bcast_S_S1x1x2048x64 main_cst_0
  let main_v6 : IVec S1x1x2048x64 1 := cmpf .olt main_v4 main_v5
  let main_c_1 : IVec S_ 1 := constantI S_ 1 1#1
  let main_v7 : IVec S_ 1 := (fun x v => Host.reduce IntOp.andi x v reducesTo_S1x1x2048x64_S_d0_1_2_3 h_S_) main_v6 main_c_1
  let main_v8 : IVec S_ 1 := andi main_v3 main_v7
  let main_v9 : FVec F S1x1x2048x64 .f32 := Host.absf main_arg2
  let main_cst_2 : FVec F S_ .f32 := constant S_ .f32 0x7F800000#32
  let main_v10 : FVec F S1x1x2048x64 .f32 := broadcastInDim S1x1x2048x64 ![] bcast_S_S1x1x2048x64 main_cst_2
  let main_v11 : IVec S1x1x2048x64 1 := cmpf .olt main_v9 main_v10
  let main_c_3 : IVec S_ 1 := constantI S_ 1 1#1
  let main_v12 : IVec S_ 1 := (fun x v => Host.reduce IntOp.andi x v reducesTo_S1x1x2048x64_S_d0_1_2_3 h_S_) main_v11 main_c_3
  let main_v13 : IVec S_ 1 := andi main_v8 main_v12
  let main_v14 : FVec F S3072x1024 .f32 := Host.absf main_arg3
  let main_cst_4 : FVec F S_ .f32 := constant S_ .f32 0x7F800000#32
  let main_v15 : FVec F S3072x1024 .f32 := broadcastInDim S3072x1024 ![] bcast_S_S3072x1024 main_cst_4
  let main_v16 : IVec S3072x1024 1 := cmpf .olt main_v14 main_v15
  fn_part1 (F := F) main_arg4 main_arg5 main_arg6 main_arg7 main_v13 main_v16
-- ==== Kernel.lean ====
abbrev S4x2048x1024 : Shape := ⟨3, ![4, 2048, 1024]⟩
abbrev S1x1x2048x64 : Shape := ⟨4, ![1, 1, 2048, 64]⟩
abbrev S3072x1024 : Shape := ⟨2, ![3072, 1024]⟩
abbrev S1024x1024 : Shape := ⟨2, ![1024, 1024]⟩
abbrev S1024 : Shape := ⟨1, ![1024]⟩
abbrev S64 : Shape := ⟨1, ![64]⟩
abbrev S8192x1024 : Shape := ⟨2, ![8192, 1024]⟩
abbrev S1024x3072 : Shape := ⟨2, ![1024, 3072]⟩
abbrev S1x1024 : Shape := ⟨2, ![1, 1024]⟩
abbrev S1x64 : Shape := ⟨2, ![1, 64]⟩
abbrev S2048x64 : Shape := ⟨2, ![2048, 64]⟩
abbrev S8192x3072 : Shape := ⟨2, ![8192, 3072]⟩
abbrev S512x128 : Shape := ⟨2, ![512, 128]⟩
abbrev S2048x128 : Shape := ⟨2, ![2048, 128]⟩
abbrev S512x64 : Shape := ⟨2, ![512, 64]⟩
abbrev S512 : Shape := ⟨1, ![512]⟩
abbrev S512x1 : Shape := ⟨2, ![512, 1]⟩
abbrev S2048 : Shape := ⟨1, ![2048]⟩
abbrev S2048x1 : Shape := ⟨2, ![2048, 1]⟩
abbrev S512x32 : Shape := ⟨2, ![512, 32]⟩
abbrev S2048x32 : Shape := ⟨2, ![2048, 32]⟩
abbrev S512x2048 : Shape := ⟨2, ![512, 2048]⟩

abbrev nBuf : Space → Nat
  | .hbm => 23
  | .vmem => 27
  | .smem => 0
  | _ => 0

abbrev bufTy : (tb : Table) → Fin (tcTables nBuf tb) → BufTy
  | .hbm, ⟨0, _⟩ => ⟨S4x2048x1024, .f32⟩
  | .hbm, ⟨1, _⟩ => ⟨S1x1x2048x64, .f32⟩
  | .hbm, ⟨2, _⟩ => ⟨S1x1x2048x64, .f32⟩
  | .hbm, ⟨3, _⟩ => ⟨S3072x1024, .f32⟩
  | .hbm, ⟨4, _⟩ => ⟨S1024x1024, .f32⟩
  | .hbm, ⟨5, _⟩ => ⟨S1024, .f32⟩
  | .hbm, ⟨6, _⟩ => ⟨S64, .f32⟩
  | .hbm, ⟨7, _⟩ => ⟨S64, .f32⟩
  | .hbm, ⟨8, _⟩ => ⟨S8192x1024, .f32⟩
  | .hbm, ⟨9, _⟩ => ⟨S8192x1024, .bf16⟩
  | .hbm, ⟨10, _⟩ => ⟨S1024x3072, .f32⟩
  | .hbm, ⟨11, _⟩ => ⟨S1024x3072, .bf16⟩
  | .hbm, ⟨12, _⟩ => ⟨S1024x1024, .f32⟩
  | .hbm, ⟨13, _⟩ => ⟨S1024x1024, .bf16⟩
  | .hbm, ⟨14, _⟩ => ⟨S1x1024, .f32⟩
  | .hbm, ⟨15, _⟩ => ⟨S1x64, .f32⟩
  | .hbm, ⟨16, _⟩ => ⟨S1x64, .f32⟩
  | .hbm, ⟨17, _⟩ => ⟨S2048x64, .f32⟩
  | .hbm, ⟨18, _⟩ => ⟨S2048x64, .f32⟩
  | .hbm, ⟨19, _⟩ => ⟨S8192x3072, .bf16⟩
  | .hbm, ⟨20, _⟩ => ⟨S8192x1024, .bf16⟩
  | .hbm, ⟨21, _⟩ => ⟨S8192x1024, .f32⟩
  | .hbm, ⟨22, _⟩ => ⟨S4x2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x3072, .bf16⟩
  | .local _ .vmem, ⟨3, _⟩ => ⟨S1024x3072, .bf16⟩
  | .local _ .vmem, ⟨4, _⟩ => ⟨S1024x3072, .bf16⟩
  | .local _ .vmem, ⟨5, _⟩ => ⟨S512x128, .bf16⟩
  | .local _ .vmem, ⟨6, _⟩ => ⟨S512x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S512x64, .f32⟩
  | .local _ .vmem, ⟨12, _⟩ => ⟨S512x64, .f32⟩
  | .local _ .vmem, ⟨13, _⟩ => ⟨S512x64, .f32⟩
  | .local _ .vmem, ⟨14, _⟩ => ⟨S512x64, .f32⟩
  | .local _ .vmem, ⟨15, _⟩ => ⟨S2048x64, .f32⟩
  | .local _ .vmem, ⟨16, _⟩ => ⟨S2048x64, .f32⟩
  | .local _ .vmem, ⟨17, _⟩ => ⟨S1x64, .f32⟩
  | .local _ .vmem, ⟨18, _⟩ => ⟨S1x64, .f32⟩
  | .local _ .vmem, ⟨19, _⟩ => ⟨S512x128, .bf16⟩
  | .local _ .vmem, ⟨20, _⟩ => ⟨S512x128, .bf16⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1x1024, .f32⟩
  | .local _ .vmem, ⟨25, _⟩ => ⟨S1024x1024, .f32⟩
  | .local _ .vmem, ⟨26, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg9_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg3_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem9_1 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem3_0 : DmaSem sig := 25
abbrev cc2_sem3_1 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 8, 4], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage1_0 : Fin 2 → Memref sig .tc .vmem S512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, false, true]

abbrev stage1_4 : Fin 2 → Memref sig .tc .vmem S512x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, false, true]

abbrev stage1_5 : Fin 1 → Memref sig .tc .vmem S2048x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 1 → Memref sig .tc .vmem S2048x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false, false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false, false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false, false]

abbrev stage1_9 : Fin 2 → Memref sig .tc .vmem S512x128 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S4x2048x1024_S8192x1024 : S4x2048x1024.ShapeCasts S8192x1024
  bitsLt_bf16_f32 : FTy.bits .bf16 < FTy.bits .f32
  transposes_S3072x1024_S1024x3072_1_0 : S3072x1024.Transposes [1, 0] S1024x3072
  transposes_S1024x1024_S1024x1024_1_0 : S1024x1024.Transposes [1, 0] S1024x1024
  shapeCasts_S1024_S1x1024 : S1024.ShapeCasts S1x1024
  shapeCasts_S64_S1x64 : S64.ShapeCasts S1x64
  shapeCasts_S1x1x2048x64_S2048x64 : S1x1x2048x64.ShapeCasts S2048x64
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  packedbf16_S1024x3072_S1024x3072_0_0 : (Rect.unit (s := S1024x3072) ![0, 0] S1024x3072.size inb_S1024x3072_S1024x3072_0_0).PackedRows (EltTy.packing .bf16)
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  slices_S512x128_o0_0_S512x64 : S512x128.Slices ![0, 0] S512x64
  slices_S2048x128_o0_0_S2048x64 : S2048x128.Slices ![0, 0] S2048x64
  reduces_S512x64_S512 : S512x64.Reduces [1] S512
  shapeCasts_S512_S512x1 : S512.ShapeCasts S512x1
  broadcasts_S512x1_S512x64 : S512x1.Broadcasts S512x64
  broadcasts_S1x64_S512x64 : S1x64.Broadcasts S512x64
  reduces_S2048x64_S2048 : S2048x64.Reduces [1] S2048
  shapeCasts_S2048_S2048x1 : S2048.ShapeCasts S2048x1
  broadcasts_S2048x1_S2048x64 : S2048x1.Broadcasts S2048x64
  broadcasts_S1x64_S2048x64 : S1x64.Broadcasts S2048x64
  slices_S512x64_o0_0_S512x32 : S512x64.Slices ![0, 0] S512x32
  slices_S512x64_o0_32_S512x32 : S512x64.Slices ![0, 32] S512x32
  concatenates_S512x32_S512x32_S512x64_d1 : Shape.Concatenates [S512x32, S512x32] S512x64 1
  slices_S2048x64_o0_0_S2048x32 : S2048x64.Slices ![0, 0] S2048x32
  slices_S2048x64_o0_32_S2048x32 : S2048x64.Slices ![0, 32] S2048x32
  concatenates_S2048x32_S2048x32_S2048x64_d1 : Shape.Concatenates [S2048x32, S2048x32] S2048x64 1
  reduces_S512x2048_S512 : S512x2048.Reduces [1] S512
  broadcasts_S512x1_S512x2048 : S512x1.Broadcasts S512x2048
  slices_S512x128_o0_64_S512x64 : S512x128.Slices ![0, 64] S512x64
  slices_S2048x128_o0_64_S2048x64 : S2048x128.Slices ![0, 64] S2048x64
  concatenates_S512x64_S512x64_S512x128_d1 : Shape.Concatenates [S512x64, S512x64] S512x128 1
  packedbf16_S512x128_S512x128_0_0 : (Rect.unit (s := S512x128) ![0, 0] S512x128.size inb_S512x128_S512x128_0_0).PackedRows (EltTy.packing .bf16)
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x1024_S4x2048x1024 : S8192x1024.ShapeCasts S4x2048x1024
  dot_S1024x1024_S1024x3072_S1024x3072_1_0_0_1_n_n_wf : DotDims.WF S1024x1024 S1024x3072 S1024x3072 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x3072.size a ≤ S8192x3072.size a
  hwx0_2 : ∀ i : grid0.Coords, EltTy.bits .bf16 = 32 ∨ (Rect.block (s := S8192x3072) S1024x3072.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S8192x3072.size a
  hwx1_0 : ∀ i : grid1.Coords, EltTy.bits .bf16 = 32 ∨ (Rect.block (s := S8192x3072) S512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S8192x3072.size a
  hwx1_1 : ∀ i : grid1.Coords, EltTy.bits .bf16 = 32 ∨ (Rect.block (s := S8192x3072) S2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S8192x3072.size a
  hwx1_2 : ∀ i : grid1.Coords, EltTy.bits .bf16 = 32 ∨ (Rect.block (s := S8192x3072) S2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x64.size a ≤ S2048x64.size a
  hwx1_3 : ∀ i : grid1.Coords, EltTy.bits .f32 = 32 ∨ (Rect.block (s := S2048x64) S512x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x64.size a ≤ S2048x64.size a
  hwx1_4 : ∀ i : grid1.Coords, EltTy.bits .f32 = 32 ∨ (Rect.block (s := S2048x64) S512x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2048x64.size a ≤ S2048x64.size a
  hwx1_5 : ∀ i : grid1.Coords, EltTy.bits .f32 = 32 ∨ (Rect.block (s := S2048x64) S2048x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S2048x64.size a ≤ S2048x64.size a
  hwx1_6 : ∀ i : grid1.Coords, EltTy.bits .f32 = 32 ∨ (Rect.block (s := S2048x64) S2048x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S512x128.size a ≤ S8192x1024.size a
  hwx1_9 : ∀ i : grid1.Coords, EltTy.bits .bf16 = 32 ∨ (Rect.block (s := S8192x1024) S512x128.size (cc1_transform_9 i) (hinb1_9 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .bf16 = 32 ∨ (Rect.block (s := S8192x1024) S1024x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x1024.size a
  hwx2_3 : ∀ i : grid2.Coords, EltTy.bits .f32 = 32 ∨ (Rect.block (s := S8192x1024) S1024x1024.size (cc2_transform_3 i) (hinb2_3 i)).WholeWords (EltTy.packing .f32)

variable [Facts₀]

def dot_S1024x1024_S1024x3072_S1024x3072_1_0_0_1_n_n : DotDims S1024x1024 S1024x3072 S1024x3072 where
  lhsContracting := [1]
  rhsContracting := [0]
  lhsNonContracting := [0]
  rhsNonContracting := [1]
  lhsBatch := []
  rhsBatch := []
  wf := dot_S1024x1024_S1024x3072_S1024x3072_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1024x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v11) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S512x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v10) S512x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v9) S2048x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S2048x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v7) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v8) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v12) S512x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v12) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v13) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S1x1x2048x64 : Shape := ⟨4, ![1, 1, 2048, 64]⟩
abbrev S3072x1024 : Shape := ⟨2, ![3072, 1024]⟩
abbrev S1024x1024 : Shape := ⟨2, ![1024, 1024]⟩
abbrev S1024 : Shape := ⟨1, ![1024]⟩
abbrev S64 : Shape := ⟨1, ![64]⟩
abbrev S4x2048x3072 : Shape := ⟨3, ![4, 2048, 3072]⟩
abbrev S4x2048x3x16x64 : Shape := ⟨5, ![4, 2048, 3, 16, 64]⟩
abbrev S3x4x16x2048x64 : Shape := ⟨5, ![3, 4, 16, 2048, 64]⟩
abbrev S1x4x16x2048x64 : Shape := ⟨5, ![1, 4, 16, 2048, 64]⟩
abbrev S4x16x2048x64 : Shape := ⟨4, ![4, 16, 2048, 64]⟩
abbrev S_ : Shape := ⟨0, ![]⟩
abbrev S4x16x2048 : Shape := ⟨3, ![4, 16, 2048]⟩
abbrev S4x16x2048x1 : Shape := ⟨4, ![4, 16, 2048, 1]⟩
abbrev S1x1x1x64 : Shape := ⟨4, ![1, 1, 1, 64]⟩
abbrev S4x16x2048x32 : Shape := ⟨4, ![4, 16, 2048, 32]⟩
abbrev S4x16x2048x2048 : Shape := ⟨4, ![4, 16, 2048, 2048]⟩
abbrev S4x2048x16x64 : Shape := ⟨4, ![4, 2048, 16, 64]⟩
abbrev S1x1x1024 : Shape := ⟨3, ![1, 1, 1024]⟩

abbrev nBuf : Space → Nat
  | .hbm => 92
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1x1x2048x64, .f32⟩
  | .hbm, ⟨2, _⟩ => ⟨S1x1x2048x64, .f32⟩
  | .hbm, ⟨3, _⟩ => ⟨S3072x1024, .f32⟩
  | .hbm, ⟨4, _⟩ => ⟨S1024x1024, .f32⟩
  | .hbm, ⟨5, _⟩ => ⟨S1024, .f32⟩
  | .hbm, ⟨6, _⟩ => ⟨S64, .f32⟩
  | .hbm, ⟨7, _⟩ => ⟨S64, .f32⟩
  | .hbm, ⟨8, _⟩ => ⟨S4x2048x3072, .f32⟩
  | .hbm, ⟨9, _⟩ => ⟨S4x2048x3x16x64, .f32⟩
  | .hbm, ⟨10, _⟩ => ⟨S3x4x16x2048x64, .f32⟩
  | .hbm, ⟨11, _⟩ => ⟨S1x4x16x2048x64, .f32⟩
  | .hbm, ⟨12, _⟩ => ⟨S4x16x2048x64, .f32⟩
  | .hbm, ⟨13, _⟩ => ⟨S1x4x16x2048x64, .f32⟩
  | .hbm, ⟨14, _⟩ => ⟨S4x16x2048x64, .f32⟩
  | .hbm, ⟨15, _⟩ => ⟨S1x4x16x2048x64, .f32⟩
  | .hbm, ⟨16, _⟩ => ⟨S4x16x2048x64, .f32⟩
  | .hbm, ⟨17, _⟩ => ⟨S4x16x2048x64, .f32⟩
  | .hbm, ⟨18, _⟩ => ⟨S_, .f32⟩
  | .hbm, ⟨19, _⟩ => ⟨S4x16x2048, .f32⟩
  | .hbm, ⟨20, _⟩ => ⟨S4x16x2048x1, .f32⟩
  | .hbm, ⟨21, _⟩ => ⟨S_, .f32⟩
  | .hbm, ⟨22, _⟩ => ⟨S4x16x2048x1, .f32⟩
  | .hbm, ⟨23, _⟩ => ⟨S4x16x2048x1, .f32⟩
  | .hbm, ⟨24, _⟩ => ⟨S_, .f32⟩
  | .hbm, ⟨25, _⟩ => ⟨S4x16x2048x1, .f32⟩
  | .hbm, ⟨26, _⟩ => ⟨S4x16x2048x1, .f32⟩
  | .hbm, ⟨27, _⟩ => ⟨S4x16x2048x1, .f32⟩
  | .hbm, ⟨28, _⟩ => ⟨S4x16x2048x64, .f32⟩
  | .hbm, ⟨29, _⟩ => ⟨S4x16x2048x64, .f32⟩
  | .hbm, ⟨30, _⟩ => ⟨S1x1x1x64, .f32⟩
  | .hbm, ⟨31, _⟩ => ⟨S4x16x2048x64, .f32⟩
  | .hbm, ⟨32, _⟩ => ⟨S4x16x2048x64, .f32⟩
  | .hbm, ⟨33, _⟩ => ⟨S4x16x2048x64, .f32⟩
  | .hbm, ⟨34, _⟩ => ⟨S_, .f32⟩
  | .hbm, ⟨35, _⟩ => ⟨S4x16x2048, .f32⟩
  | .hbm, ⟨36, _⟩ => ⟨S4x16x2048x1, .f32⟩
  | .hbm, ⟨37, _⟩ => ⟨S_, .f32⟩
  | .hbm, ⟨38, _⟩ => ⟨S4x16x2048x1, .f32⟩
  | .hbm, ⟨39, _⟩ => ⟨S4x16x2048x1, .f32⟩
  | .hbm, ⟨40, _⟩ => ⟨S_, .f32⟩
  | .hbm, ⟨41, _⟩ => ⟨S4x16x2048x1, .f32⟩
  | .hbm, ⟨42, _⟩ => ⟨S4x16x2048x1, .f32⟩
  | .hbm, ⟨43, _⟩ => ⟨S4x16x2048x1, .f32⟩
  | .hbm, ⟨44, _⟩ => ⟨S4x16x2048x64, .f32⟩
  | .hbm, ⟨45, _⟩ => ⟨S4x16x2048x64, .f32⟩
  | .hbm, ⟨46, _⟩ => ⟨S1x1x1x64, .f32⟩
  | .hbm, ⟨47, _⟩ => ⟨S4x16x2048x64, .f32⟩
  | .hbm, ⟨48, _⟩ => ⟨S4x16x2048x64, .f32⟩
  | .hbm, ⟨49, _⟩ => ⟨S4x16x2048x64, .f32⟩
  | .hbm, ⟨50, _⟩ => ⟨S4x16x2048x64, .f32⟩
  | .hbm, ⟨51, _⟩ => ⟨S4x16x2048x32, .f32⟩
  | .hbm, ⟨52, _⟩ => ⟨S4x16x2048x32, .f32⟩
  | .hbm, ⟨53, _⟩ => ⟨S4x16x2048x32, .f32⟩
  | .hbm, ⟨54, _⟩ => ⟨S4x16x2048x64, .f32⟩
  | .hbm, ⟨55, _⟩ => ⟨S4x16x2048x64, .f32⟩
  | .hbm, ⟨56, _⟩ => ⟨S4x16x2048x64, .f32⟩
  | .hbm, ⟨57, _⟩ => ⟨S4x16x2048x64, .f32⟩
  | .hbm, ⟨58, _⟩ => ⟨S4x16x2048x64, .f32⟩
  | .hbm, ⟨59, _⟩ => ⟨S4x16x2048x64, .f32⟩
  | .hbm, ⟨60, _⟩ => ⟨S4x16x2048x32, .f32⟩
  | .hbm, ⟨61, _⟩ => ⟨S4x16x2048x32, .f32⟩
  | .hbm, ⟨62, _⟩ => ⟨S4x16x2048x32, .f32⟩
  | .hbm, ⟨63, _⟩ => ⟨S4x16x2048x64, .f32⟩
  | .hbm, ⟨64, _⟩ => ⟨S4x16x2048x64, .f32⟩
  | .hbm, ⟨65, _⟩ => ⟨S4x16x2048x64, .f32⟩
  | .hbm, ⟨66, _⟩ => ⟨S4x16x2048x64, .f32⟩
  | .hbm, ⟨67, _⟩ => ⟨S4x16x2048x2048, .f32⟩
  | .hbm, ⟨68, _⟩ => ⟨S_, .f32⟩
  | .hbm, ⟨69, _⟩ => ⟨S4x16x2048x2048, .f32⟩
  | .hbm, ⟨70, _⟩ => ⟨S4x16x2048x2048, .f32⟩
  | .hbm, ⟨71, _⟩ => ⟨S_, .f32⟩
  | .hbm, ⟨72, _⟩ => ⟨S4x16x2048, .f32⟩
  | .hbm, ⟨73, _⟩ => ⟨S_, .f32⟩
  | .hbm, ⟨74, _⟩ => ⟨S4x16x2048, .f32⟩
  | .hbm, ⟨75, _⟩ => ⟨S4x16x2048, .f32⟩
  | .hbm, ⟨76, _⟩ => ⟨S4x16x2048x1, .f32⟩
  | .hbm, ⟨77, _⟩ => ⟨S4x16x2048x2048, .f32⟩
  | .hbm, ⟨78, _⟩ => ⟨S4x16x2048x2048, .f32⟩
  | .hbm, ⟨79, _⟩ => ⟨S4x16x2048x2048, .f32⟩
  | .hbm, ⟨80, _⟩ => ⟨S_, .f32⟩
  | .hbm, ⟨81, _⟩ => ⟨S4x16x2048, .f32⟩
  | .hbm, ⟨82, _⟩ => ⟨S4x16x2048x1, .f32⟩
  | .hbm, ⟨83, _⟩ => ⟨S4x16x2048x2048, .f32⟩
  | .hbm, ⟨84, _⟩ => ⟨S4x16x2048x2048, .f32⟩
  | .hbm, ⟨85, _⟩ => ⟨S4x16x2048x64, .f32⟩
  | .hbm, ⟨86, _⟩ => ⟨S4x2048x16x64, .f32⟩
  | .hbm, ⟨87, _⟩ => ⟨S4x2048x1024, .f32⟩
  | .hbm, ⟨88, _⟩ => ⟨S4x2048x1024, .f32⟩
  | .hbm, ⟨89, _⟩ => ⟨S1x1x1024, .f32⟩
  | .hbm, ⟨90, _⟩ => ⟨S4x2048x1024, .f32⟩
  | .hbm, ⟨91, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_5 : Ref sig .tc := ⟨.hbm, 68, rfl⟩
abbrev main_v54 : Ref sig .tc := ⟨.hbm, 69, rfl⟩
abbrev main_v55 : Ref sig .tc := ⟨.hbm, 70, rfl⟩
abbrev main_cst_6 : Ref sig .tc := ⟨.hbm, 71, rfl⟩
abbrev main_v56 : Ref sig .tc := ⟨.hbm, 72, rfl⟩
abbrev main_cst_7 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_8 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩

abbrev nD : Nat := 1
abbrev τ : Topo := Topo.v7x

variable {F : FTy → Type} [FloatOps F]

class Facts₀ : Prop where
  shapeCasts_S4x2048x3072_S4x2048x3x16x64 : S4x2048x3072.ShapeCasts S4x2048x3x16x64
  transposes_S4x2048x3x16x64_S3x4x16x2048x64_2_0_3_1_4 : S4x2048x3x16x64.Transposes [2, 0, 3, 1, 4] S3x4x16x2048x64
  slices_S3x4x16x2048x64_S1x4x16x2048x64_0_0_0_0_0 : S3x4x16x2048x64.Slices ![0, 0, 0, 0, 0] S1x4x16x2048x64
  shapeCasts_S1x4x16x2048x64_S4x16x2048x64 : S1x4x16x2048x64.ShapeCasts S4x16x2048x64
  slices_S3x4x16x2048x64_S1x4x16x2048x64_1_0_0_0_0 : S3x4x16x2048x64.Slices ![1, 0, 0, 0, 0] S1x4x16x2048x64
  slices_S3x4x16x2048x64_S1x4x16x2048x64_2_0_0_0_0 : S3x4x16x2048x64.Slices ![2, 0, 0, 0, 0] S1x4x16x2048x64
  reducesTo_S4x16x2048x64_S4x16x2048_d3 : S4x16x2048x64.ReducesTo [3] S4x16x2048
  h_S_ : 0 < S_.numel
  bcast_S4x16x2048_S4x16x2048x1_0_1_2 : S4x16x2048.BroadcastsInDim S4x16x2048x1 (![0, 1, 2] : Fin 3 → Fin S4x16x2048x1.rank)
  bcast_S_S4x16x2048x1 : S_.BroadcastsInDim S4x16x2048x1 (![] : Fin 0 → Fin S4x16x2048x1.rank)
  bcast_S4x16x2048x1_S4x16x2048x64_0_1_2_3 : S4x16x2048x1.BroadcastsInDim S4x16x2048x64 (![0, 1, 2, 3] : Fin 4 → Fin S4x16x2048x64.rank)
  bcast_S64_S1x1x1x64_3 : S64.BroadcastsInDim S1x1x1x64 (![3] : Fin 1 → Fin S1x1x1x64.rank)
  bcast_S1x1x1x64_S4x16x2048x64_0_1_2_3 : S1x1x1x64.BroadcastsInDim S4x16x2048x64 (![0, 1, 2, 3] : Fin 4 → Fin S4x16x2048x64.rank)
  bcast_S1x1x2048x64_S4x16x2048x64_0_1_2_3 : S1x1x2048x64.BroadcastsInDim S4x16x2048x64 (![0, 1, 2, 3] : Fin 4 → Fin S4x16x2048x64.rank)
  slices_S4x16x2048x64_S4x16x2048x32_0_0_0_0 : S4x16x2048x64.Slices ![0, 0, 0, 0] S4x16x2048x32
  slices_S4x16x2048x64_S4x16x2048x32_0_0_0_32 : S4x16x2048x64.Slices ![0, 0, 0, 32] S4x16x2048x32
  concatenates_S4x16x2048x32_S4x16x2048x32_S4x16x2048x64_d3 : Shape.Concatenates [S4x16x2048x32, S4x16x2048x32] S4x16x2048x64 3
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  bcast_S_S4x16x2048 : S_.BroadcastsInDim S4x16x2048 (![] : Fin 0 → Fin S4x16x2048.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S3072x1024_S4x2048x3072_2_1_01_0_n_n_wf : DotDims.WF S4x2048x1024 S3072x1024 S4x2048x3072 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_1_01_0_n_n_wf : DotDims.WF S4x2048x1024 S1024x1024 S4x2048x1024 [2] [1] [0, 1] [0] [] []

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.KFrame0.lean ====
/-
  The first kernel region (the q/k/v projection) at one grid point. The grid has 8 points; point t is handed rows
  1024·t … 1024·t+1023 of the flattened activations (a [1024,1024] block), the whole transposed weight matrix
  ([1024,3072], fetched once), and an output block [1024,3072]. The body loads the two inputs whole, multiplies
  them, and stores the product over the whole output block; so after the body the output block is that product
  of the two input blocks, whatever it held before, and the inputs are as they were.
-/
import proofs.«143587_j22539988369511_2_alg».proof.Proof.Gen.Kernel.Launch
import proofs.«143587_j22539988369511_2_alg».proof.Proof.Gen.Kernel.Skeleton
import proofs.«143587_j22539988369511_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or left from the point
    before (when it is not fetched the block's index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body reads and writes through. -/
abbrev rA0 : Rect S1024x1024 := Rect.unit (s := S1024x1024) ![0, 0] S1024x1024.size inb_S1024x1024_S1024x1024_0_0
abbrev rB0 : Rect S1024x3072 := Rect.unit (s := S1024x3072) ![0, 0] S1024x3072.size inb_S1024x3072_S1024x3072_0_0

/-- The output block after the body: its one store, of the product of the two loaded blocks. -/
def out0_2 (x0 : Vec F S1024x1024 .bf16) (x1 : Vec F S1024x3072 .bf16) : Vec F S1024x3072 .bf16 :=
  View.canon [⟨rB0, k0_pay1 (View.ld x0 rA0) (View.ld x1 rB0)⟩]

/-- The one store covers the block. -/
theorem cover0_2 (p0 : Vec F S1024x3072 .bf16) (y : S1024x3072.Idx) :
    ∃ pc ∈ ([⟨rB0, p0⟩] : List (View.Piece (Elt F) S1024x3072 .bf16)), y ∈ pc.1.set :=
  View.cover_of_tiled [⟨rB0, p0⟩] S1024x3072.size (by rfl) y

set_option maxHeartbeats 1000000 in
/-- The body on whole staging buffers: the inputs at `x0`, `x1` and the output at anything; it ends with the inputs
    unchanged and the output at `out0_2 x0 x1`. -/
theorem sound_kernel0 (c : Dev nD) (E : Set ℕ) (i : grid0.Coords)
    (arg1 : Memref sig .tc .vmem S1024x1024 .bf16) (harg1 : arg1.IsWhole) (arg2 : Memref sig .tc .vmem S1024x3072 .bf16) (harg2 : arg2.IsWhole)
    (arg3 : Memref sig .tc .vmem S1024x3072 .bf16) (harg3 : arg3.IsWhole)
    (x0 : Vec F S1024x1024 .bf16) (x1 : Vec F S1024x3072 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__qkv_proj_kernel i arg1 harg1 arg2 harg2 arg3 harg3) K := by
  simp only [cc0__qkv_proj_kernel_eq_skeleton]; unfold cc0__qkv_proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the region on core `c`: the arrays as the region finds them; after the body at point `t` each
    input's buffer at its block and the output's at the product of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation0 (c : Dev nD) : BodyObligation (dat0 (F := F) V c) (defs₀ (F := F)) Variants.none () Set.univ := fun t => by
  rw [bigSep_W0, bigSep_W0]
  exact sound_body0 V c t

end Cert.Kernel.Frame0

end
-- ==== Proof.KFrame1Dat.lean ====
/-
  The second kernel region (attention over head pairs) — its proof data, stated over an abstract function `o9` of
  the nine input blocks for what the body leaves in the output block. The grid is 4 × 8 × 4 (batch, head pair,
  query tile), 128 points. At a point the region is handed: a query block [512,128], a key block and a value
  block [2048,128] (three windows on ONE array, the projection's output, at different column blocks), the rotation
  tables for the query rows [512,64] (twice) and for all key rows [2048,64] (twice; the same two arrays as the
  query tables), the two norm weight rows [1,64], and the output block [512,128]. Because several windows stage
  one array, the array's full share is dealt among them: halves of halves for the three on the projection's
  output, halves for the two on each rotation table.
-/
import proofs.«143587_j22539988369511_2_alg».proof.Proof.Gen.Kernel.Launch
import proofs.«143587_j22539988369511_2_alg».proof.Proof.Gen.Kernel.Skeleton
import proofs.«143587_j22539988369511_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The share of its array each input window holds: the three windows on the projection's output hold a quarter, a
    quarter and a half of it, the two windows on each rotation table a half each, the others the whole. -/
def q1 : Fin cfg1.W → PosShare TreeShare
  | ⟨0, _⟩ => fullShare.left.left
  | ⟨1, _⟩ => fullShare.left.right
  | ⟨2, _⟩ => fullShare.right
  | ⟨3, _⟩ => fullShare.left
  | ⟨4, _⟩ => fullShare.left
  | ⟨5, _⟩ => fullShare.right
  | ⟨6, _⟩ => fullShare.right
  | _ => fullShare

/-- The type of "what the body leaves in the output block", as a function of the nine input blocks. -/
abbrev Out9 (F : FTy → Type) [FloatOps F] : Type :=
  Vec F S512x128 .bf16 → Vec F S2048x128 .bf16 → Vec F S2048x128 .bf16 → Vec F S512x64 .f32 → Vec F S512x64 .f32
    → Vec F S2048x64 .f32 → Vec F S2048x64 .f32 → Vec F S1x64 .f32 → Vec F S1x64 .f32 → Vec F S512x128 .bf16

variable (o9 : Out9 F)

/-- The proof data of the region on core `c`: the arrays as the region finds them; after the body at point `t` each
    input's buffer at its block and the output's at `o9` of the nine input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => o9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q := q1
  owed _ := 0

theorem A_eq1 (c : Dev nD) (w : Fin cfg1.W) : (dat1 V o9 c).A w = V c (Pipeline.arrRef spec1 w) := by
  dsimp only [dat1]
theorem after1_0 (c : Dev nD) (t : Fin cfg1.N) : (dat1 V o9 c).after 0 t = iblk1 V c 0 t := by dsimp only [dat1]
theorem after1_1 (c : Dev nD) (t : Fin cfg1.N) : (dat1 V o9 c).after 1 t = iblk1 V c 1 t := by dsimp only [dat1]
theorem after1_2 (c : Dev nD) (t : Fin cfg1.N) : (dat1 V o9 c).after 2 t = iblk1 V c 2 t := by dsimp only [dat1]
theorem after1_3 (c : Dev nD) (t : Fin cfg1.N) : (dat1 V o9 c).after 3 t = iblk1 V c 3 t := by dsimp only [dat1]
theorem after1_4 (c : Dev nD) (t : Fin cfg1.N) : (dat1 V o9 c).after 4 t = iblk1 V c 4 t := by dsimp only [dat1]
theorem after1_5 (c : Dev nD) (t : Fin cfg1.N) : (dat1 V o9 c).after 5 t = iblk1 V c 5 t := by dsimp only [dat1]
theorem after1_6 (c : Dev nD) (t : Fin cfg1.N) : (dat1 V o9 c).after 6 t = iblk1 V c 6 t := by dsimp only [dat1]
theorem after1_7 (c : Dev nD) (t : Fin cfg1.N) : (dat1 V o9 c).after 7 t = iblk1 V c 7 t := by dsimp only [dat1]
theorem after1_8 (c : Dev nD) (t : Fin cfg1.N) : (dat1 V o9 c).after 8 t = iblk1 V c 8 t := by dsimp only [dat1]
theorem after1_9 (c : Dev nD) (t : Fin cfg1.N) : (dat1 V o9 c).after 9 t
    = o9 (iblk1 V c 0 t) (iblk1 V c 1 t) (iblk1 V c 2 t) (iblk1 V c 3 t) (iblk1 V c 4 t) (iblk1 V c 5 t) (iblk1 V c 6 t) (iblk1 V c 7 t) (iblk1 V c 8 t) := by
  dsimp only [dat1]

end Cert.Kernel.Frame1

end
-- ==== Proof.KShare1.lean ====
/-
  The arrays of the attention region, as the launch hands them over and takes them back. Ten windows stage six
  arrays: the projection's output (three windows), the two rotation tables (two windows each), the two norm rows,
  and the region's own output. The core holds each array whole; on entry the full share of a shared array is cut
  into the shares its windows hold (left and right halves; for three windows the left half is halved again), and
  on exit the shares are put back together. The contents are untouched: an input window never writes its array.
-/
import proofs.«143587_j22539988369511_2_alg».proof.Proof.Gen.Kernel.Launch
import proofs.«143587_j22539988369511_2_alg».proof.Proof.Gen.Kernel.Skeleton
import proofs.«143587_j22539988369511_2_alg».proof.Proof.Gen.Kernel.Points
import proofs.«143587_j22539988369511_2_alg».proof.Proof.KFrame1Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

variable (o9 : Out9 F) (c : Dev nD)

/-- The distinct buffers behind the ten windows, each whole at `V`. -/
theorem arrBufs1_eq (V : (b : Ref sig .tc) → Buf (Elt F) ((c : Thread nD τ).loc b)) :
    (Pipeline.arrBufs (Ix := Unit) (Name := ℕ) (U := UR sig nD τ) (Lvl := ℕ) (cfgs 1).spec c V : sProp 𝕄)
      = iprop((((c : Thread nD τ).loc main_v11) ↦{fullShare} V main_v11) ∗ (((c : Thread nD τ).loc main_v9) ↦{fullShare} V main_v9)
          ∗ (((c : Thread nD τ).loc main_v10) ↦{fullShare} V main_v10) ∗ (((c : Thread nD τ).loc main_v7) ↦{fullShare} V main_v7)
          ∗ (((c : Thread nD τ).loc main_v8) ↦{fullShare} V main_v8) ∗ (((c : Thread nD τ).loc main_v12) ↦{fullShare} V main_v12)) := by
  unfold Pipeline.arrBufs
  exact bigSep_eq_bigSepL_of_eq [main_v11, main_v9, main_v10, main_v7, main_v8, main_v12] (by decide) (by decide) _

/-- The windowed arrays of the proof data, window by window, each at its share. -/
theorem arrays1_eq (Fa : (w : Fin cfg1.W) → Buf (Elt F) ((cfg1.win w).arr.view.loc (c.tc : Thread nD τ))) :
    ((dat1 V o9 c).arrays Fa : sProp 𝕄)
      = iprop((((c : Thread nD τ).loc main_v11) ↦{fullShare.left.left} Fa 0) ∗ (((c : Thread nD τ).loc main_v11) ↦{fullShare.left.right} Fa 1)
          ∗ (((c : Thread nD τ).loc main_v11) ↦{fullShare.right} Fa 2)
          ∗ (((c : Thread nD τ).loc main_v9) ↦{fullShare.left} Fa 3) ∗ (((c : Thread nD τ).loc main_v10) ↦{fullShare.left} Fa 4)
          ∗ (((c : Thread nD τ).loc main_v9) ↦{fullShare.right} Fa 5) ∗ (((c : Thread nD τ).loc main_v10) ↦{fullShare.right} Fa 6)
          ∗ (((c : Thread nD τ).loc main_v7) ↦{fullShare} Fa 7) ∗ (((c : Thread nD τ).loc main_v8) ↦{fullShare} Fa 8)
          ∗ (((c : Thread nD τ).loc main_v12) ↦{fullShare} Fa 9)) := by
  unfold Dat.arrays
  rw [bigSep_W1]
  rw [(arr_whole1 0).set_eq_univ, (arr_whole1 3).set_eq_univ, (arr_whole1 4).set_eq_univ, (arr_whole1 7).set_eq_univ, (arr_whole1 8).set_eq_univ,
    (arr_whole1 9).set_eq_univ]
  rfl

/-- ENTRY. The core's unscoped buffers at `V c` give the region its arrays at their entry contents — each shared
    array's full share cut into its windows' shares — beside the buffers no window stages. -/
theorem arrays1_of_unscopedBufs :
    (unscopedBufs c (V c) : sProp 𝕄)
      ⊢ iprop((dat1 V o9 c).arrays ((dat1 V o9 c).arrAt · 0)
          ∗ Pipeline.unscopedRest (Ix := Unit) (Name := ℕ) (U := UR sig nD τ) (Lvl := ℕ) spec1 c (V c)) := by
  rw [Pipeline.unscopedBufs_split₀ cfgs 1 winFacts₀1.arr_unscoped c (V c), arrBufs1_eq, arrays1_eq]
  have h11 := (pointsTo_share (Ix := Unit) (Name := ℕ) (U := UR sig nD τ) (Lvl := ℕ) (ℓ := (c : Thread nD τ).loc main_v11) (I := Finset.univ) (f := V c main_v11) (PosShare.mem_left_op_right fullShare)).1
  have h11l := (pointsTo_share (Ix := Unit) (Name := ℕ) (U := UR sig nD τ) (Lvl := ℕ) (ℓ := (c : Thread nD τ).loc main_v11) (I := Finset.univ) (f := V c main_v11) (PosShare.mem_left_op_right fullShare.left)).1
  have h9 := (pointsTo_share (Ix := Unit) (Name := ℕ) (U := UR sig nD τ) (Lvl := ℕ) (ℓ := (c : Thread nD τ).loc main_v9) (I := Finset.univ) (f := V c main_v9) (PosShare.mem_left_op_right fullShare)).1
  have h10 := (pointsTo_share (Ix := Unit) (Name := ℕ) (U := UR sig nD τ) (Lvl := ℕ) (ℓ := (c : Thread nD τ).loc main_v10) (I := Finset.univ) (f := V c main_v10) (PosShare.mem_left_op_right fullShare)).1
  iintro ⟨⟨H11, H9, H10, H7, H8, H12⟩, Hrest⟩
  ihave H11' := h11 $$ H11
  icases H11' with ⟨H11l, H11r⟩
  ihave H11l' := h11l $$ H11l
  icases H11l' with ⟨H11ll, H11lr⟩
  ihave H9' := h9 $$ H9
  icases H9' with ⟨H9l, H9r⟩
  ihave H10' := h10 $$ H10
  icases H10' with ⟨H10l, H10r⟩
  isplitr [Hrest]
  swap; · iexact Hrest
  isplitl [H11ll]; · iexact H11ll
  isplitl [H11lr]; · iexact H11lr
  isplitl [H11r]; · iexact H11r
  isplitl [H9l]; · iexact H9l
  isplitl [H10l]; · iexact H10l
  isplitl [H9r]; · iexact H9r
  isplitl [H10r]; · iexact H10r
  isplitl [H7]; · iexact H7
  isplitl [H8]; · iexact H8
  iexact H12

/-- EXIT. The region's arrays after its last point — every input array as it was entered (an input window writes
    nothing), the output array at what the write-backs left — and the buffers no window stages make the core's
    unscoped buffers again, at any valuation `V'` that agrees with `V c` off the output array and holds the output
    array's final contents. -/
theorem unscopedBufs_of_arrays1 (V' : (b : Ref sig .tc) → Buf (Elt F) ((c : Thread nD τ).loc b))
    (hout : (dat1 V o9 c).arrAt 9 cfg1.N = V' main_v12) (hrest : ∀ b, b ≠ main_v12 → V' b = V c b) :
    iprop((dat1 V o9 c).arrays ((dat1 V o9 c).arrAt · cfg1.N)
        ∗ Pipeline.unscopedRest (Ix := Unit) (Name := ℕ) (U := UR sig nD τ) (Lvl := ℕ) spec1 c (V c))
      ⊢ (unscopedBufs c V' : sProp 𝕄) := by
  rw [Pipeline.unscopedBufs_split₀ cfgs 1 winFacts₀1.arr_unscoped c V', arrBufs1_eq, arrays1_eq]
  rw [show (dat1 V o9 c).arrAt 0 cfg1.N = V c main_v11 from ((dat1 V o9 c).arrAt_in 0 rfl _),
    show (dat1 V o9 c).arrAt 1 cfg1.N = V c main_v11 from ((dat1 V o9 c).arrAt_in 1 rfl _),
    show (dat1 V o9 c).arrAt 2 cfg1.N = V c main_v11 from ((dat1 V o9 c).arrAt_in 2 rfl _),
    show (dat1 V o9 c).arrAt 3 cfg1.N = V c main_v9 from ((dat1 V o9 c).arrAt_in 3 rfl _),
    show (dat1 V o9 c).arrAt 4 cfg1.N = V c main_v10 from ((dat1 V o9 c).arrAt_in 4 rfl _),
    show (dat1 V o9 c).arrAt 5 cfg1.N = V c main_v9 from ((dat1 V o9 c).arrAt_in 5 rfl _),
    show (dat1 V o9 c).arrAt 6 cfg1.N = V c main_v10 from ((dat1 V o9 c).arrAt_in 6 rfl _),
    show (dat1 V o9 c).arrAt 7 cfg1.N = V c main_v7 from ((dat1 V o9 c).arrAt_in 7 rfl _),
    show (dat1 V o9 c).arrAt 8 cfg1.N = V c main_v8 from ((dat1 V o9 c).arrAt_in 8 rfl _),
    hout, hrest main_v11 (by decide), hrest main_v9 (by decide), hrest main_v10 (by decide), hrest main_v7 (by decide), hrest main_v8 (by decide)]
  have h11 := (pointsTo_share (Ix := Unit) (Name := ℕ) (U := UR sig nD τ) (Lvl := ℕ) (ℓ := (c : Thread nD τ).loc main_v11) (I := Finset.univ) (f := V c main_v11) (PosShare.mem_left_op_right fullShare)).2
  have h11l := (pointsTo_share (Ix := Unit) (Name := ℕ) (U := UR sig nD τ) (Lvl := ℕ) (ℓ := (c : Thread nD τ).loc main_v11) (I := Finset.univ) (f := V c main_v11) (PosShare.mem_left_op_right fullShare.left)).2
  have h9 := (pointsTo_share (Ix := Unit) (Name := ℕ) (U := UR sig nD τ) (Lvl := ℕ) (ℓ := (c : Thread nD τ).loc main_v9) (I := Finset.univ) (f := V c main_v9) (PosShare.mem_left_op_right fullShare)).2
  have h10 := (pointsTo_share (Ix := Unit) (Name := ℕ) (U := UR sig nD τ) (Lvl := ℕ) (ℓ := (c : Thread nD τ).loc main_v10) (I := Finset.univ) (f := V c main_v10) (PosShare.mem_left_op_right fullShare)).2
  have hR : (Pipeline.unscopedRest (Ix := Unit) (Name := ℕ) (U := UR sig nD τ) (Lvl := ℕ) spec1 c (V c) : sProp 𝕄)
      = Pipeline.unscopedRest spec1 c V' := by
    unfold Pipeline.unscopedRest
    exact bigSep_congr fun b hb => by
      rw [hrest b (fun e => (Finset.mem_sdiff.mp hb).2 (Finset.mem_image.mpr ⟨9, Finset.mem_univ _, e.symm⟩))]
  rw [hR]
  iintro ⟨⟨H11ll, H11lr, H11r, H9l, H10l, H9r, H10r, H7, H8, H12⟩, Hrest⟩
  isplitr [Hrest]
  swap; · iexact Hrest
  isplitl [H11ll H11lr H11r]
  · iapply h11
    isplitr [H11r]
    swap; · iexact H11r
    iapply h11l
    isplitl [H11ll]; · iexact H11ll
    iexact H11lr
  isplitl [H9l H9r]
  · iapply h9
    isplitl [H9l]; · iexact H9l
    iexact H9r
  isplitl [H10l H10r]
  · iapply h10
    isplitl [H10l]; · iexact H10l
    iexact H10r
  isplitl [H7]; · iexact H7
  isplitl [H8]; · iexact H8
  iexact H12

end Cert.Kernel.Frame1

end
-- ==== Proof.KFrame2.lean ====
/-
  The third kernel region (the output projection) at one grid point. The grid has 8 points; point t is handed rows
  1024·t … 1024·t+1023 of the attention output (a [1024,1024] block), the whole transposed projection matrix
  ([1024,1024], fetched once), the bias as a row [1,1024] (fetched once), and an output block [1024,1024]. The body
  loads the three inputs whole and stores product-plus-bias over the whole output block.
-/
import proofs.«143587_j22539988369511_2_alg».proof.Proof.Gen.Kernel.Launch
import proofs.«143587_j22539988369511_2_alg».proof.Proof.Gen.Kernel.Skeleton
import proofs.«143587_j22539988369511_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or left from the point
    before (when it is not fetched the block's index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body reads and writes through. -/
abbrev rA2 : Rect S1024x1024 := Rect.unit (s := S1024x1024) ![0, 0] S1024x1024.size inb_S1024x1024_S1024x1024_0_0
abbrev rC2 : Rect S1x1024 := Rect.unit (s := S1x1024) ![0, 0] S1x1024.size inb_S1x1024_S1x1024_0_0

/-- The output block after the body: its one store, of the product of the first two loaded blocks plus the bias row. -/
def out2_3 (x0 x1 : Vec F S1024x1024 .bf16) (x2 : Vec F S1x1024 .f32) : Vec F S1024x1024 .f32 :=
  View.canon [⟨rA2, k2_pay1 (View.ld x0 rA2) (View.ld x1 rA2) (View.ld x2 rC2)⟩]

/-- The one store covers the block. -/
theorem cover2_3 (p0 : Vec F S1024x1024 .f32) (y : S1024x1024.Idx) :
    ∃ pc ∈ ([⟨rA2, p0⟩] : List (View.Piece (Elt F) S1024x1024 .f32)), y ∈ pc.1.set :=
  View.cover_of_tiled [⟨rA2, p0⟩] S1024x1024.size (by rfl) y

set_option maxHeartbeats 1000000 in
/-- The body on whole staging buffers: the inputs at `x0`, `x1`, `x2` and the output at anything; it ends with the
    inputs unchanged and the output at `out2_3 x0 x1 x2`. -/
theorem sound_kernel2 (c : Dev nD) (E : Set ℕ) (i : grid2.Coords)
    (arg1 : Memref sig .tc .vmem S1024x1024 .bf16) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S1024x1024 .f32) (harg4 : arg4.IsWhole)
    (x0 x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__out_proj_kernel i arg1 harg1 arg2 harg2 arg3 harg3 arg4 harg4) K := by
  simp only [cc2__out_proj_kernel_eq_skeleton]; unfold cc2__out_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of the region on core `c`: the arrays as the region finds them; after the body at point `t` each
    input's buffer at its block and the output's at product-plus-bias of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region, at every point. -/
theorem body_obligation2 (c : Dev nD) : BodyObligation (dat2 (F := F) V c) (defs₀ (F := F)) Variants.none () Set.univ := fun t => by
  rw [bigSep_W2, bigSep_W2]
  exact sound_body2 V c t

end Cert.Kernel.Frame2

end
-- ==== Proof.KRun.lean ====
/-
  The whole run of the program: host operations (reshapes, transposes, changes of float format), the three kernel
  regions in order, one last reshape. The contents of the core's buffers are followed from the launch through
  every stretch: a host stretch rewrites the buffers its operations write; a region leaves its output array at what
  its write-backs produce and everything else as it found it. Every weakly fair execution terminates, and at the
  end every unscoped buffer holds the contents this fold computes — in particular the result, and the arguments,
  which nothing writes.
-/
import proofs.«143587_j22539988369511_2_alg».proof.Proof.Gen.Kernel.Launch
import proofs.«143587_j22539988369511_2_alg».proof.Proof.Gen.Kernel.Skeleton
import proofs.«143587_j22539988369511_2_alg».proof.Proof.Gen.Kernel.Points
import proofs.«143587_j22539988369511_2_alg».proof.Proof.KFrame0
import proofs.«143587_j22539988369511_2_alg».proof.Proof.KShare1
import proofs.«143587_j22539988369511_2_alg».proof.Proof.KFrame2
import proofs.«143587_j22539988369511_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Frame0 Cert.Kernel.Frame1 Cert.Kernel.Frame2

variable (o9 : Out9 F)
  (hb1 : ∀ (V : (c : Dev nD) → (b : Ref sig .tc) → Buf (Elt F) ((c : Thread nD τ).loc b)) (c : Dev nD),
    BodyObligation (dat1 (F := F) V o9 c) (defs₀ (F := F)) Variants.none () Set.univ)
variable (m : (ℓ : Loc nD τ sig) → Buf (Elt F) ℓ) (ρ : Dev nD → PrngReg)

/-! ## The buffer contents at each boundary -/

/-- At launch. -/
abbrev W0 : Dev nD → Valuation τ sig (Elt F) := fun c b => m (c, b)
/-- After the first host stretch (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the projection region: its output array at what the write-backs leave. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the attention region: its output array at what the write-backs leave, everything else as entered. -/
def W3 (c : Dev nD) : Valuation τ sig (Elt F) :=
  Function.update (W2 m c) (Proc.devRef .tc main_v12) ((dat1 (V2 m) o9 c).arrAt 9 cfg1.N)
abbrev V3 : (c : Dev nD) → (b : Ref sig .tc) → Buf (Elt F) ((c : Thread nD τ).loc b) := fun c b => W3 o9 m c b
theorem W3_out (c : Dev nD) : V3 o9 m c main_v12 = (dat1 (V2 m) o9 c).arrAt 9 cfg1.N := by
  show W3 o9 m c (Proc.devRef .tc main_v12) = _
  unfold W3; exact Function.update_self ..
theorem W3_of_ne (c : Dev nD) (b : Ref sig .tc) (hb : b ≠ main_v12) : V3 o9 m c b = V2 m c b := by
  show W3 o9 m c (Proc.devRef .tc b) = W2 m c (Proc.devRef .tc b)
  unfold W3; exact Function.update_of_ne (StableHlo.devRef_ne_of_ne hb) ..

/-- After the output projection region. -/
def W4 (c : Dev nD) : Valuation τ sig (Elt F) :=
  Pipeline.withArrays spec2 c (W3 o9 m c) fun w => (dat2 (V3 o9 m) c).arrAt w cfg2.N
theorem W4_arr (c : Dev nD) (w : Fin cfg2.W) :
    W4 o9 m c (Proc.devRef .tc (Pipeline.arrRef spec2 w)) = (dat2 (V3 o9 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 o9 m c (Proc.devRef .tc b) = W3 o9 m c (Proc.devRef .tc b) := by
  unfold W4; exact Pipeline.withArrays_of_ne spec2 c _ _ b hb
abbrev V4 : (c : Dev nD) → (b : Ref sig .tc) → Buf (Elt F) ((c : Thread nD τ).loc b) := fun c b => W4 o9 m c b
theorem hF2 (c : Dev nD) (w : Fin cfg2.W) : (dat2 (V3 o9 m) c).arrAt w cfg2.N = V4 o9 m c (Pipeline.arrRef spec2 w) :=
  (W4_arr o9 m c w).symm
theorem hrest2 (c : Dev nD) : ∀ b, b ∉ Finset.univ.image (Pipeline.arrRef spec2) → V4 o9 m c b = V3 o9 m c b :=
  fun b hb => W4_of_ne o9 m c b fun w e => hb (Finset.mem_image.mpr ⟨w, Finset.mem_univ _, e⟩)
/-- After the last host stretch: the end. -/
abbrev W5 : Dev nD → Valuation τ sig (Elt F) := fun c => StableHlo.after hostOps3 (W4 o9 m c)

/-! ## The proof data family and the thread state -/

abbrev adm : (p : Fin 3) → (pcfgs (F := F) p).Adm := fun p => (cfgs p).toPCfg_adm
/-- Every region's proof data, each at its entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) o9 c
  | ⟨2, _⟩ => fun c => dat2 (V3 o9 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := StableHlo.held (c : Thread nD τ) (Pipeline.ucRefs τ sig) (W5 o9 m c)

/-! ## The regions as segments -/

set_option backward.isDefEq.respectTransparency.types false in
/-- The projection region: entered from every unscoped buffer at `W1`, left at `W2`. -/
def reg0 : Pipeline.RegionSeg (pcfgs (F := F)) adm (pdats o9 m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats o9 m) launch0.win launch0.arr_whole c
      ((pdats o9 m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats o9 m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats o9 m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats o9 m) ((pdats o9 m 0 c).share_full fun _ => rfl)
      (V1 m c) (V2 m c) ((pdats o9 m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at `W2`, left at `W3`; its shared arrays' full
    shares are cut into the windows' shares on entry and joined on exit. -/
def reg1 : Pipeline.RegionSeg (pcfgs (F := F)) adm (pdats o9 m) () defs₀ 𝒱₀ L lv 1 where
  win := winFacts₀1
  block_pos := block_pos1
  stage_whole := stage_whole1
  K := PEmpty
  osem k := k.elim
  ho := Pipeline.OwnSemFacts.none _
  hbody c := (hb1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 o9 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := arrays1_of_unscopedBufs (V2 m) o9 c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats o9 m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats o9 m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats o9 m 1 c).arrays ((pdats o9 m 1 c).arrAt · cfg1.N)
          ∗ Pipeline.unscopedRest (Ix := Unit) (Name := ℕ) (U := UR sig nD τ) (Lvl := ℕ) spec1 c (V2 m c))
        ⊢ (unscopedBufs c (V3 o9 m c) : sProp 𝕄) :=
      unscopedBufs_of_arrays1 (V2 m) o9 c (V3 o9 m c) (W3_out o9 m c).symm (fun b hb => W3_of_ne o9 m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The output projection region: entered from every unscoped buffer at `W3`, left at `W4`. -/
def reg2 : Pipeline.RegionSeg (pcfgs (F := F)) adm (pdats o9 m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 o9 m) c).loose
  hwaits := Pipeline.hwaits_of_owed_zero _ _ _ _ L lv 2 fun _ _ => rfl
  pre c := iprop(StableHlo.held (c : Thread nD τ) (Pipeline.ucRefs τ sig) (W3 o9 m c) ∗ R c)
  post c := iprop(StableHlo.held (c : Thread nD τ) (Pipeline.ucRefs τ sig) (W4 o9 m c) ∗ R c)
  X c := iprop(∃ r, prngReg c r)
  Y c := iprop(∃ r, prngReg c r)
  Z c := Pipeline.unscopedRest (Ix := Unit) (Name := ℕ) (U := UR sig nD τ) (Lvl := ℕ) spec2 c (V3 o9 m c)
  hentry c := by
    rw [Pipeline.ownSems0_none]
    have hsplit := Pipeline.arrays_of_unscopedBufs (p := 2) (pcfgs (F := F)) adm (pdats o9 m) launch2.win launch2.arr_whole c
      ((pdats o9 m 2 c).share_full fun _ => rfl) (V3 o9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats o9 m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats o9 m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats o9 m) ((pdats o9 m 2 c).share_full fun _ => rfl)
      (V3 o9 m c) (V4 o9 m c) ((pdats o9 m 2 c).arrAt · cfg2.N) (hF2 o9 m c) (hrest2 o9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats o9 m) () defs₀ 𝒱₀ L lv) :=
  [ .host (hseg hostOps0 hostOps0_sub hostOps0_fresh (W0 m)),
    .region (reg0 o9 m),
    .region (reg1 o9 hb1 m),
    .region (reg2 o9 m),
    .host (hseg hostOps3 hostOps3_sub hostOps3_fresh (W4 o9 m)) ]
theorem main_run (c : Dev nD) : main (F := F) c = Pipeline.Seg.run (segs o9 hb1 m) := (main_chain c).trans (by chain_rfl)

include hb1 in
set_option backward.isDefEq.respectTransparency.types false in
/-- THE RUN. From any memory with zero counters every weakly fair execution of the program terminates, nothing
    faulting, and every final memory holds, at every unscoped buffer, the contents the fold above computes. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 o9 m c b) :=
  Pipeline.θ_run_regions_kit (pcfgs (F := F)) adm (pdats o9 m) () cellOf_inj emb₁ defs₀ 𝒱₀ L lv m ρ main (segs o9 hb1 m)
    (fun c Q => by rw [main_run o9 hb1 m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ o9 m)
    (hch := ⟨fun _ => .rfl, fun _ => .rfl, fun _ => .rfl, fun _ => .rfl, fun _ => .rfl, fun c => sep_mono .rfl (by
      iintro ⟨-, HO⟩
      iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 o9 m c b)
    (hfin := fun c s' => by
      rw [show Tₙ o9 m c = StableHlo.held (c : Thread nD τ) (Pipeline.ucRefs τ sig) (W5 o9 m c) from rfl]
      unfold StableHlo.held
      iintro ⟨Hh, HSI⟩
      imodintro
      iapply (pointsTo_read_all (Pipeline.ucRefs τ sig) (fun b => (((c : Thread nD τ)).1, b)) (W5 o9 m c) s')
      isplitl [Hh] <;> iassumption)
    (hQ := fun s h c => h c)

end Cert.Kernel.Run

end
-- ==== Proof.KFrame.lean ====
/-
  The frame of the program, read off its run: nothing writes an argument — no host operation names one as its
  result, a region changes only its output array — so the fold of the buffers' contents, followed backwards at an
  argument, reaches the launch memory; and the result buffer ends at what the fold computes for it.
-/
import proofs.«143587_j22539988369511_2_alg».proof.Proof.Gen.Kernel.Launch
import proofs.«143587_j22539988369511_2_alg».proof.Proof.Gen.Kernel.Skeleton
import proofs.«143587_j22539988369511_2_alg».proof.Proof.Gen.Kernel.Points
import proofs.«143587_j22539988369511_2_alg».proof.Proof.KRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Frame0 Cert.Kernel.Frame1 Cert.Kernel.Frame2

variable (o9 : Out9 F)
  (hb1 : ∀ (V : (c : Dev nD) → (b : Ref sig .tc) → Buf (Elt F) ((c : Thread nD τ).loc b)) (c : Dev nD),
    BodyObligation (dat1 (F := F) V o9 c) (defs₀ (F := F)) Variants.none () Set.univ)
variable (m : (ℓ : Loc nD τ sig) → Buf (Elt F) ℓ) (ρ : Dev nD → PrngReg)

/-- A buffer no host operation writes and no region's output array: it ends as launched. -/
theorem W5_kept (c : Dev nD) (r : Ref sig .tc) (h0 : r ∉ hostOps0_W) (h3 : r ∉ hostOps3_W)
    (hne0 : ∀ w, Pipeline.arrRef spec0 w ≠ r) (hne1 : r ≠ main_v12) (hne2 : ∀ w, Pipeline.arrRef spec2 w ≠ r) :
    W5 o9 m c (Proc.devRef .tc r) = m ((c : Thread nD τ).loc r) :=
  calc W5 o9 m c (Proc.devRef .tc r)
    _ = W4 o9 m c (Proc.devRef .tc r) := StableHlo.after_of_writes_sub hostOps3 _ hostOps3_writes h3
    _ = W3 o9 m c (Proc.devRef .tc r) := W4_of_ne o9 m c r hne2
    _ = W2 m c (Proc.devRef .tc r) := W3_of_ne o9 m c r hne1
    _ = W1 m c (Proc.devRef .tc r) := W2_of_ne m c r hne0
    _ = W0 m c (Proc.devRef .tc r) := StableHlo.after_of_writes_sub hostOps0 _ hostOps0_writes h0
    _ = m ((c : Thread nD τ).loc r) := rfl

include hb1 in
/-- THE RUN, READ: every weakly fair execution terminates, the result buffer ends at what the fold computes for it
    and every argument buffer as launched. -/
theorem run_result : θ_run defs (onTc (τ := τ) (main (F := F))) ⟨m, fun _ => 0, ρ⟩ (fun r => ∀ c : Dev nD,
      r.2.mem ((c.tc : Thread nD τ).loc main_v14) = W5 o9 m c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (mem_uc main_v14 (by decide)),
     (h c _ (mem_uc main_arg0 (by decide))).trans (W5_kept o9 m c main_arg0 (by decide) (by decide) (by decide) (by decide) (by decide)),
     (h c _ (mem_uc main_arg1 (by decide))).trans (W5_kept o9 m c main_arg1 (by decide) (by decide) (by decide) (by decide) (by decide)),
     (h c _ (mem_uc main_arg2 (by decide))).trans (W5_kept o9 m c main_arg2 (by decide) (by decide) (by decide) (by decide) (by decide)),
     (h c _ (mem_uc main_arg3 (by decide))).trans (W5_kept o9 m c main_arg3 (by decide) (by decide) (by decide) (by decide) (by decide)),
     (h c _ (mem_uc main_arg4 (by decide))).trans (W5_kept o9 m c main_arg4 (by decide) (by decide) (by decide) (by decide) (by decide)),
     (h c _ (mem_uc main_arg5 (by decide))).trans (W5_kept o9 m c main_arg5 (by decide) (by decide) (by decide) (by decide) (by decide)),
     (h c _ (mem_uc main_arg6 (by decide))).trans (W5_kept o9 m c main_arg6 (by decide) (by decide) (by decide) (by decide) (by decide)),
     (h c _ (mem_uc main_arg7 (by decide))).trans (W5_kept o9 m c main_arg7 (by decide) (by decide) (by decide) (by decide) (by decide))⟩)
    (run o9 hb1 m ρ)

include hb1 in
/-- THE FRAME: every weakly fair execution terminates, nothing faulting, and the argument buffers end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => (h c).2) (run_result o9 hb1 m ρ)

end Cert.Kernel.Run

end
-- ==== Proof.KFrame1.lean ====
/-
  The attention region of the program, point by point.

  The second of the program's three kernel regions runs the attention kernel on a grid of 128 points through ten
  windows: nine inputs (a block of queries, a block of keys, a block of values, the rotation tables' cosines and
  sines for the query rows and for the key rows, and the two normalisation weight rows) and one output block. At
  every point the kernel body reads each input's staging buffer whole, computes one vector from the nine vectors it
  read, and overwrites the output's staging buffer whole with that vector.

  This module states that behaviour once, for any contents `V` of the core's buffers on entry to the region and for
  any float instance:

  * `before1_W_of`: an input window's current staging buffer holds the window's block, at every point;
  * `k1_out`: the vector the body stores, as a function of the nine vectors it loads;
  * `out1_9`: the output's staging buffer after the body, as a function of the nine input blocks;
  * `sound_kernel1`: the body's triple on whole staging buffers;
  * `body_obligation1`: the region's body obligation at every point, for the proof data whose output block is `out1_9`.
-/
import proofs.«143587_j22539988369511_2_alg».proof.Proof.KFrame1Dat
import proofs.«143587_j22539988369511_2_alg».proof.Proof.Gen.Kernel.Launch
import proofs.«143587_j22539988369511_2_alg».proof.Proof.Gen.Kernel.Skeleton
import proofs.«143587_j22539988369511_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- whether an index lies in a rectangle of thousands of rows is decided one coordinate at a time
set_option maxRecDepth 16384

noncomputable section

namespace Cert.Kernel.Frame1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## What the body finds in the input windows' buffers

    An input window's current staging buffer holds the window's block at every point, whether or not the pipeline
    fetched it there: where it did not, the block index has not moved since the point before and the body left the
    buffer as it found it. This holds for any proof data whose arrays are `V`'s and whose body leaves the inputs'
    blocks in place. The windows are uncut and never idle. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole query (and output) block. -/
abbrev r1_0 : Rect S512x128 := Rect.unit (s := S512x128) ![0, 0] S512x128.size inb_S512x128_S512x128_0_0
/-- The whole key (and value) block. -/
abbrev r1_1 : Rect S2048x128 := Rect.unit (s := S2048x128) ![0, 0] S2048x128.size inb_S2048x128_S2048x128_0_0
/-- The whole rotary table for the query rows. -/
abbrev r1_2 : Rect S512x64 := Rect.unit (s := S512x64) ![0, 0] S512x64.size inb_S512x64_S512x64_0_0
/-- The whole rotary table for the key rows. -/
abbrev r1_3 : Rect S2048x64 := Rect.unit (s := S2048x64) ![0, 0] S2048x64.size inb_S2048x64_S2048x64_0_0
/-- The whole normalisation weight. -/
abbrev r1_4 : Rect S1x64 := Rect.unit (s := S1x64) ![0, 0] S1x64.size inb_S1x64_S1x64_0_0

/-! ## What the body leaves in the output window's buffer -/

/-- The value the body stores, from the nine vectors it loads: the query block `q`, the key block `k`, the value
    block `v`, the cosine and sine tables for the query rows (`qc`, `qs`) and for the key rows (`kc`, `ks`), and the
    two normalisation weights (`qn`, `kn`). The composition is the kernel's: its first part's thirteen values of the
    loaded vectors, its second part's five of those, its third part's two, and the stored vector of four of them. -/
def k1_out (q : Vec F S512x128 .bf16) (k v : Vec F S2048x128 .bf16) (qc qs : Vec F S512x64 .f32)
    (kc ks : Vec F S2048x64 .f32) (qn kn : Vec F S1x64 .f32) : FVec F S512x128 .bf16 :=
  -- the first part: the tables and weights recast, the blocks widened, their first halves taken, the query half normalised
  let v1 := k1_pay2 qc
  let v3 := k1_pay3 qs
  let v5 := k1_pay4 kc
  let v7 := k1_pay5 ks
  let v9 := k1_pay6 qn
  let v11 := k1_pay7 kn
  let v14 := k1_pay8 q
  let v17 := k1_pay9 k
  let v19 := k1_pay10 v
  let v21 := k1_pay11 k
  let v22 := k1_pay12 v
  let v34 := k1_pay13 qn q
  let v35 := k1_pay14 k
  -- the second part: the first head's attention output, and the second halves
  let v79 := k1_pay15 v1 v3 v5 v7 v11 v21 v22 v34 v35
  let v80 := k1_pay16 v14
  let v81 := k1_pay17 v17
  let v82 := k1_pay18 v19
  let v84 := k1_pay19 v14
  -- the third part: the second head's unnormalised weights and their row sums
  let v132 := k1_pay20 v1 v3 v5 v7 v9 v11 v80 v81 v84
  let v133 := k1_pay21 v1 v3 v5 v7 v9 v11 v80 v81 v84
  -- the stored vector: both heads' outputs side by side
  k1_pay1 v79 v82 v132 v133

/-- Window 9's staging buffer after the body, from the input windows' blocks: its one store, over the whole buffer,
    of `k1_out` of what the nine loads read, each through its own whole rectangle. -/
def out1_9 (x0 : Vec F S512x128 .bf16) (x1 x2 : Vec F S2048x128 .bf16) (x3 x4 : Vec F S512x64 .f32)
    (x5 x6 : Vec F S2048x64 .f32) (x7 x8 : Vec F S1x64 .f32) : Vec F S512x128 .bf16 :=
  View.canon [⟨r1_0, k1_out (View.ld x0 r1_0) (View.ld x1 r1_1) (View.ld x2 r1_1) (View.ld x3 r1_2) (View.ld x4 r1_2)
    (View.ld x5 r1_3) (View.ld x6 r1_3) (View.ld x7 r1_4) (View.ld x8 r1_4)⟩]

/-- The one store's rectangle is the whole buffer, so it covers it. -/
theorem cover1_9 (p0 : Vec F S512x128 .bf16) (y : S512x128.Idx) :
    ∃ pc ∈ ([⟨r1_0, p0⟩] : List (View.Piece (Elt F) S512x128 .bf16)), y ∈ pc.1.set :=
  View.cover_of_tiled [⟨r1_0, p0⟩] S512x128.size (by rfl) y

/-! ## The body's triple -/

set_option maxHeartbeats 4000000 in
/-- The kernel body on whole staging buffers, the nine inputs' at contents `x0` … `x8` and the output's at anything:
    it ends with the inputs' buffers as they were and the output's at `out1_9` of the nine. The body is its three
    parts in sequence — nine whole-buffer loads, then pure computation — followed by a load of the output buffer whose
    value is not used and one store over the whole output buffer; what that store leaves is read back as the canonical
    contents of a covering list of one piece. -/
theorem sound_kernel1 (c : Dev nD) (E : Set ℕ) (i : grid1.Coords) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x64 .f32) (harg6 : arg6.IsWhole) (arg7 : Memref sig .tc .vmem S512x64 .f32) (harg7 : arg7.IsWhole) (arg8 : Memref sig .tc .vmem S2048x64 .f32) (harg8 : arg8.IsWhole) (arg9 : Memref sig .tc .vmem S2048x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S512x128 .bf16) (harg12 : arg12.IsWhole)
    (x0 : Vec F S512x128 .bf16) (x1 x2 : Vec F S2048x128 .bf16) (x3 x4 : Vec F S512x64 .f32)
    (x5 x6 : Vec F S2048x64 .f32) (x7 x8 : Vec F S1x64 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8
        ∗ (∃ d, owns (c : Thread nD τ) arg12 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8
            ∗ owns (c : Thread nD τ) arg12 fullShare (out1_9 x0 x1 x2 x3 x4 x5 x6 x7 x8)) -∗ K ⟨⟩))
      ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _)

/-! ## The body obligation, at a generic point -/

section Obligation

variable (o9 : Out9 F)

/-- Each input's current staging buffer holds its block at every point, fetched there or not, whatever the proof
    data's output block is. -/
theorem before1_0 (c : Dev nD) (t : Fin cfg1.N) (d) : (dat1 V o9 c).before 0 t d = iblk1 V c 0 t :=
  before1_0_of V (dat1 V o9 c) (A_eq1 V o9 c 0) (after1_0 V o9 c) t d
theorem before1_1 (c : Dev nD) (t : Fin cfg1.N) (d) : (dat1 V o9 c).before 1 t d = iblk1 V c 1 t :=
  before1_1_of V (dat1 V o9 c) (A_eq1 V o9 c 1) (after1_1 V o9 c) t d
theorem before1_2 (c : Dev nD) (t : Fin cfg1.N) (d) : (dat1 V o9 c).before 2 t d = iblk1 V c 2 t :=
  before1_2_of V (dat1 V o9 c) (A_eq1 V o9 c 2) (after1_2 V o9 c) t d
theorem before1_3 (c : Dev nD) (t : Fin cfg1.N) (d) : (dat1 V o9 c).before 3 t d = iblk1 V c 3 t :=
  before1_3_of V (dat1 V o9 c) (A_eq1 V o9 c 3) (after1_3 V o9 c) t d
theorem before1_4 (c : Dev nD) (t : Fin cfg1.N) (d) : (dat1 V o9 c).before 4 t d = iblk1 V c 4 t :=
  before1_4_of V (dat1 V o9 c) (A_eq1 V o9 c 4) (after1_4 V o9 c) t d
theorem before1_5 (c : Dev nD) (t : Fin cfg1.N) (d) : (dat1 V o9 c).before 5 t d = iblk1 V c 5 t :=
  before1_5_of V (dat1 V o9 c) (A_eq1 V o9 c 5) (after1_5 V o9 c) t d
theorem before1_6 (c : Dev nD) (t : Fin cfg1.N) (d) : (dat1 V o9 c).before 6 t d = iblk1 V c 6 t :=
  before1_6_of V (dat1 V o9 c) (A_eq1 V o9 c 6) (after1_6 V o9 c) t d
theorem before1_7 (c : Dev nD) (t : Fin cfg1.N) (d) : (dat1 V o9 c).before 7 t d = iblk1 V c 7 t :=
  before1_7_of V (dat1 V o9 c) (A_eq1 V o9 c 7) (after1_7 V o9 c) t d
theorem before1_8 (c : Dev nD) (t : Fin cfg1.N) (d) : (dat1 V o9 c).before 8 t d = iblk1 V c 8 t :=
  before1_8_of V (dat1 V o9 c) (A_eq1 V o9 c 8) (after1_8 V o9 c) t d

end Obligation

/-- What the body is called with at point `t`: the region's invariant, what the core owes, and every window's
    current staging buffer at what it then holds, -/
def bodyPre1 (c : Dev nD) (t : Fin cfg1.N) : sProp 𝕄 :=
  iprop((dat1 V out1_9 c).Φ t.castSucc ∗ (dat1 V out1_9 c).owesAt () t.castSucc
    ∗ (∃ d, owns (c : Thread nD τ) (st1_0 t) fullShare ((dat1 V out1_9 c).before 0 t d))
    ∗ (∃ d, owns (c : Thread nD τ) (st1_1 t) fullShare ((dat1 V out1_9 c).before 1 t d))
    ∗ (∃ d, owns (c : Thread nD τ) (st1_2 t) fullShare ((dat1 V out1_9 c).before 2 t d))
    ∗ (∃ d, owns (c : Thread nD τ) (st1_3 t) fullShare ((dat1 V out1_9 c).before 3 t d))
    ∗ (∃ d, owns (c : Thread nD τ) (st1_4 t) fullShare ((dat1 V out1_9 c).before 4 t d))
    ∗ (∃ d, owns (c : Thread nD τ) (st1_5 t) fullShare ((dat1 V out1_9 c).before 5 t d))
    ∗ (∃ d, owns (c : Thread nD τ) (st1_6 t) fullShare ((dat1 V out1_9 c).before 6 t d))
    ∗ (∃ d, owns (c : Thread nD τ) (st1_7 t) fullShare ((dat1 V out1_9 c).before 7 t d))
    ∗ (∃ d, owns (c : Thread nD τ) (st1_8 t) fullShare ((dat1 V out1_9 c).before 8 t d))
    ∗ (∃ d, owns (c : Thread nD τ) (st1_9 t) fullShare ((dat1 V out1_9 c).before 9 t d)))

/-- and what it returns: the same, every buffer at what the body leaves in it. -/
def bodyPost1 (c : Dev nD) (t : Fin cfg1.N) : sProp 𝕄 :=
  iprop((dat1 V out1_9 c).Φ t.succ ∗ (dat1 V out1_9 c).owesAt () t.succ
    ∗ owns (c : Thread nD τ) (st1_0 t) fullShare ((dat1 V out1_9 c).after 0 t)
    ∗ owns (c : Thread nD τ) (st1_1 t) fullShare ((dat1 V out1_9 c).after 1 t)
    ∗ owns (c : Thread nD τ) (st1_2 t) fullShare ((dat1 V out1_9 c).after 2 t)
    ∗ owns (c : Thread nD τ) (st1_3 t) fullShare ((dat1 V out1_9 c).after 3 t)
    ∗ owns (c : Thread nD τ) (st1_4 t) fullShare ((dat1 V out1_9 c).after 4 t)
    ∗ owns (c : Thread nD τ) (st1_5 t) fullShare ((dat1 V out1_9 c).after 5 t)
    ∗ owns (c : Thread nD τ) (st1_6 t) fullShare ((dat1 V out1_9 c).after 6 t)
    ∗ owns (c : Thread nD τ) (st1_7 t) fullShare ((dat1 V out1_9 c).after 7 t)
    ∗ owns (c : Thread nD τ) (st1_8 t) fullShare ((dat1 V out1_9 c).after 8 t)
    ∗ owns (c : Thread nD τ) (st1_9 t) fullShare ((dat1 V out1_9 c).after 9 t))

set_option maxHeartbeats 1000000 in
/-- The body at any point: the inputs' staging buffers hold their blocks, so the body's triple applies with the nine
    blocks for the nine vectors; the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V out1_9 c).Φ t.succ = (dat1 V out1_9 c).Φ t.castSucc from rfl,
    show (dat1 V out1_9 c).owesAt () t.succ = (dat1 V out1_9 c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The region's body obligation, at every point. -/
theorem body_obligation1 (c : Dev nD) : BodyObligation (dat1 (F := F) V out1_9 c) (defs₀ (F := F)) Variants.none () Set.univ := fun t => by
  rw [bigSep_W1, bigSep_W1]
  exact sound_body1 V c t

end Cert.Kernel.Frame1

end
-- ==== Proof.KIFrame0.lean ====
/-
  The first kernel region (the q/k/v projection) at one grid point. The grid has 8 points; point t is handed rows
  1024·t … 1024·t+1023 of the flattened activations (a [1024,1024] block), the whole transposed weight matrix
  ([1024,3072], fetched once), and an output block [1024,3072]. The body loads the two inputs whole, multiplies
  them, and stores the product over the whole output block; so after the body the output block is that product
  of the two input blocks, whatever it held before, and the inputs are as they were.
-/
import proofs.«143587_j22539988369511_2_alg».proof.Proof.Gen.KernelIdeal.Launch
import proofs.«143587_j22539988369511_2_alg».proof.Proof.Gen.KernelIdeal.Skeleton
import proofs.«143587_j22539988369511_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or left from the point
    before (when it is not fetched the block's index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body reads and writes through. -/
abbrev rA0 : Rect S1024x1024 := Rect.unit (s := S1024x1024) ![0, 0] S1024x1024.size inb_S1024x1024_S1024x1024_0_0
abbrev rB0 : Rect S1024x3072 := Rect.unit (s := S1024x3072) ![0, 0] S1024x3072.size inb_S1024x3072_S1024x3072_0_0

/-- The output block after the body: its one store, of the product of the two loaded blocks. -/
def out0_2 (x0 : Vec F S1024x1024 .bf16) (x1 : Vec F S1024x3072 .bf16) : Vec F S1024x3072 .bf16 :=
  View.canon [⟨rB0, k0_pay1 (View.ld x0 rA0) (View.ld x1 rB0)⟩]

/-- The one store covers the block. -/
theorem cover0_2 (p0 : Vec F S1024x3072 .bf16) (y : S1024x3072.Idx) :
    ∃ pc ∈ ([⟨rB0, p0⟩] : List (View.Piece (Elt F) S1024x3072 .bf16)), y ∈ pc.1.set :=
  View.cover_of_tiled [⟨rB0, p0⟩] S1024x3072.size (by rfl) y

set_option maxHeartbeats 1000000 in
/-- The body on whole staging buffers: the inputs at `x0`, `x1` and the output at anything; it ends with the inputs
    unchanged and the output at `out0_2 x0 x1`. -/
theorem sound_kernel0 (c : Dev nD) (E : Set ℕ) (i : grid0.Coords)
    (arg1 : Memref sig .tc .vmem S1024x1024 .bf16) (harg1 : arg1.IsWhole) (arg2 : Memref sig .tc .vmem S1024x3072 .bf16) (harg2 : arg2.IsWhole)
    (arg3 : Memref sig .tc .vmem S1024x3072 .bf16) (harg3 : arg3.IsWhole)
    (x0 : Vec F S1024x1024 .bf16) (x1 : Vec F S1024x3072 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__qkv_proj_kernel i arg1 harg1 arg2 harg2 arg3 harg3) K := by
  simp only [cc0__qkv_proj_kernel_eq_skeleton]; unfold cc0__qkv_proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the region on core `c`: the arrays as the region finds them; after the body at point `t` each
    input's buffer at its block and the output's at the product of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame0

end
-- ==== Proof.KIFrame1Dat.lean ====
/-
  The second kernel region (attention over head pairs) — its proof data, stated over an abstract function `o9` of
  the nine input blocks for what the body leaves in the output block. The grid is 4 × 8 × 4 (batch, head pair,
  query tile), 128 points. At a point the region is handed: a query block [512,128], a key block and a value
  block [2048,128] (three windows on ONE array, the projection's output, at different column blocks), the rotation
  tables for the query rows [512,64] (twice) and for all key rows [2048,64] (twice; the same two arrays as the
  query tables), the two norm weight rows [1,64], and the output block [512,128]. Because several windows stage
  one array, the array's full share is dealt among them: halves of halves for the three on the projection's
  output, halves for the two on each rotation table.
-/
import proofs.«143587_j22539988369511_2_alg».proof.Proof.Gen.KernelIdeal.Launch
import proofs.«143587_j22539988369511_2_alg».proof.Proof.Gen.KernelIdeal.Skeleton
import proofs.«143587_j22539988369511_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The share of its array each input window holds: the three windows on the projection's output hold a quarter, a
    quarter and a half of it, the two windows on each rotation table a half each, the others the whole. -/
def q1 : Fin cfg1.W → PosShare TreeShare
  | ⟨0, _⟩ => fullShare.left.left
  | ⟨1, _⟩ => fullShare.left.right
  | ⟨2, _⟩ => fullShare.right
  | ⟨3, _⟩ => fullShare.left
  | ⟨4, _⟩ => fullShare.left
  | ⟨5, _⟩ => fullShare.right
  | ⟨6, _⟩ => fullShare.right
  | _ => fullShare

/-- The type of "what the body leaves in the output block", as a function of the nine input blocks. -/
abbrev Out9 (F : FTy → Type) [FloatOps F] : Type :=
  Vec F S512x128 .bf16 → Vec F S2048x128 .bf16 → Vec F S2048x128 .bf16 → Vec F S512x64 .f32 → Vec F S512x64 .f32
    → Vec F S2048x64 .f32 → Vec F S2048x64 .f32 → Vec F S1x64 .f32 → Vec F S1x64 .f32 → Vec F S512x128 .bf16

variable (o9 : Out9 F)

/-- The proof data of the region on core `c`: the arrays as the region finds them; after the body at point `t` each
    input's buffer at its block and the output's at `o9` of the nine input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => o9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q := q1
  owed _ := 0

theorem A_eq1 (c : Dev nD) (w : Fin cfg1.W) : (dat1 V o9 c).A w = V c (Pipeline.arrRef spec1 w) := by
  dsimp only [dat1]
theorem after1_0 (c : Dev nD) (t : Fin cfg1.N) : (dat1 V o9 c).after 0 t = iblk1 V c 0 t := by dsimp only [dat1]
theorem after1_1 (c : Dev nD) (t : Fin cfg1.N) : (dat1 V o9 c).after 1 t = iblk1 V c 1 t := by dsimp only [dat1]
theorem after1_2 (c : Dev nD) (t : Fin cfg1.N) : (dat1 V o9 c).after 2 t = iblk1 V c 2 t := by dsimp only [dat1]
theorem after1_3 (c : Dev nD) (t : Fin cfg1.N) : (dat1 V o9 c).after 3 t = iblk1 V c 3 t := by dsimp only [dat1]
theorem after1_4 (c : Dev nD) (t : Fin cfg1.N) : (dat1 V o9 c).after 4 t = iblk1 V c 4 t := by dsimp only [dat1]
theorem after1_5 (c : Dev nD) (t : Fin cfg1.N) : (dat1 V o9 c).after 5 t = iblk1 V c 5 t := by dsimp only [dat1]
theorem after1_6 (c : Dev nD) (t : Fin cfg1.N) : (dat1 V o9 c).after 6 t = iblk1 V c 6 t := by dsimp only [dat1]
theorem after1_7 (c : Dev nD) (t : Fin cfg1.N) : (dat1 V o9 c).after 7 t = iblk1 V c 7 t := by dsimp only [dat1]
theorem after1_8 (c : Dev nD) (t : Fin cfg1.N) : (dat1 V o9 c).after 8 t = iblk1 V c 8 t := by dsimp only [dat1]
theorem after1_9 (c : Dev nD) (t : Fin cfg1.N) : (dat1 V o9 c).after 9 t
    = o9 (iblk1 V c 0 t) (iblk1 V c 1 t) (iblk1 V c 2 t) (iblk1 V c 3 t) (iblk1 V c 4 t) (iblk1 V c 5 t) (iblk1 V c 6 t) (iblk1 V c 7 t) (iblk1 V c 8 t) := by
  dsimp only [dat1]

end Cert.KernelIdeal.Frame1

end
-- ==== Proof.KIShare1.lean ====
/-
  The arrays of the attention region, as the launch hands them over and takes them back. Ten windows stage six
  arrays: the projection's output (three windows), the two rotation tables (two windows each), the two norm rows,
  and the region's own output. The core holds each array whole; on entry the full share of a shared array is cut
  into the shares its windows hold (left and right halves; for three windows the left half is halved again), and
  on exit the shares are put back together. The contents are untouched: an input window never writes its array.
-/
import proofs.«143587_j22539988369511_2_alg».proof.Proof.Gen.KernelIdeal.Launch
import proofs.«143587_j22539988369511_2_alg».proof.Proof.Gen.KernelIdeal.Skeleton
import proofs.«143587_j22539988369511_2_alg».proof.Proof.Gen.KernelIdeal.Points
import proofs.«143587_j22539988369511_2_alg».proof.Proof.KIFrame1Dat
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

variable (o9 : Out9 F) (c : Dev nD)

/-- The distinct buffers behind the ten windows, each whole at `V`. -/
theorem arrBufs1_eq (V : (b : Ref sig .tc) → Buf (Elt F) ((c : Thread nD τ).loc b)) :
    (Pipeline.arrBufs (Ix := Unit) (Name := ℕ) (U := UR sig nD τ) (Lvl := ℕ) (cfgs 1).spec c V : sProp 𝕄)
      = iprop((((c : Thread nD τ).loc main_v11) ↦{fullShare} V main_v11) ∗ (((c : Thread nD τ).loc main_v9) ↦{fullShare} V main_v9)
          ∗ (((c : Thread nD τ).loc main_v10) ↦{fullShare} V main_v10) ∗ (((c : Thread nD τ).loc main_v7) ↦{fullShare} V main_v7)
          ∗ (((c : Thread nD τ).loc main_v8) ↦{fullShare} V main_v8) ∗ (((c : Thread nD τ).loc main_v12) ↦{fullShare} V main_v12)) := by
  unfold Pipeline.arrBufs
  exact bigSep_eq_bigSepL_of_eq [main_v11, main_v9, main_v10, main_v7, main_v8, main_v12] (by decide) (by decide) _

/-- The windowed arrays of the proof data, window by window, each at its share. -/
theorem arrays1_eq (Fa : (w : Fin cfg1.W) → Buf (Elt F) ((cfg1.win w).arr.view.loc (c.tc : Thread nD τ))) :
    ((dat1 V o9 c).arrays Fa : sProp 𝕄)
      = iprop((((c : Thread nD τ).loc main_v11) ↦{fullShare.left.left} Fa 0) ∗ (((c : Thread nD τ).loc main_v11) ↦{fullShare.left.right} Fa 1)
          ∗ (((c : Thread nD τ).loc main_v11) ↦{fullShare.right} Fa 2)
          ∗ (((c : Thread nD τ).loc main_v9) ↦{fullShare.left} Fa 3) ∗ (((c : Thread nD τ).loc main_v10) ↦{fullShare.left} Fa 4)
          ∗ (((c : Thread nD τ).loc main_v9) ↦{fullShare.right} Fa 5) ∗ (((c : Thread nD τ).loc main_v10) ↦{fullShare.right} Fa 6)
          ∗ (((c : Thread nD τ).loc main_v7) ↦{fullShare} Fa 7) ∗ (((c : Thread nD τ).loc main_v8) ↦{fullShare} Fa 8)
          ∗ (((c : Thread nD τ).loc main_v12) ↦{fullShare} Fa 9)) := by
  unfold Dat.arrays
  rw [bigSep_W1]
  rw [(arr_whole1 0).set_eq_univ, (arr_whole1 3).set_eq_univ, (arr_whole1 4).set_eq_univ, (arr_whole1 7).set_eq_univ, (arr_whole1 8).set_eq_univ,
    (arr_whole1 9).set_eq_univ]
  rfl

/-- ENTRY. The core's unscoped buffers at `V c` give the region its arrays at their entry contents — each shared
    array's full share cut into its windows' shares — beside the buffers no window stages. -/
theorem arrays1_of_unscopedBufs :
    (unscopedBufs c (V c) : sProp 𝕄)
      ⊢ iprop((dat1 V o9 c).arrays ((dat1 V o9 c).arrAt · 0)
          ∗ Pipeline.unscopedRest (Ix := Unit) (Name := ℕ) (U := UR sig nD τ) (Lvl := ℕ) spec1 c (V c)) := by
  rw [Pipeline.unscopedBufs_split₀ cfgs 1 winFacts₀1.arr_unscoped c (V c), arrBufs1_eq, arrays1_eq]
  have h11 := (pointsTo_share (Ix := Unit) (Name := ℕ) (U := UR sig nD τ) (Lvl := ℕ) (ℓ := (c : Thread nD τ).loc main_v11) (I := Finset.univ) (f := V c main_v11) (PosShare.mem_left_op_right fullShare)).1
  have h11l := (pointsTo_share (Ix := Unit) (Name := ℕ) (U := UR sig nD τ) (Lvl := ℕ) (ℓ := (c : Thread nD τ).loc main_v11) (I := Finset.univ) (f := V c main_v11) (PosShare.mem_left_op_right fullShare.left)).1
  have h9 := (pointsTo_share (Ix := Unit) (Name := ℕ) (U := UR sig nD τ) (Lvl := ℕ) (ℓ := (c : Thread nD τ).loc main_v9) (I := Finset.univ) (f := V c main_v9) (PosShare.mem_left_op_right fullShare)).1
  have h10 := (pointsTo_share (Ix := Unit) (Name := ℕ) (U := UR sig nD τ) (Lvl := ℕ) (ℓ := (c : Thread nD τ).loc main_v10) (I := Finset.univ) (f := V c main_v10) (PosShare.mem_left_op_right fullShare)).1
  iintro ⟨⟨H11, H9, H10, H7, H8, H12⟩, Hrest⟩
  ihave H11' := h11 $$ H11
  icases H11' with ⟨H11l, H11r⟩
  ihave H11l' := h11l $$ H11l
  icases H11l' with ⟨H11ll, H11lr⟩
  ihave H9' := h9 $$ H9
  icases H9' with ⟨H9l, H9r⟩
  ihave H10' := h10 $$ H10
  icases H10' with ⟨H10l, H10r⟩
  isplitr [Hrest]
  swap; · iexact Hrest
  isplitl [H11ll]; · iexact H11ll
  isplitl [H11lr]; · iexact H11lr
  isplitl [H11r]; · iexact H11r
  isplitl [H9l]; · iexact H9l
  isplitl [H10l]; · iexact H10l
  isplitl [H9r]; · iexact H9r
  isplitl [H10r]; · iexact H10r
  isplitl [H7]; · iexact H7
  isplitl [H8]; · iexact H8
  iexact H12

/-- EXIT. The region's arrays after its last point — every input array as it was entered (an input window writes
    nothing), the output array at what the write-backs left — and the buffers no window stages make the core's
    unscoped buffers again, at any valuation `V'` that agrees with `V c` off the output array and holds the output
    array's final contents. -/
theorem unscopedBufs_of_arrays1 (V' : (b : Ref sig .tc) → Buf (Elt F) ((c : Thread nD τ).loc b))
    (hout : (dat1 V o9 c).arrAt 9 cfg1.N = V' main_v12) (hrest : ∀ b, b ≠ main_v12 → V' b = V c b) :
    iprop((dat1 V o9 c).arrays ((dat1 V o9 c).arrAt · cfg1.N)
        ∗ Pipeline.unscopedRest (Ix := Unit) (Name := ℕ) (U := UR sig nD τ) (Lvl := ℕ) spec1 c (V c))
      ⊢ (unscopedBufs c V' : sProp 𝕄) := by
  rw [Pipeline.unscopedBufs_split₀ cfgs 1 winFacts₀1.arr_unscoped c V', arrBufs1_eq, arrays1_eq]
  rw [show (dat1 V o9 c).arrAt 0 cfg1.N = V c main_v11 from ((dat1 V o9 c).arrAt_in 0 rfl _),
    show (dat1 V o9 c).arrAt 1 cfg1.N = V c main_v11 from ((dat1 V o9 c).arrAt_in 1 rfl _),
    show (dat1 V o9 c).arrAt 2 cfg1.N = V c main_v11 from ((dat1 V o9 c).arrAt_in 2 rfl _),
    show (dat1 V o9 c).arrAt 3 cfg1.N = V c main_v9 from ((dat1 V o9 c).arrAt_in 3 rfl _),
    show (dat1 V o9 c).arrAt 4 cfg1.N = V c main_v10 from ((dat1 V o9 c).arrAt_in 4 rfl _),
    show (dat1 V o9 c).arrAt 5 cfg1.N = V c main_v9 from ((dat1 V o9 c).arrAt_in 5 rfl _),
    show (dat1 V o9 c).arrAt 6 cfg1.N = V c main_v10 from ((dat1 V o9 c).arrAt_in 6 rfl _),
    show (dat1 V o9 c).arrAt 7 cfg1.N = V c main_v7 from ((dat1 V o9 c).arrAt_in 7 rfl _),
    show (dat1 V o9 c).arrAt 8 cfg1.N = V c main_v8 from ((dat1 V o9 c).arrAt_in 8 rfl _),
    hout, hrest main_v11 (by decide), hrest main_v9 (by decide), hrest main_v10 (by decide), hrest main_v7 (by decide), hrest main_v8 (by decide)]
  have h11 := (pointsTo_share (Ix := Unit) (Name := ℕ) (U := UR sig nD τ) (Lvl := ℕ) (ℓ := (c : Thread nD τ).loc main_v11) (I := Finset.univ) (f := V c main_v11) (PosShare.mem_left_op_right fullShare)).2
  have h11l := (pointsTo_share (Ix := Unit) (Name := ℕ) (U := UR sig nD τ) (Lvl := ℕ) (ℓ := (c : Thread nD τ).loc main_v11) (I := Finset.univ) (f := V c main_v11) (PosShare.mem_left_op_right fullShare.left)).2
  have h9 := (pointsTo_share (Ix := Unit) (Name := ℕ) (U := UR sig nD τ) (Lvl := ℕ) (ℓ := (c : Thread nD τ).loc main_v9) (I := Finset.univ) (f := V c main_v9) (PosShare.mem_left_op_right fullShare)).2
  have h10 := (pointsTo_share (Ix := Unit) (Name := ℕ) (U := UR sig nD τ) (Lvl := ℕ) (ℓ := (c : Thread nD τ).loc main_v10) (I := Finset.univ) (f := V c main_v10) (PosShare.mem_left_op_right fullShare)).2
  have hR : (Pipeline.unscopedRest (Ix := Unit) (Name := ℕ) (U := UR sig nD τ) (Lvl := ℕ) spec1 c (V c) : sProp 𝕄)
      = Pipeline.unscopedRest spec1 c V' := by
    unfold Pipeline.unscopedRest
    exact bigSep_congr fun b hb => by
      rw [hrest b (fun e => (Finset.mem_sdiff.mp hb).2 (Finset.mem_image.mpr ⟨9, Finset.mem_univ _, e.symm⟩))]
  rw [hR]
  iintro ⟨⟨H11ll, H11lr, H11r, H9l, H10l, H9r, H10r, H7, H8, H12⟩, Hrest⟩
  isplitr [Hrest]
  swap; · iexact Hrest
  isplitl [H11ll H11lr H11r]
  · iapply h11
    isplitr [H11r]
    swap; · iexact H11r
    iapply h11l
    isplitl [H11ll]; · iexact H11ll
    iexact H11lr
  isplitl [H9l H9r]
  · iapply h9
    isplitl [H9l]; · iexact H9l
    iexact H9r
  isplitl [H10l H10r]
  · iapply h10
    isplitl [H10l]; · iexact H10l
    iexact H10r
  isplitl [H7]; · iexact H7
  isplitl [H8]; · iexact H8
  iexact H12

end Cert.KernelIdeal.Frame1

end
-- ==== Proof.KIFrame2.lean ====
/-
  The third kernel region (the output projection) at one grid point. The grid has 8 points; point t is handed rows
  1024·t … 1024·t+1023 of the attention output (a [1024,1024] block), the whole transposed projection matrix
  ([1024,1024], fetched once), the bias as a row [1,1024] (fetched once), and an output block [1024,1024]. The body
  loads the three inputs whole and stores product-plus-bias over the whole output block.
-/
import proofs.«143587_j22539988369511_2_alg».proof.Proof.Gen.KernelIdeal.Launch
import proofs.«143587_j22539988369511_2_alg».proof.Proof.Gen.KernelIdeal.Skeleton
import proofs.«143587_j22539988369511_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or left from the point
    before (when it is not fetched the block's index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body reads and writes through. -/
abbrev rA2 : Rect S1024x1024 := Rect.unit (s := S1024x1024) ![0, 0] S1024x1024.size inb_S1024x1024_S1024x1024_0_0
abbrev rC2 : Rect S1x1024 := Rect.unit (s := S1x1024) ![0, 0] S1x1024.size inb_S1x1024_S1x1024_0_0

/-- The output block after the body: its one store, of the product of the first two loaded blocks plus the bias row. -/
def out2_3 (x0 x1 : Vec F S1024x1024 .bf16) (x2 : Vec F S1x1024 .f32) : Vec F S1024x1024 .f32 :=
  View.canon [⟨rA2, k2_pay1 (View.ld x0 rA2) (View.ld x1 rA2) (View.ld x2 rC2)⟩]

/-- The one store covers the block. -/
theorem cover2_3 (p0 : Vec F S1024x1024 .f32) (y : S1024x1024.Idx) :
    ∃ pc ∈ ([⟨rA2, p0⟩] : List (View.Piece (Elt F) S1024x1024 .f32)), y ∈ pc.1.set :=
  View.cover_of_tiled [⟨rA2, p0⟩] S1024x1024.size (by rfl) y

set_option maxHeartbeats 1000000 in
/-- The body on whole staging buffers: the inputs at `x0`, `x1`, `x2` and the output at anything; it ends with the
    inputs unchanged and the output at `out2_3 x0 x1 x2`. -/
theorem sound_kernel2 (c : Dev nD) (E : Set ℕ) (i : grid2.Coords)
    (arg1 : Memref sig .tc .vmem S1024x1024 .bf16) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S1024x1024 .f32) (harg4 : arg4.IsWhole)
    (x0 x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__out_proj_kernel i arg1 harg1 arg2 harg2 arg3 harg3 arg4 harg4) K := by
  simp only [cc2__out_proj_kernel_eq_skeleton]; unfold cc2__out_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of the region on core `c`: the arrays as the region finds them; after the body at point `t` each
    input's buffer at its block and the output's at product-plus-bias of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frame2

end
-- ==== Proof.KIRun.lean ====
/-
  The whole run of the program: host operations (reshapes, transposes, changes of float format), the three kernel
  regions in order, one last reshape. The contents of the core's buffers are followed from the launch through
  every stretch: a host stretch rewrites the buffers its operations write; a region leaves its output array at what
  its write-backs produce and everything else as it found it. Every weakly fair execution terminates, and at the
  end every unscoped buffer holds the contents this fold computes — in particular the result, and the arguments,
  which nothing writes.
-/
import proofs.«143587_j22539988369511_2_alg».proof.Proof.Gen.KernelIdeal.Launch
import proofs.«143587_j22539988369511_2_alg».proof.Proof.Gen.KernelIdeal.Skeleton
import proofs.«143587_j22539988369511_2_alg».proof.Proof.Gen.KernelIdeal.Points
import proofs.«143587_j22539988369511_2_alg».proof.Proof.KIFrame0
import proofs.«143587_j22539988369511_2_alg».proof.Proof.KIShare1
import proofs.«143587_j22539988369511_2_alg».proof.Proof.KIFrame2
import proofs.«143587_j22539988369511_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Frame0 Cert.KernelIdeal.Frame1 Cert.KernelIdeal.Frame2

variable (o9 : Out9 F)
  (hb1 : ∀ (V : (c : Dev nD) → (b : Ref sig .tc) → Buf (Elt F) ((c : Thread nD τ).loc b)) (c : Dev nD),
    BodyObligation (dat1 (F := F) V o9 c) (defs₀ (F := F)) Variants.none () Set.univ)
variable (m : (ℓ : Loc nD τ sig) → Buf (Elt F) ℓ) (ρ : Dev nD → PrngReg)

/-! ## The buffer contents at each boundary -/

/-- At launch. -/
abbrev W0 : Dev nD → Valuation τ sig (Elt F) := fun c b => m (c, b)
/-- After the first host stretch (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the projection region: its output array at what the write-backs leave. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the attention region: its output array at what the write-backs leave, everything else as entered. -/
def W3 (c : Dev nD) : Valuation τ sig (Elt F) :=
  Function.update (W2 m c) (Proc.devRef .tc main_v12) ((dat1 (V2 m) o9 c).arrAt 9 cfg1.N)
abbrev V3 : (c : Dev nD) → (b : Ref sig .tc) → Buf (Elt F) ((c : Thread nD τ).loc b) := fun c b => W3 o9 m c b
theorem W3_out (c : Dev nD) : V3 o9 m c main_v12 = (dat1 (V2 m) o9 c).arrAt 9 cfg1.N := by
  show W3 o9 m c (Proc.devRef .tc main_v12) = _
  unfold W3; exact Function.update_self ..
theorem W3_of_ne (c : Dev nD) (b : Ref sig .tc) (hb : b ≠ main_v12) : V3 o9 m c b = V2 m c b := by
  show W3 o9 m c (Proc.devRef .tc b) = W2 m c (Proc.devRef .tc b)
  unfold W3; exact Function.update_of_ne (StableHlo.devRef_ne_of_ne hb) ..

/-- After the output projection region. -/
def W4 (c : Dev nD) : Valuation τ sig (Elt F) :=
  Pipeline.withArrays spec2 c (W3 o9 m c) fun w => (dat2 (V3 o9 m) c).arrAt w cfg2.N
theorem W4_arr (c : Dev nD) (w : Fin cfg2.W) :
    W4 o9 m c (Proc.devRef .tc (Pipeline.arrRef spec2 w)) = (dat2 (V3 o9 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 o9 m c (Proc.devRef .tc b) = W3 o9 m c (Proc.devRef .tc b) := by
  unfold W4; exact Pipeline.withArrays_of_ne spec2 c _ _ b hb
abbrev V4 : (c : Dev nD) → (b : Ref sig .tc) → Buf (Elt F) ((c : Thread nD τ).loc b) := fun c b => W4 o9 m c b
theorem hF2 (c : Dev nD) (w : Fin cfg2.W) : (dat2 (V3 o9 m) c).arrAt w cfg2.N = V4 o9 m c (Pipeline.arrRef spec2 w) :=
  (W4_arr o9 m c w).symm
theorem hrest2 (c : Dev nD) : ∀ b, b ∉ Finset.univ.image (Pipeline.arrRef spec2) → V4 o9 m c b = V3 o9 m c b :=
  fun b hb => W4_of_ne o9 m c b fun w e => hb (Finset.mem_image.mpr ⟨w, Finset.mem_univ _, e⟩)
/-- After the last host stretch: the end. -/
abbrev W5 : Dev nD → Valuation τ sig (Elt F) := fun c => StableHlo.after hostOps3 (W4 o9 m c)

/-! ## The proof data family and the thread state -/

abbrev adm : (p : Fin 3) → (pcfgs (F := F) p).Adm := fun p => (cfgs p).toPCfg_adm
/-- Every region's proof data, each at its entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) o9 c
  | ⟨2, _⟩ => fun c => dat2 (V3 o9 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := StableHlo.held (c : Thread nD τ) (Pipeline.ucRefs τ sig) (W5 o9 m c)

/-! ## The regions as segments -/

set_option backward.isDefEq.respectTransparency.types false in
/-- The projection region: entered from every unscoped buffer at `W1`, left at `W2`. -/
def reg0 : Pipeline.RegionSeg (pcfgs (F := F)) adm (pdats o9 m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats o9 m) launch0.win launch0.arr_whole c
      ((pdats o9 m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats o9 m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats o9 m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats o9 m) ((pdats o9 m 0 c).share_full fun _ => rfl)
      (V1 m c) (V2 m c) ((pdats o9 m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at `W2`, left at `W3`; its shared arrays' full
    shares are cut into the windows' shares on entry and joined on exit. -/
def reg1 : Pipeline.RegionSeg (pcfgs (F := F)) adm (pdats o9 m) () defs₀ 𝒱₀ L lv 1 where
  win := winFacts₀1
  block_pos := block_pos1
  stage_whole := stage_whole1
  K := PEmpty
  osem k := k.elim
  ho := Pipeline.OwnSemFacts.none _
  hbody c := (hb1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 o9 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := arrays1_of_unscopedBufs (V2 m) o9 c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats o9 m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats o9 m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats o9 m 1 c).arrays ((pdats o9 m 1 c).arrAt · cfg1.N)
          ∗ Pipeline.unscopedRest (Ix := Unit) (Name := ℕ) (U := UR sig nD τ) (Lvl := ℕ) spec1 c (V2 m c))
        ⊢ (unscopedBufs c (V3 o9 m c) : sProp 𝕄) :=
      unscopedBufs_of_arrays1 (V2 m) o9 c (V3 o9 m c) (W3_out o9 m c).symm (fun b hb => W3_of_ne o9 m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The output projection region: entered from every unscoped buffer at `W3`, left at `W4`. -/
def reg2 : Pipeline.RegionSeg (pcfgs (F := F)) adm (pdats o9 m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 o9 m) c).loose
  hwaits := Pipeline.hwaits_of_owed_zero _ _ _ _ L lv 2 fun _ _ => rfl
  pre c := iprop(StableHlo.held (c : Thread nD τ) (Pipeline.ucRefs τ sig) (W3 o9 m c) ∗ R c)
  post c := iprop(StableHlo.held (c : Thread nD τ) (Pipeline.ucRefs τ sig) (W4 o9 m c) ∗ R c)
  X c := iprop(∃ r, prngReg c r)
  Y c := iprop(∃ r, prngReg c r)
  Z c := Pipeline.unscopedRest (Ix := Unit) (Name := ℕ) (U := UR sig nD τ) (Lvl := ℕ) spec2 c (V3 o9 m c)
  hentry c := by
    rw [Pipeline.ownSems0_none]
    have hsplit := Pipeline.arrays_of_unscopedBufs (p := 2) (pcfgs (F := F)) adm (pdats o9 m) launch2.win launch2.arr_whole c
      ((pdats o9 m 2 c).share_full fun _ => rfl) (V3 o9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats o9 m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats o9 m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats o9 m) ((pdats o9 m 2 c).share_full fun _ => rfl)
      (V3 o9 m c) (V4 o9 m c) ((pdats o9 m 2 c).arrAt · cfg2.N) (hF2 o9 m c) (hrest2 o9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats o9 m) () defs₀ 𝒱₀ L lv) :=
  [ .host (hseg hostOps0 hostOps0_sub hostOps0_fresh (W0 m)),
    .region (reg0 o9 m),
    .region (reg1 o9 hb1 m),
    .region (reg2 o9 m),
    .host (hseg hostOps3 hostOps3_sub hostOps3_fresh (W4 o9 m)) ]
theorem main_run (c : Dev nD) : main (F := F) c = Pipeline.Seg.run (segs o9 hb1 m) := (main_chain c).trans (by chain_rfl)

include hb1 in
set_option backward.isDefEq.respectTransparency.types false in
/-- THE RUN. From any memory with zero counters every weakly fair execution of the program terminates, nothing
    faulting, and every final memory holds, at every unscoped buffer, the contents the fold above computes. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 o9 m c b) :=
  Pipeline.θ_run_regions_kit (pcfgs (F := F)) adm (pdats o9 m) () cellOf_inj emb₁ defs₀ 𝒱₀ L lv m ρ main (segs o9 hb1 m)
    (fun c Q => by rw [main_run o9 hb1 m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ o9 m)
    (hch := ⟨fun _ => .rfl, fun _ => .rfl, fun _ => .rfl, fun _ => .rfl, fun _ => .rfl, fun c => sep_mono .rfl (by
      iintro ⟨-, HO⟩
      iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 o9 m c b)
    (hfin := fun c s' => by
      rw [show Tₙ o9 m c = StableHlo.held (c : Thread nD τ) (Pipeline.ucRefs τ sig) (W5 o9 m c) from rfl]
      unfold StableHlo.held
      iintro ⟨Hh, HSI⟩
      imodintro
      iapply (pointsTo_read_all (Pipeline.ucRefs τ sig) (fun b => (((c : Thread nD τ)).1, b)) (W5 o9 m c) s')
      isplitl [Hh] <;> iassumption)
    (hQ := fun s h c => h c)

end Cert.KernelIdeal.Run

end
-- ==== Proof.KIFrame.lean ====
/-
  The frame of the program, read off its run: nothing writes an argument — no host operation names one as its
  result, a region changes only its output array — so the fold of the buffers' contents, followed backwards at an
  argument, reaches the launch memory; and the result buffer ends at what the fold computes for it.
-/
import proofs.«143587_j22539988369511_2_alg».proof.Proof.Gen.KernelIdeal.Launch
import proofs.«143587_j22539988369511_2_alg».proof.Proof.Gen.KernelIdeal.Skeleton
import proofs.«143587_j22539988369511_2_alg».proof.Proof.Gen.KernelIdeal.Points
import proofs.«143587_j22539988369511_2_alg».proof.Proof.KIRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Frame0 Cert.KernelIdeal.Frame1 Cert.KernelIdeal.Frame2

variable (o9 : Out9 F)
  (hb1 : ∀ (V : (c : Dev nD) → (b : Ref sig .tc) → Buf (Elt F) ((c : Thread nD τ).loc b)) (c : Dev nD),
    BodyObligation (dat1 (F := F) V o9 c) (defs₀ (F := F)) Variants.none () Set.univ)
variable (m : (ℓ : Loc nD τ sig) → Buf (Elt F) ℓ) (ρ : Dev nD → PrngReg)

/-- A buffer no host operation writes and no region's output array: it ends as launched. -/
theorem W5_kept (c : Dev nD) (r : Ref sig .tc) (h0 : r ∉ hostOps0_W) (h3 : r ∉ hostOps3_W)
    (hne0 : ∀ w, Pipeline.arrRef spec0 w ≠ r) (hne1 : r ≠ main_v12) (hne2 : ∀ w, Pipeline.arrRef spec2 w ≠ r) :
    W5 o9 m c (Proc.devRef .tc r) = m ((c : Thread nD τ).loc r) :=
  calc W5 o9 m c (Proc.devRef .tc r)
    _ = W4 o9 m c (Proc.devRef .tc r) := StableHlo.after_of_writes_sub hostOps3 _ hostOps3_writes h3
    _ = W3 o9 m c (Proc.devRef .tc r) := W4_of_ne o9 m c r hne2
    _ = W2 m c (Proc.devRef .tc r) := W3_of_ne o9 m c r hne1
    _ = W1 m c (Proc.devRef .tc r) := W2_of_ne m c r hne0
    _ = W0 m c (Proc.devRef .tc r) := StableHlo.after_of_writes_sub hostOps0 _ hostOps0_writes h0
    _ = m ((c : Thread nD τ).loc r) := rfl

include hb1 in
/-- THE RUN, READ: every weakly fair execution terminates, the result buffer ends at what the fold computes for it
    and every argument buffer as launched. -/
theorem run_result : θ_run defs (onTc (τ := τ) (main (F := F))) ⟨m, fun _ => 0, ρ⟩ (fun r => ∀ c : Dev nD,
      r.2.mem ((c.tc : Thread nD τ).loc main_v14) = W5 o9 m c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (mem_uc main_v14 (by decide)),
     (h c _ (mem_uc main_arg0 (by decide))).trans (W5_kept o9 m c main_arg0 (by decide) (by decide) (by decide) (by decide) (by decide)),
     (h c _ (mem_uc main_arg1 (by decide))).trans (W5_kept o9 m c main_arg1 (by decide) (by decide) (by decide) (by decide) (by decide)),
     (h c _ (mem_uc main_arg2 (by decide))).trans (W5_kept o9 m c main_arg2 (by decide) (by decide) (by decide) (by decide) (by decide)),
     (h c _ (mem_uc main_arg3 (by decide))).trans (W5_kept o9 m c main_arg3 (by decide) (by decide) (by decide) (by decide) (by decide)),
     (h c _ (mem_uc main_arg4 (by decide))).trans (W5_kept o9 m c main_arg4 (by decide) (by decide) (by decide) (by decide) (by decide)),
     (h c _ (mem_uc main_arg5 (by decide))).trans (W5_kept o9 m c main_arg5 (by decide) (by decide) (by decide) (by decide) (by decide)),
     (h c _ (mem_uc main_arg6 (by decide))).trans (W5_kept o9 m c main_arg6 (by decide) (by decide) (by decide) (by decide) (by decide)),
     (h c _ (mem_uc main_arg7 (by decide))).trans (W5_kept o9 m c main_arg7 (by decide) (by decide) (by decide) (by decide) (by decide))⟩)
    (run o9 hb1 m ρ)

include hb1 in
/-- THE FRAME: every weakly fair execution terminates, nothing faulting, and the argument buffers end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => (h c).2) (run_result o9 hb1 m ρ)

end Cert.KernelIdeal.Run

end
-- ==== Proof.KIFrame1.lean ====
/-
  The attention region of the program, point by point.

  The second of the program's three kernel regions runs the attention kernel on a grid of 128 points through ten
  windows: nine inputs (a block of queries, a block of keys, a block of values, the rotation tables' cosines and
  sines for the query rows and for the key rows, and the two normalisation weight rows) and one output block. At
  every point the kernel body reads each input's staging buffer whole, computes one vector from the nine vectors it
  read, and overwrites the output's staging buffer whole with that vector.

  This module states that behaviour once, for any contents `V` of the core's buffers on entry to the region and for
  any float instance:

  * `before1_W_of`: an input window's current staging buffer holds the window's block, at every point;
  * `k1_out`: the vector the body stores, as a function of the nine vectors it loads;
  * `out1_9`: the output's staging buffer after the body, as a function of the nine input blocks;
  * `sound_kernel1`: the body's triple on whole staging buffers;
  * `body_obligation1`: the region's body obligation at every point, for the proof data whose output block is `out1_9`.
-/
import proofs.«143587_j22539988369511_2_alg».proof.Proof.KIFrame1Dat
import proofs.«143587_j22539988369511_2_alg».proof.Proof.Gen.KernelIdeal.Launch
import proofs.«143587_j22539988369511_2_alg».proof.Proof.Gen.KernelIdeal.Skeleton
import proofs.«143587_j22539988369511_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- whether an index lies in a rectangle of thousands of rows is decided one coordinate at a time
set_option maxRecDepth 16384

noncomputable section

namespace Cert.KernelIdeal.Frame1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## What the body finds in the input windows' buffers

    An input window's current staging buffer holds the window's block at every point, whether or not the pipeline
    fetched it there: where it did not, the block index has not moved since the point before and the body left the
    buffer as it found it. This holds for any proof data whose arrays are `V`'s and whose body leaves the inputs'
    blocks in place. The windows are uncut and never idle. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole query (and output) block. -/
abbrev r1_0 : Rect S512x128 := Rect.unit (s := S512x128) ![0, 0] S512x128.size inb_S512x128_S512x128_0_0
/-- The whole key (and value) block. -/
abbrev r1_1 : Rect S2048x128 := Rect.unit (s := S2048x128) ![0, 0] S2048x128.size inb_S2048x128_S2048x128_0_0
/-- The whole rotary table for the query rows. -/
abbrev r1_2 : Rect S512x64 := Rect.unit (s := S512x64) ![0, 0] S512x64.size inb_S512x64_S512x64_0_0
/-- The whole rotary table for the key rows. -/
abbrev r1_3 : Rect S2048x64 := Rect.unit (s := S2048x64) ![0, 0] S2048x64.size inb_S2048x64_S2048x64_0_0
/-- The whole normalisation weight. -/
abbrev r1_4 : Rect S1x64 := Rect.unit (s := S1x64) ![0, 0] S1x64.size inb_S1x64_S1x64_0_0

/-! ## What the body leaves in the output window's buffer -/

/-- The value the body stores, from the nine vectors it loads: the query block `q`, the key block `k`, the value
    block `v`, the cosine and sine tables for the query rows (`qc`, `qs`) and for the key rows (`kc`, `ks`), and the
    two normalisation weights (`qn`, `kn`). The composition is the kernel's: its first part's thirteen values of the
    loaded vectors, its second part's five of those, its third part's two, and the stored vector of four of them. -/
def k1_out (q : Vec F S512x128 .bf16) (k v : Vec F S2048x128 .bf16) (qc qs : Vec F S512x64 .f32)
    (kc ks : Vec F S2048x64 .f32) (qn kn : Vec F S1x64 .f32) : FVec F S512x128 .bf16 :=
  -- the first part: the tables and weights recast, the blocks widened, their first halves taken, the query half normalised
  let v1 := k1_pay2 qc
  let v3 := k1_pay3 qs
  let v5 := k1_pay4 kc
  let v7 := k1_pay5 ks
  let v9 := k1_pay6 qn
  let v11 := k1_pay7 kn
  let v14 := k1_pay8 q
  let v17 := k1_pay9 k
  let v19 := k1_pay10 v
  let v21 := k1_pay11 k
  let v22 := k1_pay12 v
  let v34 := k1_pay13 qn q
  let v35 := k1_pay14 k
  -- the second part: the first head's attention output, and the second halves
  let v79 := k1_pay15 v1 v3 v5 v7 v11 v21 v22 v34 v35
  let v80 := k1_pay16 v14
  let v81 := k1_pay17 v17
  let v82 := k1_pay18 v19
  let v84 := k1_pay19 v14
  -- the third part: the second head's unnormalised weights and their row sums
  let v132 := k1_pay20 v1 v3 v5 v7 v9 v11 v80 v81 v84
  let v133 := k1_pay21 v1 v3 v5 v7 v9 v11 v80 v81 v84
  -- the stored vector: both heads' outputs side by side
  k1_pay1 v79 v82 v132 v133

/-- Window 9's staging buffer after the body, from the input windows' blocks: its one store, over the whole buffer,
    of `k1_out` of what the nine loads read, each through its own whole rectangle. -/
def out1_9 (x0 : Vec F S512x128 .bf16) (x1 x2 : Vec F S2048x128 .bf16) (x3 x4 : Vec F S512x64 .f32)
    (x5 x6 : Vec F S2048x64 .f32) (x7 x8 : Vec F S1x64 .f32) : Vec F S512x128 .bf16 :=
  View.canon [⟨r1_0, k1_out (View.ld x0 r1_0) (View.ld x1 r1_1) (View.ld x2 r1_1) (View.ld x3 r1_2) (View.ld x4 r1_2)
    (View.ld x5 r1_3) (View.ld x6 r1_3) (View.ld x7 r1_4) (View.ld x8 r1_4)⟩]

/-- The one store's rectangle is the whole buffer, so it covers it. -/
theorem cover1_9 (p0 : Vec F S512x128 .bf16) (y : S512x128.Idx) :
    ∃ pc ∈ ([⟨r1_0, p0⟩] : List (View.Piece (Elt F) S512x128 .bf16)), y ∈ pc.1.set :=
  View.cover_of_tiled [⟨r1_0, p0⟩] S512x128.size (by rfl) y

/-! ## The body's triple -/

set_option maxHeartbeats 4000000 in
/-- The kernel body on whole staging buffers, the nine inputs' at contents `x0` … `x8` and the output's at anything:
    it ends with the inputs' buffers as they were and the output's at `out1_9` of the nine. The body is its three
    parts in sequence — nine whole-buffer loads, then pure computation — followed by a load of the output buffer whose
    value is not used and one store over the whole output buffer; what that store leaves is read back as the canonical
    contents of a covering list of one piece. -/
theorem sound_kernel1 (c : Dev nD) (E : Set ℕ) (i : grid1.Coords) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x64 .f32) (harg6 : arg6.IsWhole) (arg7 : Memref sig .tc .vmem S512x64 .f32) (harg7 : arg7.IsWhole) (arg8 : Memref sig .tc .vmem S2048x64 .f32) (harg8 : arg8.IsWhole) (arg9 : Memref sig .tc .vmem S2048x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S512x128 .bf16) (harg12 : arg12.IsWhole)
    (x0 : Vec F S512x128 .bf16) (x1 x2 : Vec F S2048x128 .bf16) (x3 x4 : Vec F S512x64 .f32)
    (x5 x6 : Vec F S2048x64 .f32) (x7 x8 : Vec F S1x64 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8
        ∗ (∃ d, owns (c : Thread nD τ) arg12 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8
            ∗ owns (c : Thread nD τ) arg12 fullShare (out1_9 x0 x1 x2 x3 x4 x5 x6 x7 x8)) -∗ K ⟨⟩))
      ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _)

/-! ## The body obligation, at a generic point -/

section Obligation

variable (o9 : Out9 F)

/-- Each input's current staging buffer holds its block at every point, fetched there or not, whatever the proof
    data's output block is. -/
theorem before1_0 (c : Dev nD) (t : Fin cfg1.N) (d) : (dat1 V o9 c).before 0 t d = iblk1 V c 0 t :=
  before1_0_of V (dat1 V o9 c) (A_eq1 V o9 c 0) (after1_0 V o9 c) t d
theorem before1_1 (c : Dev nD) (t : Fin cfg1.N) (d) : (dat1 V o9 c).before 1 t d = iblk1 V c 1 t :=
  before1_1_of V (dat1 V o9 c) (A_eq1 V o9 c 1) (after1_1 V o9 c) t d
theorem before1_2 (c : Dev nD) (t : Fin cfg1.N) (d) : (dat1 V o9 c).before 2 t d = iblk1 V c 2 t :=
  before1_2_of V (dat1 V o9 c) (A_eq1 V o9 c 2) (after1_2 V o9 c) t d
theorem before1_3 (c : Dev nD) (t : Fin cfg1.N) (d) : (dat1 V o9 c).before 3 t d = iblk1 V c 3 t :=
  before1_3_of V (dat1 V o9 c) (A_eq1 V o9 c 3) (after1_3 V o9 c) t d
theorem before1_4 (c : Dev nD) (t : Fin cfg1.N) (d) : (dat1 V o9 c).before 4 t d = iblk1 V c 4 t :=
  before1_4_of V (dat1 V o9 c) (A_eq1 V o9 c 4) (after1_4 V o9 c) t d
theorem before1_5 (c : Dev nD) (t : Fin cfg1.N) (d) : (dat1 V o9 c).before 5 t d = iblk1 V c 5 t :=
  before1_5_of V (dat1 V o9 c) (A_eq1 V o9 c 5) (after1_5 V o9 c) t d
theorem before1_6 (c : Dev nD) (t : Fin cfg1.N) (d) : (dat1 V o9 c).before 6 t d = iblk1 V c 6 t :=
  before1_6_of V (dat1 V o9 c) (A_eq1 V o9 c 6) (after1_6 V o9 c) t d
theorem before1_7 (c : Dev nD) (t : Fin cfg1.N) (d) : (dat1 V o9 c).before 7 t d = iblk1 V c 7 t :=
  before1_7_of V (dat1 V o9 c) (A_eq1 V o9 c 7) (after1_7 V o9 c) t d
theorem before1_8 (c : Dev nD) (t : Fin cfg1.N) (d) : (dat1 V o9 c).before 8 t d = iblk1 V c 8 t :=
  before1_8_of V (dat1 V o9 c) (A_eq1 V o9 c 8) (after1_8 V o9 c) t d

end Obligation

/-- What the body is called with at point `t`: the region's invariant, what the core owes, and every window's
    current staging buffer at what it then holds, -/
def bodyPre1 (c : Dev nD) (t : Fin cfg1.N) : sProp 𝕄 :=
  iprop((dat1 V out1_9 c).Φ t.castSucc ∗ (dat1 V out1_9 c).owesAt () t.castSucc
    ∗ (∃ d, owns (c : Thread nD τ) (st1_0 t) fullShare ((dat1 V out1_9 c).before 0 t d))
    ∗ (∃ d, owns (c : Thread nD τ) (st1_1 t) fullShare ((dat1 V out1_9 c).before 1 t d))
    ∗ (∃ d, owns (c : Thread nD τ) (st1_2 t) fullShare ((dat1 V out1_9 c).before 2 t d))
    ∗ (∃ d, owns (c : Thread nD τ) (st1_3 t) fullShare ((dat1 V out1_9 c).before 3 t d))
    ∗ (∃ d, owns (c : Thread nD τ) (st1_4 t) fullShare ((dat1 V out1_9 c).before 4 t d))
    ∗ (∃ d, owns (c : Thread nD τ) (st1_5 t) fullShare ((dat1 V out1_9 c).before 5 t d))
    ∗ (∃ d, owns (c : Thread nD τ) (st1_6 t) fullShare ((dat1 V out1_9 c).before 6 t d))
    ∗ (∃ d, owns (c : Thread nD τ) (st1_7 t) fullShare ((dat1 V out1_9 c).before 7 t d))
    ∗ (∃ d, owns (c : Thread nD τ) (st1_8 t) fullShare ((dat1 V out1_9 c).before 8 t d))
    ∗ (∃ d, owns (c : Thread nD τ) (st1_9 t) fullShare ((dat1 V out1_9 c).before 9 t d)))

/-- and what it returns: the same, every buffer at what the body leaves in it. -/
def bodyPost1 (c : Dev nD) (t : Fin cfg1.N) : sProp 𝕄 :=
  iprop((dat1 V out1_9 c).Φ t.succ ∗ (dat1 V out1_9 c).owesAt () t.succ
    ∗ owns (c : Thread nD τ) (st1_0 t) fullShare ((dat1 V out1_9 c).after 0 t)
    ∗ owns (c : Thread nD τ) (st1_1 t) fullShare ((dat1 V out1_9 c).after 1 t)
    ∗ owns (c : Thread nD τ) (st1_2 t) fullShare ((dat1 V out1_9 c).after 2 t)
    ∗ owns (c : Thread nD τ) (st1_3 t) fullShare ((dat1 V out1_9 c).after 3 t)
    ∗ owns (c : Thread nD τ) (st1_4 t) fullShare ((dat1 V out1_9 c).after 4 t)
    ∗ owns (c : Thread nD τ) (st1_5 t) fullShare ((dat1 V out1_9 c).after 5 t)
    ∗ owns (c : Thread nD τ) (st1_6 t) fullShare ((dat1 V out1_9 c).after 6 t)
    ∗ owns (c : Thread nD τ) (st1_7 t) fullShare ((dat1 V out1_9 c).after 7 t)
    ∗ owns (c : Thread nD τ) (st1_8 t) fullShare ((dat1 V out1_9 c).after 8 t)
    ∗ owns (c : Thread nD τ) (st1_9 t) fullShare ((dat1 V out1_9 c).after 9 t))

set_option maxHeartbeats 1000000 in
/-- The body at any point: the inputs' staging buffers hold their blocks, so the body's triple applies with the nine
    blocks for the nine vectors; the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V out1_9 c).Φ t.succ = (dat1 V out1_9 c).Φ t.castSucc from rfl,
    show (dat1 V out1_9 c).owesAt () t.succ = (dat1 V out1_9 c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The region's body obligation, at every point. -/
theorem body_obligation1 (c : Dev nD) : BodyObligation (dat1 (F := F) V out1_9 c) (defs₀ (F := F)) Variants.none () Set.univ := fun t => by
  rw [bigSep_W1, bigSep_W1]
  exact sound_body1 V c t

end Cert.KernelIdeal.Frame1

end
-- ==== Proof.KIHost.lean ====
/-
  What the host operations around the kernel regions leave, read at an entry on the extended reals (a change of
  float format is the identity there): the activations flattened to [8192,1024] (row b·2048+n is position n of batch
  b); the two weight matrices transposed; the bias and the two norm weights as rows; the rotation tables as
  [2048,64]; and, at the end, the [8192,1024] result unflattened to [4,2048,1024].
-/
import proofs.«143587_j22539988369511_2_alg».proof.Proof.KIRun
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Host

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

open Cert.KernelIdeal.Frame1

variable (m : (ℓ : Loc nD τ sig) → Buf (Elt Ideal) ℓ) (c : Dev nD)

/-- The argument arrays, as launched. -/
abbrev A0 : S4x2048x1024.Idx → EReal := m ((c : Thread nD τ).loc main_arg0)
abbrev A1 : S1x1x2048x64.Idx → EReal := m ((c : Thread nD τ).loc main_arg1)
abbrev A2 : S1x1x2048x64.Idx → EReal := m ((c : Thread nD τ).loc main_arg2)
abbrev A3 : S3072x1024.Idx → EReal := m ((c : Thread nD τ).loc main_arg3)
abbrev A4 : S1024x1024.Idx → EReal := m ((c : Thread nD τ).loc main_arg4)
abbrev A5 : S1024.Idx → EReal := m ((c : Thread nD τ).loc main_arg5)
abbrev A6 : S64.Idx → EReal := m ((c : Thread nD τ).loc main_arg6)
abbrev A7 : S64.Idx → EReal := m ((c : Thread nD τ).loc main_arg7)

theorem v1_eq : (Run.V1 m c main_v1 : S8192x1024.Idx → EReal)
    = truncf (F := Ideal) .bf16 (shapeCast S8192x1024 (A0 m c) shapeCasts_S4x2048x1024_S8192x1024) bitsLt_bf16_f32 := by
  show StableHlo.after hostOps0 (Run.W0 m c) (Proc.devRef .tc main_v1) = _
  after_results
  try rfl
theorem v3_eq : (Run.V1 m c main_v3 : S1024x3072.Idx → EReal)
    = truncf (F := Ideal) .bf16 (transpose S1024x3072 [1, 0] (A3 m c) transposes_S3072x1024_S1024x3072_1_0) bitsLt_bf16_f32 := by
  show StableHlo.after hostOps0 (Run.W0 m c) (Proc.devRef .tc main_v3) = _
  after_results
  try rfl
theorem v5_eq : (Run.V1 m c main_v5 : S1024x1024.Idx → EReal)
    = truncf (F := Ideal) .bf16 (transpose S1024x1024 [1, 0] (A4 m c) transposes_S1024x1024_S1024x1024_1_0) bitsLt_bf16_f32 := by
  show StableHlo.after hostOps0 (Run.W0 m c) (Proc.devRef .tc main_v5) = _
  after_results
  try rfl
theorem v6_eq : (Run.V1 m c main_v6 : S1x1024.Idx → EReal) = shapeCast S1x1024 (A5 m c) shapeCasts_S1024_S1x1024 := by
  show StableHlo.after hostOps0 (Run.W0 m c) (Proc.devRef .tc main_v6) = _
  after_results
  try rfl
theorem v7_eq : (Run.V1 m c main_v7 : S1x64.Idx → EReal) = shapeCast S1x64 (A6 m c) shapeCasts_S64_S1x64 := by
  show StableHlo.after hostOps0 (Run.W0 m c) (Proc.devRef .tc main_v7) = _
  after_results
  try rfl
theorem v8_eq : (Run.V1 m c main_v8 : S1x64.Idx → EReal) = shapeCast S1x64 (A7 m c) shapeCasts_S64_S1x64 := by
  show StableHlo.after hostOps0 (Run.W0 m c) (Proc.devRef .tc main_v8) = _
  after_results
  try rfl
theorem v9_eq : (Run.V1 m c main_v9 : S2048x64.Idx → EReal) = shapeCast S2048x64 (A1 m c) shapeCasts_S1x1x2048x64_S2048x64 := by
  show StableHlo.after hostOps0 (Run.W0 m c) (Proc.devRef .tc main_v9) = _
  after_results
  try rfl
theorem v10_eq : (Run.V1 m c main_v10 : S2048x64.Idx → EReal) = shapeCast S2048x64 (A2 m c) shapeCasts_S1x1x2048x64_S2048x64 := by
  show StableHlo.after hostOps0 (Run.W0 m c) (Proc.devRef .tc main_v10) = _
  after_results
  try rfl

/-- The flattened activations: row b·2048+n, column k is position n of batch b, channel k. -/
theorem v1_apply (b : Fin 4) (n : Fin 2048) (k : Fin 1024) (hr : b.val * 2048 + n.val < 8192) :
    (Run.V1 m c main_v1 : S8192x1024.Idx → EReal) (ix2 (⟨b.val * 2048 + n.val, hr⟩ : Fin 8192) k) = A0 m c (ix3 b n k) := by
  rw [v1_eq]
  show shapeCast S8192x1024 (A0 m c) shapeCasts_S4x2048x1024_S8192x1024 (ix2 (⟨b.val * 2048 + n.val, hr⟩ : Fin 8192) k) = _
  refine shapeCast_apply _ _ _ _ ?_
  rw [Shape.rowMajor_val_three, Shape.rowMajor_val_two]
  rfl
/-- The transposed q/k/v weights. -/
theorem v3_apply (k : Fin 1024) (d : Fin 3072) : (Run.V1 m c main_v3 : S1024x3072.Idx → EReal) (ix2 k d) = A3 m c (ix2 d k) := by
  rw [v3_eq]
  exact transpose_ix2_apply (A3 m c) transposes_S3072x1024_S1024x3072_1_0 k d
/-- The transposed projection weights. -/
theorem v5_apply (d : Fin 1024) (c' : Fin 1024) : (Run.V1 m c main_v5 : S1024x1024.Idx → EReal) (ix2 d c') = A4 m c (ix2 c' d) := by
  rw [v5_eq]
  exact transpose_ix2_apply (A4 m c) transposes_S1024x1024_S1024x1024_1_0 d c'
/-- The bias as a row. -/
theorem v6_apply (c' : Fin 1024) : (Run.V1 m c main_v6 : S1x1024.Idx → EReal) (ix2 (0 : Fin 1) c') = A5 m c (ix1 c') := by
  rw [v6_eq]
  exact shapeCast_a_1a_apply (A5 m c) shapeCasts_S1024_S1x1024 (0 : Fin 1) c'
/-- The norm weights as rows. -/
theorem v7_apply (e : Fin 64) : (Run.V1 m c main_v7 : S1x64.Idx → EReal) (ix2 (0 : Fin 1) e) = A6 m c (ix1 e) := by
  rw [v7_eq]
  exact shapeCast_a_1a_apply (A6 m c) shapeCasts_S64_S1x64 (0 : Fin 1) e
theorem v8_apply (e : Fin 64) : (Run.V1 m c main_v8 : S1x64.Idx → EReal) (ix2 (0 : Fin 1) e) = A7 m c (ix1 e) := by
  rw [v8_eq]
  exact shapeCast_a_1a_apply (A7 m c) shapeCasts_S64_S1x64 (0 : Fin 1) e
/-- The rotation tables as [2048,64]. -/
theorem v9_apply (n : Fin 2048) (e : Fin 64) : (Run.V1 m c main_v9 : S2048x64.Idx → EReal) (ix2 n e) = A1 m c (ix4 (0 : Fin 1) (0 : Fin 1) n e) := by
  rw [v9_eq]
  refine shapeCast_apply _ _ _ _ ?_
  rw [Shape.rowMajor_val_four, Shape.rowMajor_val_two]
  show ((0 * 1 + 0) * 2048 + n.val) * 64 + e.val = n.val * 64 + e.val
  omega
theorem v10_apply (n : Fin 2048) (e : Fin 64) : (Run.V1 m c main_v10 : S2048x64.Idx → EReal) (ix2 n e) = A2 m c (ix4 (0 : Fin 1) (0 : Fin 1) n e) := by
  rw [v10_eq]
  refine shapeCast_apply _ _ _ _ ?_
  rw [Shape.rowMajor_val_four, Shape.rowMajor_val_two]
  show ((0 * 1 + 0) * 2048 + n.val) * 64 + e.val = n.val * 64 + e.val
  omega

variable (o9 : Out9 Ideal)

/-- The result unflattened: position n of batch b, channel c' is row b·2048+n, column c' of the last region's output. -/
theorem v14_apply (b : Fin 4) (n : Fin 2048) (c' : Fin 1024) (hr : b.val * 2048 + n.val < 8192) :
    (Run.W5 o9 m c (Proc.devRef .tc main_v14) : S4x2048x1024.Idx → EReal) (ix3 b n c')
      = (Run.V4 o9 m c main_v13 : S8192x1024.Idx → EReal) (ix2 (⟨b.val * 2048 + n.val, hr⟩ : Fin 8192) c') := by
  have e : (Run.W5 o9 m c (Proc.devRef .tc main_v14) : S4x2048x1024.Idx → EReal)
      = shapeCast S4x2048x1024 (Run.V4 o9 m c main_v13 : S8192x1024.Idx → EReal) shapeCasts_S8192x1024_S4x2048x1024 := by
    show StableHlo.after hostOps3 (Run.W4 o9 m c) (Proc.devRef .tc main_v14) = _
    after_results
    try rfl
  rw [e]
  refine shapeCast_apply _ _ _ _ ?_
  show (S8192x1024.rowMajor (ix2 (⟨b.val * 2048 + n.val, hr⟩ : Fin 8192) c')).val = (S4x2048x1024.rowMajor (ix3 b n c')).val
  rw [Shape.rowMajor_val_three, Shape.rowMajor_val_two]
  rfl

end Cert.KernelIdeal.Host

end
-- ==== Proof.KIValue0.lean ====
/-
  What the projection region's output array holds after the region, on the extended reals: entry (r, d) is the
  sum over c of activations (r, c) times transposed weights (c, d). Point t of the grid of 8 writes rows
  1024·t … 1024·t + 1023, all 3072 columns; the 8 blocks cover the array.
-/
import proofs.«143587_j22539988369511_2_alg».proof.Proof.KIFrame0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Value0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

open Cert.KernelIdeal.Frame0

variable (V : (c : Dev nD) → (b : Ref sig .tc) → Buf (Elt Ideal) ((c : Thread nD τ).loc b))

theorem hz : (![0, 0] : Fin 2 → Nat) = fun _ => 0 := funext fun a => by fin_cases a <;> rfl

/-- The matrix product of an [8192,1024] array and a [1024,3072] array, entry by entry. -/
def prod0 (a : S8192x1024.Idx → EReal) (b : S1024x3072.Idx → EReal) : S8192x3072.Idx → EReal :=
  fun i => ∑ k : Fin 1024, a (ix2 (i 0) k) * b (ix2 k (i 1))

theorem mm0_lhs0 (j : S1024x3072.Idx) (q : dot_S1024x1024_S1024x3072_S1024x3072_1_0_0_1_n_n.contr.Idx) : (dot_S1024x1024_S1024x3072_S1024x3072_1_0_0_1_n_n.lhsIdx j q 0).val = (j 0).val := by
  unfold DotDims.lhsIdx
  rw [dif_neg (show ¬(0 : Fin S1024x1024.rank) ∈ dot_S1024x1024_S1024x3072_S1024x3072_1_0_0_1_n_n.lhsBatch by decide), dif_pos (show (0 : Fin S1024x1024.rank) ∈ dot_S1024x1024_S1024x3072_S1024x3072_1_0_0_1_n_n.lhsNonContracting by decide)]
  rfl
theorem mm0_rhs1 (j : S1024x3072.Idx) (q : dot_S1024x1024_S1024x3072_S1024x3072_1_0_0_1_n_n.contr.Idx) : (dot_S1024x1024_S1024x3072_S1024x3072_1_0_0_1_n_n.rhsIdx j q 1).val = (j 1).val := by
  unfold DotDims.rhsIdx
  rw [dif_neg (show ¬(1 : Fin S1024x3072.rank) ∈ dot_S1024x1024_S1024x3072_S1024x3072_1_0_0_1_n_n.rhsBatch by decide), dif_pos (show (1 : Fin S1024x3072.rank) ∈ dot_S1024x1024_S1024x3072_S1024x3072_1_0_0_1_n_n.rhsNonContracting by decide)]
  rfl
/-- The matmul of the two loaded blocks at an entry: the sum over the contracted axis. -/
theorem mm0_apply (x0 : FVec Ideal S1024x1024 .bf16) (x1 : FVec Ideal S1024x3072 .bf16) (j : S1024x3072.Idx) :
    FloatOps.matmul dot_S1024x1024_S1024x3072_S1024x3072_1_0_0_1_n_n none x0 x1 (constant S1024x3072 .f32 0x00000000#32) j = ∑ k : Fin 1024, x0 (ix2 (j 0) k) * x1 (ix2 k (j 1)) := by
  rw [Ideal.matmul_constant_zero_apply, ← Equiv.sum_comp (contrEquiv1 dot_S1024x1024_S1024x3072_S1024x3072_1_0_0_1_n_n 1024 rfl rfl).symm]
  refine Finset.sum_congr rfl fun k _ => ?_
  have hk := contrEquiv1_symm_val dot_S1024x1024_S1024x3072_S1024x3072_1_0_0_1_n_n 1024 rfl rfl k
  have el : dot_S1024x1024_S1024x3072_S1024x3072_1_0_0_1_n_n.lhsIdx j ((contrEquiv1 dot_S1024x1024_S1024x3072_S1024x3072_1_0_0_1_n_n 1024 rfl rfl).symm k) = ix2 (j 0) k :=
    funext fun a => Fin.ext (by
      match a with
      | ⟨0, _⟩ => exact mm0_lhs0 _ _
      | ⟨1, _⟩ => exact (dot_S1024x1024_S1024x3072_S1024x3072_1_0_0_1_n_n.lhsIdx_val_of_single rfl j _).trans hk)
  have er : dot_S1024x1024_S1024x3072_S1024x3072_1_0_0_1_n_n.rhsIdx j ((contrEquiv1 dot_S1024x1024_S1024x3072_S1024x3072_1_0_0_1_n_n 1024 rfl rfl).symm k) = ix2 k (j 1) :=
    funext fun a => Fin.ext (by
      match a with
      | ⟨0, _⟩ => exact (dot_S1024x1024_S1024x3072_S1024x3072_1_0_0_1_n_n.rhsIdx_val_of_single rfl j _).trans hk
      | ⟨1, _⟩ => exact mm0_rhs1 _ _)
  rw [el, er]
  rfl

/-- The body's payload at an entry of the block: the sum over the contracted axis of the products (the change of
    float format is the identity on the extended reals, the accumulator starts at zero). -/
theorem pay0_apply (x0 : Vec Ideal S1024x1024 .bf16) (x1 : Vec Ideal S1024x3072 .bf16) (p : Fin 1024) (q : Fin 3072) :
    k0_pay1 (F := Ideal) x0 x1 (ix2 p q) = ∑ k : Fin 1024, x0 (ix2 p k) * x1 (ix2 k q) := by
  unfold k0_pay1
  rw [shapeCast_self, shapeCast_self]
  exact mm0_apply x0 x1 (ix2 p q)

/-- The printed index maps over the grid: the activations' block and the output's block sit at row block t, the
    weights' block is the whole matrix. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's payload over the blocks of two arrays, at an entry of the output block, is the product's entry at
    the corresponding place of the output array: the activations' block and the output's block sit at the same
    rows, the weights' block is the whole matrix. -/
theorem block_prod0 (a : S8192x1024.Idx → EReal) (b : S1024x3072.Idx → EReal) (t : Fin cfg0.N) (j : S1024x3072.Idx) :
    k0_pay1 (F := Ideal) (((cfg0.win 0).blk t).view.read (Elt Ideal) a) (((cfg0.win 1).blk t).view.read (Elt Ideal) b) j
      = prod0 a b (((cfg0.win 2).blk t).view.emb j) := by
  obtain ⟨e0, e1, e2, e3, e4, e5⟩ := idx_facts0 t
  obtain ⟨p, q, rfl⟩ : ∃ (p : Fin 1024) (q : Fin 3072), j = ix2 p q := ⟨j 0, j 1, eq_ix2 j⟩
  have ht : t.val < 8 := lt_of_lt_of_eq t.isLt N_0
  have hp : t.val * 1024 + p.val < 8192 := by have := p.isLt; omega
  have hemb : ((cfg0.win 2).blk t).view.emb (ix2 p q) = (ix2 (⟨t.val * 1024 + p.val, hp⟩ : Fin 8192) q : S8192x3072.Idx) := by
    funext a; apply Fin.ext
    match a with
    | ⟨0, _⟩ => show win0_2.index t (0 : Fin 2) * 1024 + 1 * p.val = t.val * 1024 + p.val; omega
    | ⟨1, _⟩ => show win0_2.index t (1 : Fin 2) * 3072 + 1 * q.val = q.val; omega
  rw [pay0_apply, hemb]
  show _ = ∑ k : Fin 1024, a (ix2 (⟨t.val * 1024 + p.val, hp⟩ : Fin 8192) k) * b (ix2 k q)
  refine Finset.sum_congr rfl fun k _ => ?_
  have h0 : ((cfg0.win 0).blk t).view.emb (ix2 p k) = (ix2 (⟨t.val * 1024 + p.val, hp⟩ : Fin 8192) k : S8192x1024.Idx) := by
    funext a; apply Fin.ext
    match a with
    | ⟨0, _⟩ => show win0_0.index t (0 : Fin 2) * 1024 + 1 * p.val = t.val * 1024 + p.val; omega
    | ⟨1, _⟩ => show win0_0.index t (1 : Fin 2) * 1024 + 1 * k.val = k.val; omega
  have h1 : ((cfg0.win 1).blk t).view.emb (ix2 k q) = (ix2 k q : S1024x3072.Idx) := by
    funext a; apply Fin.ext
    match a with
    | ⟨0, _⟩ => show win0_1.index t (0 : Fin 2) * 1024 + 1 * k.val = k.val; omega
    | ⟨1, _⟩ => show win0_1.index t (1 : Fin 2) * 3072 + 1 * q.val = q.val; omega
  show a (((cfg0.win 0).blk t).view.emb (ix2 p k)) * b (((cfg0.win 1).blk t).view.emb (ix2 k q)) = _
  rw [h0, h1]

/-- What point `t` writes back is block `t` of the product of the two arrays as the region finds them. -/
theorem flushed0_eq (c : Dev nD) (t : Fin cfg0.N) :
    (dat0 V c).flushed 2 t = ((cfg0.win 2).blk t).view.read (Elt Ideal) (prod0 (V c main_v1) (V c main_v3)) := by
  show (cfg0.win 2).cut (grid0.coords t) ((dat0 V c).after 2 t) = _
  rw [after0_2]
  unfold out0_2
  rw [View.canon_unit_zero hz]
  simp only [View.ld_unit_zero (S := S1024x1024) hz, View.ld_unit_zero (S := S1024x3072) hz]
  funext j
  exact block_prod0 (V c main_v1) (V c main_v3) t j

/-- An index of the output array is in point `t`'s block iff each coordinate is in the block's range. -/
theorem mem_blk0 (t : Fin cfg0.N) (i : S8192x3072.Idx) :
    i ∈ ((cfg0.win 2).blk t).view.set ↔ ∀ a : Fin 2, win0_2.index t a * S1024x3072.size a ≤ (i a).val ∧ (i a).val < win0_2.index t a * S1024x3072.size a + S1024x3072.size a := by
  show i ∈ ((View.whole main_v11).slice (win0_2.rect t)).set ↔ _
  rw [View.set_slice_whole, Rect.mem_set_unit]
  exact Iff.rfl

/-- Every index of the output array is in the block of the point its row falls in. -/
theorem cover0 (i : S8192x3072.Idx) : ∃ t : Fin cfg0.N, (cfg0.win 2).flush t = true ∧ i ∈ ((cfg0.win 2).blk t).view.set := by
  have hi0 : (i 0).val < 8192 := (i 0).isLt
  have hi1 : (i 1).val < 3072 := (i 1).isLt
  let t : Fin cfg0.N := ⟨(i 0).val / 1024, by rw [show cfg0.N = 8 from N_0]; omega⟩
  obtain ⟨e0, e1, e2, e3, e4, e5⟩ := idx_facts0 t
  refine ⟨t, flush0_2 t, ?_⟩
  rw [mem_blk0]
  intro a
  match a with
  | ⟨0, _⟩ => show win0_2.index t (0 : Fin 2) * 1024 ≤ (i 0).val ∧ (i 0).val < win0_2.index t (0 : Fin 2) * 1024 + 1024; rw [e4]; show (i 0).val / 1024 * 1024 ≤ _ ∧ _ < (i 0).val / 1024 * 1024 + 1024; omega
  | ⟨1, _⟩ => show win0_2.index t (1 : Fin 2) * 3072 ≤ (i 1).val ∧ (i 1).val < win0_2.index t (1 : Fin 2) * 3072 + 3072; omega

/-- THE ARRAY after the region: the product of the two input arrays as the region found them. -/
theorem final0 (c : Dev nD) : (dat0 V c).arrAt 2 cfg0.N = prod0 (V c main_v1) (V c main_v3) :=
  (dat0 V c).arrAt_eq_of_cover 2 _ (fun t _ => flushed0_eq V c t) cover0

end Cert.KernelIdeal.Value0

end
-- ==== Proof.KIValue2.lean ====
/-
  What the output-projection region's output array holds after the region, on the extended reals: entry (r, c) is
  the sum over d of attention output (r, d) times transposed projection weights (d, c), plus the bias at c. Point t
  of the grid of 8 writes rows 1024·t … 1024·t + 1023, all 1024 columns; the 8 blocks cover the array.
-/
import proofs.«143587_j22539988369511_2_alg».proof.Proof.KIFrame2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Value2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

open Cert.KernelIdeal.Frame2

variable (V : (c : Dev nD) → (b : Ref sig .tc) → Buf (Elt Ideal) ((c : Thread nD τ).loc b))

theorem hz : (![0, 0] : Fin 2 → Nat) = fun _ => 0 := funext fun a => by fin_cases a <;> rfl

/-- The matrix product of an [8192,1024] array and a [1024,1024] array plus a bias row, entry by entry. -/
def prod2 (a : S8192x1024.Idx → EReal) (b : S1024x1024.Idx → EReal) (bias : S1x1024.Idx → EReal) : S8192x1024.Idx → EReal :=
  fun i => (∑ k : Fin 1024, a (ix2 (i 0) k) * b (ix2 k (i 1))) + bias (ix2 (0 : Fin 1) (i 1))

theorem mm2_lhs0 (j : S1024x1024.Idx) (q : dot_S1024x1024_S1024x1024_S1024x1024_1_0_0_1_n_n.contr.Idx) : (dot_S1024x1024_S1024x1024_S1024x1024_1_0_0_1_n_n.lhsIdx j q 0).val = (j 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem mm2_rhs1 (j : S1024x1024.Idx) (q : dot_S1024x1024_S1024x1024_S1024x1024_1_0_0_1_n_n.contr.Idx) : (dot_S1024x1024_S1024x1024_S1024x1024_1_0_0_1_n_n.rhsIdx j q 1).val = (j 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl
/-- The matmul of the two loaded blocks at an entry: the sum over the contracted axis. -/
theorem mm2_apply (x0 x1 : FVec Ideal S1024x1024 .bf16) (j : S1024x1024.Idx) :
    FloatOps.matmul dot_S1024x1024_S1024x1024_S1024x1024_1_0_0_1_n_n none x0 x1 (constant S1024x1024 .f32 0x00000000#32) j = ∑ k : Fin 1024, x0 (ix2 (j 0) k) * x1 (ix2 k (j 1)) := by
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx j ((contrEquiv1 dot_S1024x1024_S1024x1024_S1024x1024_1_0_0_1_n_n 1024 rfl rfl).symm k) = ix2 (j 0) k :=
    funext fun a => Fin.ext (by
      match a with
      | ⟨0, _⟩ => exact mm2_lhs0 _ _
      | ⟨1, _⟩ => exact (dot_S1024x1024_S1024x1024_S1024x1024_1_0_0_1_n_n.lhsIdx_val_of_single rfl j _).trans hk)
  have er : dot_S1024x1024_S1024x1024_S1024x1024_1_0_0_1_n_n.rhsIdx j ((contrEquiv1 dot_S1024x1024_S1024x1024_S1024x1024_1_0_0_1_n_n 1024 rfl rfl).symm k) = ix2 k (j 1) :=
    funext fun a => Fin.ext (by
      match a with
      | ⟨0, _⟩ => exact (dot_S1024x1024_S1024x1024_S1024x1024_1_0_0_1_n_n.rhsIdx_val_of_single rfl j _).trans hk
      | ⟨1, _⟩ => exact mm2_rhs1 _ _)
  rw [el, er]
  rfl

/-- The body's payload at an entry of the block: the product's entry plus the bias of its column. -/
theorem pay2_apply (x0 x1 : Vec Ideal S1024x1024 .bf16) (x2 : Vec Ideal S1x1024 .f32) (p q : Fin 1024) :
    k2_pay1 (F := Ideal) x0 x1 x2 (ix2 p q) = (∑ k : Fin 1024, x0 (ix2 p k) * x1 (ix2 k q)) + x2 (ix2 (0 : Fin 1) q) := by
  unfold k2_pay1
  rw [shapeCast_self, shapeCast_self, shapeCast_self]
  refine (addf_apply _ _ _).trans ?_
  exact congrArg₂ (fun u v : EReal => u + v) (mm2_apply x0 x1 (ix2 p q)) (broadcastTo_1b_ab_apply x2 broadcasts_S1x1024_S1024x1024 p q)

/-- The printed index maps over the grid: the attention output's block and the output's block sit at row block t,
    the weights' and the bias's blocks are the whole arrays. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The body's payload over the blocks of three arrays, at an entry of the output block, is product-plus-bias at
    the corresponding place of the output array: the attention output's block and the output's block sit at the
    same rows, the weights' and the bias's blocks are the whole arrays. -/
theorem block_prod2 (a : S8192x1024.Idx → EReal) (b : S1024x1024.Idx → EReal) (bias : S1x1024.Idx → EReal) (t : Fin cfg2.N) (j : S1024x1024.Idx) :
    k2_pay1 (F := Ideal) (((cfg2.win 0).blk t).view.read (Elt Ideal) a) (((cfg2.win 1).blk t).view.read (Elt Ideal) b)
        (((cfg2.win 2).blk t).view.read (Elt Ideal) bias) j
      = prod2 a b bias (((cfg2.win 3).blk t).view.emb j) := by
  obtain ⟨e0, e1, e2, e3, e4, e5, e6, e7⟩ := idx_facts2 t
  obtain ⟨p, q, rfl⟩ : ∃ (p : Fin 1024) (q : Fin 1024), j = ix2 p q := ⟨j 0, j 1, eq_ix2 j⟩
  have ht : t.val < 8 := lt_of_lt_of_eq t.isLt N_2
  have hp : t.val * 1024 + p.val < 8192 := by have := p.isLt; omega
  have hemb : ((cfg2.win 3).blk t).view.emb (ix2 p q) = (ix2 (⟨t.val * 1024 + p.val, hp⟩ : Fin 8192) q : S8192x1024.Idx) := by
    funext a; apply Fin.ext
    match a with
    | ⟨0, _⟩ => show win2_3.index t (0 : Fin 2) * 1024 + 1 * p.val = t.val * 1024 + p.val; omega
    | ⟨1, _⟩ => show win2_3.index t (1 : Fin 2) * 1024 + 1 * q.val = q.val; omega
  rw [pay2_apply, hemb]
  show _ = (∑ k : Fin 1024, a (ix2 (⟨t.val * 1024 + p.val, hp⟩ : Fin 8192) k) * b (ix2 k q)) + bias (ix2 (0 : Fin 1) q)
  have h2 : ((cfg2.win 2).blk t).view.emb (ix2 (0 : Fin 1) q) = (ix2 (0 : Fin 1) q : S1x1024.Idx) := by
    funext a; apply Fin.ext
    match a with
    | ⟨0, _⟩ => show win2_2.index t (0 : Fin 2) * 1 + 1 * 0 = 0; omega
    | ⟨1, _⟩ => show win2_2.index t (1 : Fin 2) * 1024 + 1 * q.val = q.val; omega
  show (∑ k : Fin 1024, a (((cfg2.win 0).blk t).view.emb (ix2 p k)) * b (((cfg2.win 1).blk t).view.emb (ix2 k q)))
      + bias (((cfg2.win 2).blk t).view.emb (ix2 (0 : Fin 1) q)) = _
  rw [h2]
  refine congrArg (· + bias (ix2 (0 : Fin 1) q)) (Finset.sum_congr rfl fun k _ => ?_)
  have h0 : ((cfg2.win 0).blk t).view.emb (ix2 p k) = (ix2 (⟨t.val * 1024 + p.val, hp⟩ : Fin 8192) k : S8192x1024.Idx) := by
    funext a; apply Fin.ext
    match a with
    | ⟨0, _⟩ => show win2_0.index t (0 : Fin 2) * 1024 + 1 * p.val = t.val * 1024 + p.val; omega
    | ⟨1, _⟩ => show win2_0.index t (1 : Fin 2) * 1024 + 1 * k.val = k.val; omega
  have h1 : ((cfg2.win 1).blk t).view.emb (ix2 k q) = (ix2 k q : S1024x1024.Idx) := by
    funext a; apply Fin.ext
    match a with
    | ⟨0, _⟩ => show win2_1.index t (0 : Fin 2) * 1024 + 1 * k.val = k.val; omega
    | ⟨1, _⟩ => show win2_1.index t (1 : Fin 2) * 1024 + 1 * q.val = q.val; omega
  rw [h0, h1]

/-- What point `t` writes back is block `t` of product-plus-bias of the three arrays as the region finds them. -/
theorem flushed2_eq (c : Dev nD) (t : Fin cfg2.N) :
    (dat2 V c).flushed 3 t = ((cfg2.win 3).blk t).view.read (Elt Ideal) (prod2 (V c main_v12) (V c main_v5) (V c main_v6)) := by
  show (cfg2.win 3).cut (grid2.coords t) ((dat2 V c).after 3 t) = _
  rw [after2_3]
  unfold out2_3
  rw [View.canon_unit_zero hz]
  simp only [View.ld_unit_zero (S := S1024x1024) hz, View.ld_unit_zero (S := S1x1024) hz]
  funext j
  exact block_prod2 (V c main_v12) (V c main_v5) (V c main_v6) t j

/-- An index of the output array is in point `t`'s block iff each coordinate is in the block's range. -/
theorem mem_blk2 (t : Fin cfg2.N) (i : S8192x1024.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v13).slice (win2_3.rect t)).set ↔ _
  rw [View.set_slice_whole, Rect.mem_set_unit]
  exact Iff.rfl

/-- Every index of the output array is in the block of the point its row falls in. -/
theorem cover2 (i : S8192x1024.Idx) : ∃ t : Fin cfg2.N, (cfg2.win 3).flush t = true ∧ i ∈ ((cfg2.win 3).blk t).view.set := by
  have hi0 : (i 0).val < 8192 := (i 0).isLt
  have hi1 : (i 1).val < 1024 := (i 1).isLt
  let t : Fin cfg2.N := ⟨(i 0).val / 1024, by rw [show cfg2.N = 8 from N_2]; omega⟩
  obtain ⟨e0, e1, e2, e3, e4, e5, e6, e7⟩ := idx_facts2 t
  refine ⟨t, flush2_3 t, ?_⟩
  rw [mem_blk2]
  intro a
  match a with
  | ⟨0, _⟩ => show win2_3.index t (0 : Fin 2) * 1024 ≤ (i 0).val ∧ (i 0).val < win2_3.index t (0 : Fin 2) * 1024 + 1024; rw [e6]; show (i 0).val / 1024 * 1024 ≤ _ ∧ _ < (i 0).val / 1024 * 1024 + 1024; omega
  | ⟨1, _⟩ => show win2_3.index t (1 : Fin 2) * 1024 ≤ (i 1).val ∧ (i 1).val < win2_3.index t (1 : Fin 2) * 1024 + 1024; omega

/-- THE ARRAY after the region: product-plus-bias of the three input arrays as the region found them. -/
theorem final2 (c : Dev nD) : (dat2 V c).arrAt 3 cfg2.N = prod2 (V c main_v12) (V c main_v5) (V c main_v6) :=
  (dat2 V c).arrAt_eq_of_cover 3 _ (fun t _ => flushed2_eq V c t) cover2

end Cert.KernelIdeal.Value2

end
-- ==== Proof.AttnSpec.lean ====
/-
  The specification of the multi-head attention both programs compute, over the literal shapes
  B = 4 (batch), N = 2048 (positions), C = 1024 (channels), H = 16 heads of 64 lanes, read on the extended reals.
  It is stated stage by stage, each stage a function of the argument arrays at explicit coordinates
  (b : Fin 4) (h : Fin 16) (n : Fin 2048) (e : Fin 64):

    qkv[b,n,d]   = Σ_c x[b,n,c] · w_qkv[d,c],           d = (s·16 + h)·64 + e,  s = 0 (q), 1 (k), 2 (v)
    norm(t)[e]   = t[e] / sqrt((Σ_e' t[e']·t[e']) / 64 + eps) · w[e]           (root-mean-square normalisation)
    rope(t)[n,e] = t[e]·cos[n,e] + rot(t)[e]·sin[n,e],  rot(t)[e] = −t[e+32] (e < 32), t[e−32] (e ≥ 32)
    out[b,h,n,e] = softmax_k(scale · Σ_e' q[n,e']·k[k,e']) weighted sum of v[k,e]
    result[b,n,c] = Σ_d out[b, d/64, n, d%64] · w_proj[c,d] + b_proj[c]

  The attention output is written in TWO arrangements of the same arithmetic:
    * `refForm`: the scale multiplies the finished score sum, and each weight is divided by the
      normaliser BEFORE the weighted sum of v:   Σ_k (p_k / D) · v_k,  s = (Σ q·k) · scale;
    * `kerForm`: the scale multiplies each q lane before the score sum, and the weighted sum is
      divided by the normaliser AFTERWARDS:      (Σ_k p_k · v_k) / D,  s = Σ (q·scale)·k.
  Here p_k = exp(s_k − max_j s_j) and D = Σ_k p_k. That the two agree when every input entry is a
  finite real is a theorem of the laws module, not of this one. The float literals stay as their
  bit patterns: the same word on both sides is never evaluated.
-/
import Idealize.ShloMosaic.PureOps.Ideal
import Idealize.ShloMosaic.Lib.ValueIdx

noncomputable section

namespace Cert.AttnSpec

open Idealize.ShloMosaic Idealize.ShloMosaic.ValueIdx
open scoped BigOperators

/-! ## The argument arrays -/

/-- The activations x[b, n, c]. -/
abbrev XArr : Type := (⟨3, ![4, 2048, 1024]⟩ : Shape).Idx → EReal
/-- A rotary table cos[0, 0, n, e] or sin[0, 0, n, e]. -/
abbrev RopeArr : Type := (⟨4, ![1, 1, 2048, 64]⟩ : Shape).Idx → EReal
/-- The fused projection weight w_qkv[d, c], d over the 3·1024 output channels. -/
abbrev WqkvArr : Type := (⟨2, ![3072, 1024]⟩ : Shape).Idx → EReal
/-- The output projection weight w_proj[c, d]. -/
abbrev WprojArr : Type := (⟨2, ![1024, 1024]⟩ : Shape).Idx → EReal
/-- The output bias b_proj[c]. -/
abbrev BiasArr : Type := (⟨1, ![1024]⟩ : Shape).Idx → EReal
/-- A normalisation weight w[e] over one head's 64 lanes. -/
abbrev NormArr : Type := (⟨1, ![64]⟩ : Shape).Idx → EReal

/-! ## The literals -/

/-- The divisor of the mean over a head's lanes: the f32 pattern of 64. -/
abbrev lanesLit : EReal := Ideal.ofBits .f32 0x42800000#32
/-- The normalisation's epsilon: the f32 pattern nearest 1e-6. -/
abbrev epsLit : EReal := Ideal.ofBits .f32 0x358637BD#32
/-- The softmax scale 1/sqrt(64): the f32 pattern of 0.125. -/
abbrev scaleLit : EReal := Ideal.ofBits .f32 0x3E000000#32
/-- The initial value of the running maximum: the f32 pattern of −∞. -/
abbrev negInfLit : EReal := Ideal.ofBits .f32 0xFF800000#32

/-! ## The projection to q, k, v -/

/-- The channel of section s (0 = q, 1 = k, 2 = v), head h, lane e among the 3072 projected channels. -/
def chan (s : Fin 3) (h : Fin 16) (e : Fin 64) : Fin 3072 :=
  ⟨(s.val * 16 + h.val) * 64 + e.val, by have := s.isLt; have := h.isLt; have := e.isLt; omega⟩

/-- qkv[b, n, d] = Σ_c x[b, n, c] · w_qkv[d, c]. -/
def qkvS (x : XArr) (w : WqkvArr) (b : Fin 4) (n : Fin 2048) (d : Fin 3072) : EReal :=
  ∑ c : Fin 1024, x (ix3 b n c) * w (ix2 d c)

/-- Section s of the projection, split into heads: t[b, h, n, e] = qkv[b, n, (s·16 + h)·64 + e]. -/
def headS (x : XArr) (w : WqkvArr) (s : Fin 3) (b : Fin 4) (h : Fin 16) (n : Fin 2048) (e : Fin 64) : EReal :=
  qkvS x w b n (chan s h e)

/-! ## Normalisation and rotation of one head's row t : Fin 64 → EReal -/

/-- The root of the mean square of a row, plus epsilon inside the root: sqrt((Σ_e t[e]·t[e]) / 64 + eps). -/
def rmsS (t : Fin 64 → EReal) : EReal :=
  Ideal.sqrt (Ideal.div (∑ e : Fin 64, t e * t e) lanesLit + epsLit)

/-- norm(t)[e] = t[e] / rms(t) · w[e]. -/
def normS (t : Fin 64 → EReal) (w : NormArr) (e : Fin 64) : EReal :=
  Ideal.div (t e) (rmsS t) * w (ix1 e)

/-- The lane the rotation reads: e + 32 in the lower half, e − 32 in the upper half. -/
def rotLane (e : Fin 64) : Fin 64 :=
  if h : e.val < 32 then ⟨e.val + 32, by omega⟩ else ⟨e.val - 32, by have := e.isLt; omega⟩

/-- rot(t)[e] = −t[e + 32] for e < 32, t[e − 32] for e ≥ 32: the two halves swapped, the upper one negated. -/
def rotS (t : Fin 64 → EReal) (e : Fin 64) : EReal :=
  if e.val < 32 then -(t (rotLane e)) else t (rotLane e)

/-- rope(t)[n, e] = t[e] · cos[n, e] + rot(t)[e] · sin[n, e]. -/
def ropeS (t : Fin 64 → EReal) (cos sin : RopeArr) (n : Fin 2048) (e : Fin 64) : EReal :=
  t e * cos (ix4 0 0 n e) + rotS t e * sin (ix4 0 0 n e)

/-- The query after normalisation and rotation, q[b, h, n, e]. -/
def qrS (x : XArr) (cos sin : RopeArr) (w : WqkvArr) (qw : NormArr)
    (b : Fin 4) (h : Fin 16) (n : Fin 2048) (e : Fin 64) : EReal :=
  ropeS (normS (fun e' => headS x w 0 b h n e') qw) cos sin n e

/-- The key after normalisation and rotation, k[b, h, n, e]. -/
def krS (x : XArr) (cos sin : RopeArr) (w : WqkvArr) (kw : NormArr)
    (b : Fin 4) (h : Fin 16) (n : Fin 2048) (e : Fin 64) : EReal :=
  ropeS (normS (fun e' => headS x w 1 b h n e') kw) cos sin n e

/-- The value v[b, h, n, e]: the third section of the projection, untouched. -/
def vS (x : XArr) (w : WqkvArr) (b : Fin 4) (h : Fin 16) (n : Fin 2048) (e : Fin 64) : EReal :=
  headS x w 2 b h n e

/-! ## One query row against all keys: scores s : Fin 2048 → EReal, values v : Fin 2048 → EReal -/

/-- The score with the scale applied to the finished sum: (Σ_e q[e] · k[e]) · scale. -/
def scoreRef (q k : Fin 64 → EReal) : EReal :=
  (∑ e : Fin 64, q e * k e) * scaleLit

/-- The score with the scale applied to each query lane first: Σ_e (q[e] · scale) · k[e]. -/
def scoreKer (q k : Fin 64 → EReal) : EReal :=
  ∑ e : Fin 64, (q e * scaleLit) * k e

/-- The running maximum of the scores over the keys, started at −∞. -/
def smaxS (s : Fin 2048 → EReal) : EReal :=
  (Finset.univ : Finset (Fin 2048)).fold max negInfLit s

/-- The unnormalised weight of key k given the subtracted maximum m: exp(s[k] − m). -/
def wgtS (s : Fin 2048 → EReal) (m : EReal) (k : Fin 2048) : EReal :=
  Ideal.exp (s k - m)

/-- Softmax-weighted sum, weights divided by the normaliser BEFORE the sum; the subtracted maximum is
    taken once more against −∞ (as a softmax that guards an all-−∞ row prints it):
    Σ_k (p_k / D) · v_k with m = max(−∞, max_j s_j), p_k = exp(s_k − m), D = Σ_k p_k. -/
def attnRef (s v : Fin 2048 → EReal) : EReal :=
  ∑ k : Fin 2048, Ideal.div (wgtS s (max negInfLit (smaxS s)) k) (∑ j : Fin 2048, wgtS s (max negInfLit (smaxS s)) j) * v k

/-- Softmax-weighted sum, the whole sum divided by the normaliser AFTERWARDS:
    (Σ_k p_k · v_k) / D with m = max_j s_j, p_k = exp(s_k − m), D = Σ_k p_k. -/
def attnKer (s v : Fin 2048 → EReal) : EReal :=
  Ideal.div (∑ k : Fin 2048, wgtS s (smaxS s) k * v k) (∑ j : Fin 2048, wgtS s (smaxS s) j)

/-- The attention output out[b, h, n, e] in the first arrangement (scale after the score sum, divide before the weighted sum). -/
def refForm (x : XArr) (cos sin : RopeArr) (w : WqkvArr) (qw kw : NormArr)
    (b : Fin 4) (h : Fin 16) (n : Fin 2048) (e : Fin 64) : EReal :=
  attnRef (fun k => scoreRef (fun e' => qrS x cos sin w qw b h n e') (fun e' => krS x cos sin w kw b h k e'))
    (fun k => vS x w b h k e)

/-- The attention output out[b, h, n, e] in the second arrangement (scale before the score sum, divide after the weighted sum). -/
def kerForm (x : XArr) (cos sin : RopeArr) (w : WqkvArr) (qw kw : NormArr)
    (b : Fin 4) (h : Fin 16) (n : Fin 2048) (e : Fin 64) : EReal :=
  attnKer (fun k => scoreKer (fun e' => qrS x cos sin w qw b h n e') (fun e' => krS x cos sin w kw b h k e'))
    (fun k => vS x w b h k e)

/-! ## The output projection -/

/-- The head of channel d among the 1024 attention channels: d / 64. -/
def headOf (d : Fin 1024) : Fin 16 := ⟨d.val / 64, by have := d.isLt; omega⟩
/-- The lane of channel d inside its head: d % 64. -/
def laneOf (d : Fin 1024) : Fin 64 := ⟨d.val % 64, by omega⟩

/-- result[b, n, c] = Σ_d out[b, d / 64, n, d % 64] · w_proj[c, d] + b_proj[c], over an attention output `out`. -/
def resultS (out : Fin 4 → Fin 16 → Fin 2048 → Fin 64 → EReal) (wp : WprojArr) (bp : BiasArr)
    (b : Fin 4) (n : Fin 2048) (c : Fin 1024) : EReal :=
  (∑ d : Fin 1024, out b (headOf d) n (laneOf d) * wp (ix2 c d)) + bp (ix1 c)

/-- The whole result array over an attention output, as a function of an index of [4, 2048, 1024]. -/
def resultArr (out : Fin 4 → Fin 16 → Fin 2048 → Fin 64 → EReal) (wp : WprojArr) (bp : BiasArr) :
    (⟨3, ![4, 2048, 1024]⟩ : Shape).Idx → EReal :=
  fun i => resultS out wp bp (i 0) (i 1) (i 2)

/-- The reference's arrangement of the whole computation. -/
def refResult (x : XArr) (cos sin : RopeArr) (w : WqkvArr) (wp : WprojArr) (bp : BiasArr) (qw kw : NormArr) :
    (⟨3, ![4, 2048, 1024]⟩ : Shape).Idx → EReal :=
  resultArr (refForm x cos sin w qw kw) wp bp

/-- The kernel's arrangement of the whole computation. -/
def kerResult (x : XArr) (cos sin : RopeArr) (w : WqkvArr) (wp : WprojArr) (bp : BiasArr) (qw kw : NormArr) :
    (⟨3, ![4, 2048, 1024]⟩ : Shape).Idx → EReal :=
  resultArr (kerForm x cos sin w qw kw) wp bp

end Cert.AttnSpec

end
-- ==== Proof.KIResult.lean ====
/-
  The program's result on the extended reals, as one function of the argument arrays: the fold of the buffers'
  contents through the run, read at an entry. The last reshape reads the output projection's array; that is the
  product of the attention region's output array with the transposed projection weights plus the bias; the
  attention region's output array holds, at row b·2048+n and column h·64+e, the attention of head h of batch b at
  query n, lane e, computed from the projection region's array, whose entry (b·2048+n, d) is the q/k/v projection
  of position n of batch b at channel d.
-/
import proofs.«143587_j22539988369511_2_alg».proof.Proof.KIHost
import proofs.«143587_j22539988369511_2_alg».proof.Proof.KIValue0
import proofs.«143587_j22539988369511_2_alg».proof.Proof.KIValue2
import proofs.«143587_j22539988369511_2_alg».proof.Proof.KIFrame1
import proofs.«143587_j22539988369511_2_alg».proof.Proof.AttnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Result

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

open Cert.KernelIdeal.Frame0 Cert.KernelIdeal.Frame1 Cert.KernelIdeal.Frame2 Cert.KernelIdeal.Host
open Cert.KernelIdeal.Value0 Cert.KernelIdeal.Value2 Cert.AttnSpec

variable (m : (ℓ : Loc nD τ sig) → Buf (Elt Ideal) ℓ) (c : Dev nD)

theorem prod0_apply (a : S8192x1024.Idx → EReal) (b : S1024x3072.Idx → EReal) (r : Fin 8192) (d : Fin 3072) :
    prod0 a b (ix2 r d) = ∑ k : Fin 1024, a (ix2 r k) * b (ix2 k d) := rfl
theorem prod2_apply (a : S8192x1024.Idx → EReal) (b : S1024x1024.Idx → EReal) (bias : S1x1024.Idx → EReal) (r : Fin 8192) (c' : Fin 1024) :
    prod2 a b bias (ix2 r c') = (∑ k : Fin 1024, a (ix2 r k) * b (ix2 k c')) + bias (ix2 (0 : Fin 1) c') := rfl

/-- The projection region's output array when the attention region is entered. -/
abbrev B11 : S8192x3072.Idx → EReal := Run.V2 m c main_v11

/-- The projection region's output array, at row b·2048+n and channel d: the q/k/v projection. -/
theorem v11_apply (b : Fin 4) (n : Fin 2048) (d : Fin 3072) (hr : b.val * 2048 + n.val < 8192) :
    B11 m c (ix2 (⟨b.val * 2048 + n.val, hr⟩ : Fin 8192) d) = qkvS (A0 m c) (A3 m c) b n d := by
  have e : B11 m c = prod0 (Run.V1 m c main_v1) (Run.V1 m c main_v3) :=
    ((Run.hF0 m c 2).symm.trans (final0 (Run.V1 m) c))
  rw [e, prod0_apply]
  unfold qkvS
  exact Finset.sum_congr rfl fun k _ => congrArg₂ (fun u v : EReal => u * v) (v1_apply m c b n k hr) (v3_apply m c k d)

/-- Buffers the first two regions do not write keep what the first host stretch left. -/
theorem V2_v9 : (Run.V2 m c main_v9 : S2048x64.Idx → EReal) = Run.V1 m c main_v9 := Run.W2_of_ne m c main_v9 (by decide)
theorem V2_v10 : (Run.V2 m c main_v10 : S2048x64.Idx → EReal) = Run.V1 m c main_v10 := Run.W2_of_ne m c main_v10 (by decide)
theorem V2_v7 : (Run.V2 m c main_v7 : S1x64.Idx → EReal) = Run.V1 m c main_v7 := Run.W2_of_ne m c main_v7 (by decide)
theorem V2_v8 : (Run.V2 m c main_v8 : S1x64.Idx → EReal) = Run.V1 m c main_v8 := Run.W2_of_ne m c main_v8 (by decide)

variable (o9 : Out9 Ideal)

theorem V3_v5 : (Run.V3 o9 m c main_v5 : S1024x1024.Idx → EReal) = Run.V1 m c main_v5 :=
  (Run.W3_of_ne o9 m c main_v5 (by decide)).trans (Run.W2_of_ne m c main_v5 (by decide))
theorem V3_v6 : (Run.V3 o9 m c main_v6 : S1x1024.Idx → EReal) = Run.V1 m c main_v6 :=
  (Run.W3_of_ne o9 m c main_v6 (by decide)).trans (Run.W2_of_ne m c main_v6 (by decide))

/-- A channel of the attention output is a head and a lane. -/
theorem chan_split (d : Fin 1024) : (headOf d).val * 64 + (laneOf d).val = d.val := by
  show d.val / 64 * 64 + d.val % 64 = d.val
  omega

/-- THE RESULT. If the attention region's output array holds, at row b·2048+n and column h·64+e, the attention
    `out b h n e`, the program's result array is the output projection of `out`. -/
theorem result_of_attn (out : Fin 4 → Fin 16 → Fin 2048 → Fin 64 → EReal)
    (hattn : ∀ (b : Fin 4) (h : Fin 16) (n : Fin 2048) (e : Fin 64) (hr : b.val * 2048 + n.val < 8192) (hc : h.val * 64 + e.val < 1024),
      (Run.V3 o9 m c main_v12 : S8192x1024.Idx → EReal) (ix2 (⟨b.val * 2048 + n.val, hr⟩ : Fin 8192) (⟨h.val * 64 + e.val, hc⟩ : Fin 1024)) = out b h n e) :
    (Run.W5 o9 m c (Proc.devRef .tc main_v14) : S4x2048x1024.Idx → EReal) = resultArr out (A4 m c) (A5 m c) := by
  funext i
  obtain ⟨b, n, c', rfl⟩ : ∃ (b : Fin 4) (n : Fin 2048) (c' : Fin 1024), i = ix3 b n c' := ⟨i 0, i 1, i 2, eq_ix3 i⟩
  have hr : b.val * 2048 + n.val < 8192 := by have := b.isLt; have := n.isLt; omega
  have e : (Run.V4 o9 m c main_v13 : S8192x1024.Idx → EReal) = prod2 (Run.V3 o9 m c main_v12) (Run.V3 o9 m c main_v5) (Run.V3 o9 m c main_v6) :=
    ((Run.hF2 o9 m c 3).symm.trans (final2 (Run.V3 o9 m) c))
  refine (v14_apply m c o9 b n c' hr).trans ?_
  refine (congrFun e _).trans ?_
  rw [prod2_apply]
  show _ = resultS out (A4 m c) (A5 m c) b n c'
  unfold resultS
  refine congrArg₂ (fun u v : EReal => u + v) (Finset.sum_congr rfl fun k _ => congrArg₂ (fun u v : EReal => u * v) ?_ ?_) ?_
  · have hc : (headOf k).val * 64 + (laneOf k).val < 1024 := by rw [chan_split]; exact k.isLt
    have ek : k = (⟨(headOf k).val * 64 + (laneOf k).val, hc⟩ : Fin 1024) := Fin.ext (chan_split k).symm
    rw [← hattn b (headOf k) n (laneOf k) hr hc, ← ek]
  · rw [V3_v5]; exact v5_apply m c k c'
  · rw [V3_v6]; exact v6_apply m c c'

end Cert.KernelIdeal.Result

end
-- ==== Proof.KIValue1Ops.lean ====
/-
  Reading the attention kernel's vector operations one index at a time, on the extended reals.

  The kernel's arithmetic is a tree of operations on whole blocks. Most are elementwise, and on the extended reals an
  elementwise operation at an index is the scalar operation of its operands at that index, by definition. The rest move
  or combine elements: a sum or a maximum along a block's lanes, a column made of a vector, a column or a row repeated
  across a block, a block cut along its lanes, two blocks set side by side, and the two matrix products (a block times
  the transpose of another, and a block times another). This module reads each of those at an index written with
  explicit coordinates, at every extent the kernel uses them.
-/
import proofs.«143587_j22539988369511_2_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Value1

open Cert.KernelIdeal Cert.KernelIdeal.Gen
open Idealize.ShloMosaic Idealize.ShloMosaic.ValueIdx
open scoped BigOperators

variable {α : Type}

/-! ## A vector made a column, a column or a row repeated -/

/-- A vector of `a` entries cast to an `a × 1` column reads, at `(r, u)`, the vector at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu]; omega)

/-- An `a × 1` column repeated across `b` lanes reads, at `(r, e)`, the column at `r`. -/
theorem broadcastTo_a1_ab_apply {a b : ℕ} (v : (⟨2, ![a, 1]⟩ : Shape).Idx → α) (h : (⟨2, ![a, 1]⟩ : Shape).Broadcasts ⟨2, ![a, b]⟩)
    (r : Fin a) (e : Fin b) : broadcastTo ⟨2, ![a, b]⟩ v h (ix2 r e) = v (ix2 r (0 : Fin 1)) := by
  refine broadcastTo_apply v h (ix2 r e) (ix2 r (0 : Fin 1)) fun ax => ?_
  match ax with
  | ⟨0, _⟩ =>
    show r.val = if a = 1 then 0 else r.val
    split
    · have := r.isLt; omega
    · rfl
  | ⟨1, _⟩ => rfl

/-! ## A sum and a maximum along the lanes -/

/-- The sum along the lanes of an `a × b` block reads, at row `r`, the sum over the lanes of that row. -/
theorem sumLanes_apply {a b : ℕ} (v : FVec Ideal ⟨2, ![a, b]⟩ .f32) (h : (⟨2, ![a, b]⟩ : Shape).Reduces [1] ⟨1, ![a]⟩)
    (hφ : FKind.Formats .f32) (hacc : (0x00000000#32 : BitVec (FTy.bits .f32)) = FKind.add.neutral .f32 hφ) (r : Fin a) :
    multiReduction .add [1] ⟨1, ![a]⟩ v 0x00000000#32 h hφ hacc (ix1 r) = ∑ e : Fin b, v (ix2 r e) :=
  (Ideal.multiReduction_add_single v _ h hφ hacc (ix1 r)).trans
    (Finset.sum_congr rfl fun k _ => congrArg v (funext fun ax => Fin.ext (by
      match ax with
      | ⟨0, _⟩ => rfl
      | ⟨1, _⟩ => rfl)))

/-- The maximum along the lanes of an `a × b` block, started at the value of the word `w`, reads, at row `r`, the
    running maximum from that value over the lanes of that row. -/
theorem maxLanes_apply {a b : ℕ} (v : FVec Ideal ⟨2, ![a, b]⟩ .f32) (w : BitVec (FTy.bits .f32))
    (h : (⟨2, ![a, b]⟩ : Shape).Reduces [1] ⟨1, ![a]⟩)
    (hφ : FKind.Formats .f32) (hacc : w = FKind.maximumf.neutral .f32 hφ) (r : Fin a) :
    multiReduction .maximumf [1] ⟨1, ![a]⟩ v w h hφ hacc (ix1 r)
      = (Finset.univ : Finset (Fin b)).fold max (Ideal.ofBits .f32 w) (fun e => v (ix2 r e)) :=
  (Ideal.multiReduction_maximumf_single v w h hφ hacc (ix1 r)).trans
    (congrArg (fun f => (Finset.univ : Finset (Fin b)).fold max (Ideal.ofBits .f32 w) f)
      (funext fun k => congrArg v (funext fun ax => Fin.ext (by
        match ax with
        | ⟨0, _⟩ => rfl
        | ⟨1, _⟩ => rfl))))

/-- The same two with the side conditions typed as the printed operations carry them (a disjunction of equalities of
    formats, an equation between two copies of one word). -/
theorem sumLanes_lit {a b : ℕ} (v : FVec Ideal ⟨2, ![a, b]⟩ .f32) (h : (⟨2, ![a, b]⟩ : Shape).Reduces [1] ⟨1, ![a]⟩)
    (hφ : FTy.f32 = FTy.f32 ∨ FTy.f32 = FTy.bf16) (hacc : (0x00000000#32 : BitVec 32) = 0x00000000#32) (r : Fin a) :
    multiReduction .add [1] ⟨1, ![a]⟩ v 0x00000000#32 h hφ hacc (ix1 r) = ∑ e : Fin b, v (ix2 r e) :=
  sumLanes_apply v h hφ hacc r
theorem maxLanes_lit {a b : ℕ} (v : FVec Ideal ⟨2, ![a, b]⟩ .f32) (h : (⟨2, ![a, b]⟩ : Shape).Reduces [1] ⟨1, ![a]⟩)
    (hφ : FTy.f32 = FTy.f32 ∨ FTy.f32 = FTy.bf16) (hacc : (0xFF800000#32 : BitVec 32) = 0xFF800000#32) (r : Fin a) :
    multiReduction .maximumf [1] ⟨1, ![a]⟩ v 0xFF800000#32 h hφ hacc (ix1 r)
      = (Finset.univ : Finset (Fin b)).fold max (Ideal.ofBits .f32 0xFF800000#32) (fun e => v (ix2 r e)) :=
  maxLanes_apply v _ h hφ hacc r

/-- A root and an exponential of a block are taken element by element. -/
theorem sqrt_apply {s : Shape} {φ : FTy} (a : FVec Ideal s φ) (i : s.Idx) : sqrt a i = Ideal.sqrt (a i) := rfl
theorem exp_apply {s : Shape} {φ : FTy} (a : FVec Ideal s φ) (i : s.Idx) : exp a i = Ideal.exp (a i) := rfl

/-! ## Two blocks side by side -/

/-- Two blocks of `b₁` and `b₂` lanes set side by side read, at a lane below `b₁`, the first block there, -/
theorem concatLanes_left {a b₁ b₂ b : ℕ} (x₁ : (⟨2, ![a, b₁]⟩ : Shape).Idx → α) (x₂ : (⟨2, ![a, b₂]⟩ : Shape).Idx → α)
    (h : Shape.Concatenates [(⟨2, ![a, b₁]⟩ : Shape), ⟨2, ![a, b₂]⟩] ⟨2, ![a, b]⟩ 1)
    (r : Fin a) (e : Fin b) (e₁ : Fin b₁) (he : e₁.val = e.val) :
    concatenate ⟨2, ![a, b]⟩ 1 [⟨⟨2, ![a, b₁]⟩, x₁⟩, ⟨⟨2, ![a, b₂]⟩, x₂⟩] h (ix2 r e) = x₁ (ix2 r e₁) :=
  concatenate_pair_apply_left 1 x₁ x₂ h (ix2 r e) rfl (ix2 r e₁) (fun ax => by
    match ax with
    | ⟨0, _⟩ => rfl
    | ⟨1, _⟩ => exact he)

/-- and at a lane from `b₁` on, the second block at that lane less `b₁`. -/
theorem concatLanes_right {a b₁ b₂ b : ℕ} (x₁ : (⟨2, ![a, b₁]⟩ : Shape).Idx → α) (x₂ : (⟨2, ![a, b₂]⟩ : Shape).Idx → α)
    (h : Shape.Concatenates [(⟨2, ![a, b₁]⟩ : Shape), ⟨2, ![a, b₂]⟩] ⟨2, ![a, b]⟩ 1)
    (r : Fin a) (e : Fin b) (e₂ : Fin b₂) (he : e₂.val + b₁ = e.val) :
    concatenate ⟨2, ![a, b]⟩ 1 [⟨⟨2, ![a, b₁]⟩, x₁⟩, ⟨⟨2, ![a, b₂]⟩, x₂⟩] h (ix2 r e) = x₂ (ix2 r e₂) :=
  concatenate_pair_apply_right 1 x₁ x₂ h (ix2 r e) rfl rfl (ix2 r e₂) (fun ax hax => by
    match ax with
    | ⟨0, _⟩ => rfl
    | ⟨1, _⟩ => exact absurd rfl hax) he

/-! ## The two matrix products -/

/-- The coordinates of the operands' indices in the product of a block with the transpose of another: -/
theorem dotT_lhs0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem dotT_rhs0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl

/-- A `512 × 64` block times the transpose of a `2048 × 64` block, into zero, reads at `(n, k)` the sum over the 64
    lanes of the products of row `n` of the first with row `k` of the second. -/
theorem matmulT_apply (lhs : FVec Ideal S512x64 .bf16) (rhs : FVec Ideal S2048x64 .bf16) (n : Fin 512) (k : Fin 2048) :
    matmul dot_S512x64_S2048x64_S512x2048_1_1_0_0_n_n none lhs rhs (constant S512x2048 .f32 0x00000000#32) (ix2 n k)
      = ∑ e : Fin 64, lhs (ix2 n e) * rhs (ix2 k e) := by
  refine (Ideal.matmul_constant_zero_apply dot_S512x64_S2048x64_S512x2048_1_1_0_0_n_n none lhs rhs (ix2 n k)).trans ?_
  rw [← Equiv.sum_comp (contrEquiv1 dot_S512x64_S2048x64_S512x2048_1_1_0_0_n_n 64 rfl rfl).symm]
  refine Finset.sum_congr rfl fun e _ => ?_
  have hk := contrEquiv1_symm_val dot_S512x64_S2048x64_S512x2048_1_1_0_0_n_n 64 rfl rfl e
  have el : dot_S512x64_S2048x64_S512x2048_1_1_0_0_n_n.lhsIdx (ix2 n k) ((contrEquiv1 dot_S512x64_S2048x64_S512x2048_1_1_0_0_n_n 64 rfl rfl).symm e) = ix2 n e := funext fun a => Fin.ext (by
    match a with
    | ⟨0, _⟩ => exact dotT_lhs0 _ _
    | ⟨1, _⟩ => exact (dot_S512x64_S2048x64_S512x2048_1_1_0_0_n_n.lhsIdx_val_of_single rfl _ _).trans hk)
  have er : dot_S512x64_S2048x64_S512x2048_1_1_0_0_n_n.rhsIdx (ix2 n k) ((contrEquiv1 dot_S512x64_S2048x64_S512x2048_1_1_0_0_n_n 64 rfl rfl).symm e) = ix2 k e := funext fun a => Fin.ext (by
    match a with
    | ⟨0, _⟩ => exact dotT_rhs0 _ _
    | ⟨1, _⟩ => exact (dot_S512x64_S2048x64_S512x2048_1_1_0_0_n_n.rhsIdx_val_of_single rfl _ _).trans hk)
  rw [el, er]

/-- The coordinates of the operands' indices in the plain product of two blocks: -/
theorem dotP_lhs0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem dotP_rhs1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- A `512 × 2048` block times a `2048 × 64` block, into zero, reads at `(n, e)` the sum over the 2048 rows of the
    second of the products of row `n` of the first with column `e` of the second. -/
theorem matmulP_apply (lhs : FVec Ideal S512x2048 .bf16) (rhs : FVec Ideal S2048x64 .bf16) (n : Fin 512) (e : Fin 64) :
    matmul dot_S512x2048_S2048x64_S512x64_1_0_0_1_n_n none lhs rhs (constant S512x64 .f32 0x00000000#32) (ix2 n e)
      = ∑ k : Fin 2048, lhs (ix2 n k) * rhs (ix2 k e) := by
  refine (Ideal.matmul_constant_zero_apply dot_S512x2048_S2048x64_S512x64_1_0_0_1_n_n none lhs rhs (ix2 n e)).trans ?_
  rw [← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 n e) ((contrEquiv1 dot_S512x2048_S2048x64_S512x64_1_0_0_1_n_n 2048 rfl rfl).symm k) = ix2 n k := funext fun a => Fin.ext (by
    match a with
    | ⟨0, _⟩ => exact dotP_lhs0 _ _
    | ⟨1, _⟩ => exact (dot_S512x2048_S2048x64_S512x64_1_0_0_1_n_n.lhsIdx_val_of_single rfl _ _).trans hk)
  have er : dot_S512x2048_S2048x64_S512x64_1_0_0_1_n_n.rhsIdx (ix2 n e) ((contrEquiv1 dot_S512x2048_S2048x64_S512x64_1_0_0_1_n_n 2048 rfl rfl).symm k) = ix2 k e := funext fun a => Fin.ext (by
    match a with
    | ⟨0, _⟩ => exact (dot_S512x2048_S2048x64_S512x64_1_0_0_1_n_n.rhsIdx_val_of_single rfl _ _).trans hk
    | ⟨1, _⟩ => exact dotP_rhs1 _ _)
  rw [el, er]

end Cert.KernelIdeal.Value1

end
-- ==== Proof.LibFiniteAll.lean ====
/-
  Reading back one conjunct of the precondition. Each conjunct is a reduction by `and`, over a whole array, of an
  entrywise comparison: `|x| < +inf` (every entry of x is finite) or `v ≥ 0`. A reduction by `and` from 1 that
  comes out 1 met only 1s, so the comparison holds at every index. On the extended reals `|x| = max x (-x)`, and
  `max x (-x) < ⊤` excludes both infinities, so x is a real number.
-/
import Idealize.ShloMosaic.PureOps.Ideal
import Idealize.ShloMosaic.PureOps.Ideal.Laws
import Idealize.ShloMosaic.Lib.ValueIdx
import Idealize.ShloMosaic.Lib.ReduceAll
import Idealize.ShloMosaic.PureOps

noncomputable section

namespace Cert.LibFiniteAll

open Idealize.ShloMosaic

/-- The rank-0 shape has one index. -/
theorem subsingleton_idx0 : Subsingleton (⟨0, ![]⟩ : Shape).Idx := ⟨fun a b => funext fun d => d.elim0⟩

/-- The f32 word of +infinity denotes the top extended real. -/
theorem ofBits_inf : Ideal.ofBits .f32 0x7F800000#32 = (⊤ : EReal) := by simp [Ideal.ofBits, Ideal.ieee]

/-- An extended real whose absolute value max x (-x) is below +infinity is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- A comparison word that is 1 says the comparison holds. -/
theorem ofBool_eq_one (b : Bool) : BitVec.ofBool b = 1#1 ↔ b = true := by cases b <;> decide

/-- Entry read-back of |x| < +inf. -/
theorem real_of_cmp (x : EReal)
    (h : Ideal.cmp .olt (max x (-x)) (Ideal.ofBits .f32 0x7F800000#32) = 1#1) : ∃ r : ℝ, x = (r : EReal) := by
  rw [ofBits_inf] at h
  unfold Ideal.cmp at h
  rw [ofBool_eq_one] at h
  exact real_of_abs_lt_top x (of_decide_eq_true h)

/-- Entry read-back of v ≥ 0. -/
theorem nonneg_of_cmp (v : EReal)
    (h : Ideal.cmp .oge v (Ideal.ofBits .f32 0x00000000#32) = 1#1) : 0 ≤ v := by
  rw [Ideal.ofBits_zero_f32] at h
  unfold Ideal.cmp at h
  rw [ofBool_eq_one] at h
  exact of_decide_eq_true h

variable {s : Shape} {axes : List (Fin s.rank)}

/-- all(|x| < +inf) = 1 over an array of any shape: every entry is a real number. -/
theorem real_of_all (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
          (cmpf .olt (Host.absf x) (broadcastInDim s ![] hb (constant (F := Ideal) (⟨0, ![]⟩ : Shape) .f32 0x7F800000#32)))
          (constantI (⟨0, ![]⟩ : Shape) 1 1#1) hr hu ValueIdx.ix0 = 1#1)
    (i : s.Idx) : ∃ r : ℝ, x i = (r : EReal) := by
  haveI := subsingleton_idx0
  have h := Host.reduce_andi_all _ _ hr hu _ e i
  exact real_of_cmp (x i) h

/-- all(v ≥ 0) = 1: every entry is nonnegative. -/
theorem nonneg_of_all (v : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
          (cmpf .oge v (broadcastInDim s ![] hb (constant (F := Ideal) (⟨0, ![]⟩ : Shape) .f32 0x00000000#32)))
          (constantI (⟨0, ![]⟩ : Shape) 1 1#1) hr hu ValueIdx.ix0 = 1#1)
    (i : s.Idx) : (0 : EReal) ≤ v i := by
  haveI := subsingleton_idx0
  have h := Host.reduce_andi_all _ _ hr hu _ e i
  exact nonneg_of_cmp (v i) h

end Cert.LibFiniteAll

end
-- ==== Proof.AttnLaws.lean ====
/-
  The two arrangements of the attention output agree when every input entry is a real number.

  (i) The scale. (Σ_e q_e · k_e) · c = Σ_e (q_e · c) · k_e for the real c = 1/8 ≥ 0: multiplication of extended reals
      is commutative and associative, and a NONNEGATIVE REAL factor distributes over a finite sum (no finiteness of
      the terms is needed).
  (ii) The normaliser. With real scores s_k, their maximum m over a nonempty finite set is real, every weight
      p_k = exp(s_k − m) is a positive real, so D = Σ_k p_k is a positive real; division by D is multiplication by the
      real 1/D > 0, which moves across the weighted sum as in (i): Σ_k (p_k / D) · v_k = (Σ_k p_k · v_k) / D, whatever
      the values v_k are. The maximum taken once more against −∞ is the maximum itself.
  The scores are real because the normalised and rotated query and key are: finite sums of products of reals are
  real; a mean of squares is ≥ 0, plus a positive epsilon it is > 0, its root is a positive real, and a real divided
  by a nonzero real is real.
  The four float literals are evaluated here, once: 64, 1/8, −∞ and the epsilon 8796093 · 2^(−43) > 0.
-/
import Idealize.ShloMosaic.PureOps.Ideal
import Idealize.ShloMosaic.PureOps.Ideal.Laws
import proofs.«143587_j22539988369511_2_alg».proof.Proof.LibFiniteAll
import proofs.«143587_j22539988369511_2_alg».proof.Proof.AttnSpec

noncomputable section

namespace Cert.AttnLaws

open Cert.AttnSpec Idealize.ShloMosaic Idealize.ShloMosaic.ValueIdx
open scoped BigOperators

/-! ## The literals -/

/-- The divisor of the mean denotes the real 64. -/
theorem lanes_eq : lanesLit = ((64 : ℝ) : EReal) := by
  simp [Ideal.ofBits, Ideal.ieee, -EReal.coe_mul]; norm_num

/-- The softmax scale denotes the real 1/8. -/
theorem scale_eq : scaleLit = ((1 / 8 : ℝ) : EReal) := by
  simp [Ideal.ofBits, Ideal.ieee, -EReal.coe_mul]; norm_num

/-- The initial value of the running maximum denotes −∞. -/
theorem negInf_eq : negInfLit = (⊥ : EReal) := by
  simp [Ideal.ofBits, Ideal.ieee]

/-- The epsilon denotes the positive real 8796093 · 2^(−43). -/
theorem eps_eq : epsLit = ((8796093 / 8796093022208 : ℝ) : EReal) := by
  simp [Ideal.ofBits, Ideal.ieee, -EReal.coe_mul]; norm_num

/-! ## Real numbers among the extended reals -/

/-- An extended real that is a real number. -/
def IsReal (x : EReal) : Prop := ∃ r : ℝ, x = (r : EReal)

theorem IsReal.coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

/-- The coercion of a finite sum of reals is the sum of the coercions. -/
theorem coe_sum {ι : Type*} (s : Finset ι) (r : ι → ℝ) :
    ((∑ i ∈ s, r i : ℝ) : EReal) = ∑ i ∈ s, (r i : EReal) := by
  classical
  refine Finset.induction_on s (by simp) ?_
  intro a s ha ih
  rw [Finset.sum_insert ha, Finset.sum_insert ha, EReal.coe_add, ih]

/-- A finite sum of reals is real. -/
theorem IsReal.sum {ι : Type*} [Fintype ι] (f : ι → EReal) (hf : ∀ i, IsReal (f i)) : IsReal (∑ i, f i) := by
  choose r hr using hf
  exact ⟨∑ i, r i, by rw [coe_sum]; exact Finset.sum_congr rfl fun i _ => hr i⟩

/-- A real divided by a nonzero real is real. -/
theorem IsReal.div {x : EReal} (hx : IsReal x) {d : ℝ} (hd : d ≠ 0) : IsReal (Ideal.div x (d : EReal)) := by
  rw [Ideal.div_coe hd]; exact hx.mul (IsReal.coe _)

/-! ## A nonnegative real factor across a finite sum -/

theorem sum_mul_coe {ι : Type*} (s : Finset ι) (f : ι → EReal) {c : ℝ} (hc : 0 ≤ c) :
    (∑ i ∈ s, f i) * (c : EReal) = ∑ i ∈ s, f i * (c : EReal) := by
  classical
  refine Finset.induction_on s (by simp) ?_
  intro a s ha ih
  rw [Finset.sum_insert ha, Finset.sum_insert ha,
    EReal.right_distrib_of_nonneg_of_ne_top (EReal.coe_nonneg.mpr hc) (EReal.coe_ne_top c), ih]

/-- (i) The scale after the score sum is the scale on each query lane before it. -/
theorem scoreRef_eq_scoreKer (q k : Fin 64 → EReal) : scoreRef q k = scoreKer q k := by
  unfold scoreRef scoreKer
  rw [scale_eq, sum_mul_coe _ _ (by norm_num : (0 : ℝ) ≤ 1 / 8)]
  exact Finset.sum_congr rfl fun e _ => mul_right_comm _ _ _

/-- (ii) Dividing each weight by a positive real before the weighted sum is dividing the weighted sum by it. -/
theorem div_sum_swap {ι : Type*} [Fintype ι] (p v : ι → EReal) {D : ℝ} (hD : 0 < D) :
    ∑ k, Ideal.div (p k) (D : EReal) * v k = Ideal.div (∑ k, p k * v k) (D : EReal) := by
  simp only [Ideal.div_coe hD.ne']
  rw [sum_mul_coe _ _ (by positivity : (0 : ℝ) ≤ 1 / D)]
  exact Finset.sum_congr rfl fun k _ => mul_right_comm _ _ _

/-- The maximum against −∞ is the other argument. -/
theorem max_negInf (x : EReal) : max negInfLit x = x := by
  rw [negInf_eq]; exact max_bot_left x

/-! ## The softmax row -/

/-- The maximum of real scores over the 2048 keys is real. -/
theorem smax_real (s : Fin 2048 → EReal) (hs : ∀ k, IsReal (s k)) : IsReal (smaxS s) := by
  unfold smaxS
  rw [negInf_eq]
  have hlt : (Finset.univ : Finset (Fin 2048)).fold max (⊥ : EReal) s < ⊤ := by
    rw [Finset.fold_max_lt]
    refine ⟨bot_lt_top, fun k _ => ?_⟩
    obtain ⟨r, hr⟩ := hs k
    rw [hr]; exact EReal.coe_lt_top r
  have hgt : (⊥ : EReal) < (Finset.univ : Finset (Fin 2048)).fold max (⊥ : EReal) s := by
    obtain ⟨r, hr⟩ := hs 0
    refine lt_of_lt_of_le (b := s 0) (by rw [hr]; exact EReal.bot_lt_coe r) ?_
    exact (Finset.le_fold_max (s 0)).mpr (Or.inr ⟨0, Finset.mem_univ _, le_rfl⟩)
  exact ⟨_, (EReal.coe_toReal hlt.ne hgt.ne').symm⟩

/-- A weight of a real score against a real maximum is a positive real. -/
theorem wgt_pos (s : Fin 2048 → EReal) (m : EReal) (k : Fin 2048) (hs : IsReal (s k)) (hm : IsReal m) :
    ∃ r : ℝ, 0 < r ∧ wgtS s m k = (r : EReal) := by
  obtain ⟨a, ha⟩ := hs; obtain ⟨b, hb⟩ := hm
  refine ⟨Real.exp (a - b), Real.exp_pos _, ?_⟩
  unfold wgtS
  rw [ha, hb, ← EReal.coe_sub]
  rfl

/-- A sum of positive reals over a nonempty finite type is a positive real. -/
theorem sum_pos_real {ι : Type*} [Fintype ι] [Nonempty ι] (p : ι → EReal)
    (hp : ∀ k, ∃ r : ℝ, 0 < r ∧ p k = (r : EReal)) : ∃ D : ℝ, 0 < D ∧ ∑ k, p k = (D : EReal) := by
  choose r hr0 hr using hp
  refine ⟨∑ k, r k, Finset.sum_pos (fun k _ => hr0 k) Finset.univ_nonempty, ?_⟩
  rw [coe_sum]; exact Finset.sum_congr rfl fun k _ => hr k

/-- One query row: the two arrangements of the softmax-weighted sum agree on real scores. -/
theorem attnRef_eq_attnKer (s s' v : Fin 2048 → EReal) (hss : s = s') (hs : ∀ k, IsReal (s k)) :
    attnRef s v = attnKer s' v := by
  subst hss
  unfold attnRef attnKer
  simp only [max_negInf]
  obtain ⟨D, hD, hsum⟩ := sum_pos_real (fun k => wgtS s (smaxS s) k)
    (fun k => wgt_pos s (smaxS s) k (hs k) (smax_real s hs))
  rw [hsum]
  exact div_sum_swap _ _ hD

/-! ## The normalised and rotated rows are real -/

/-- The root of the mean square plus epsilon of a real row is a positive real. -/
theorem rms_pos (t : Fin 64 → EReal) (ht : ∀ e, IsReal (t e)) : ∃ ρ : ℝ, 0 < ρ ∧ rmsS t = (ρ : EReal) := by
  choose r hr using ht
  have hsq : (0 : ℝ) ≤ ∑ e : Fin 64, r e * r e := Finset.sum_nonneg fun e _ => mul_self_nonneg (r e)
  have hpos : (0 : ℝ) < (∑ e : Fin 64, r e * r e) * (1 / 64) + 8796093 / 8796093022208 := by positivity
  refine ⟨Real.sqrt ((∑ e : Fin 64, r e * r e) * (1 / 64) + 8796093 / 8796093022208), Real.sqrt_pos.mpr hpos, ?_⟩
  unfold rmsS
  have hsum : (∑ e : Fin 64, t e * t e) = ((∑ e : Fin 64, r e * r e : ℝ) : EReal) := by
    rw [coe_sum]; exact Finset.sum_congr rfl fun e _ => by rw [hr e, EReal.coe_mul]
  rw [hsum, lanes_eq, Ideal.div_coe (by norm_num : (64 : ℝ) ≠ 0), ← EReal.coe_mul, eps_eq, ← EReal.coe_add,
    Ideal.sqrt_coe, if_neg (not_lt.mpr hpos.le)]

theorem normS_real (t : Fin 64 → EReal) (w : NormArr) (ht : ∀ e, IsReal (t e)) (hw : ∀ i, IsReal (w i)) (e : Fin 64) :
    IsReal (normS t w e) := by
  obtain ⟨ρ, hρ, hrms⟩ := rms_pos t ht
  unfold normS
  rw [hrms]
  exact ((ht e).div hρ.ne').mul (hw _)

theorem rotS_real (t : Fin 64 → EReal) (ht : ∀ e, IsReal (t e)) (e : Fin 64) : IsReal (rotS t e) := by
  unfold rotS
  split_ifs
  · exact (ht _).neg
  · exact ht _

theorem ropeS_real (t : Fin 64 → EReal) (cos sin : RopeArr) (ht : ∀ e, IsReal (t e)) (hc : ∀ i, IsReal (cos i))
    (hs : ∀ i, IsReal (sin i)) (n : Fin 2048) (e : Fin 64) : IsReal (ropeS t cos sin n e) := by
  unfold ropeS
  exact ((ht e).mul (hc _)).add ((rotS_real t ht e).mul (hs _))

theorem qkvS_real (x : XArr) (w : WqkvArr) (hx : ∀ i, IsReal (x i)) (hw : ∀ i, IsReal (w i))
    (b : Fin 4) (n : Fin 2048) (d : Fin 3072) : IsReal (qkvS x w b n d) := by
  unfold qkvS
  exact IsReal.sum _ fun c => (hx _).mul (hw _)

theorem qrS_real (x : XArr) (cos sin : RopeArr) (w : WqkvArr) (qw : NormArr)
    (hx : ∀ i, IsReal (x i)) (hc : ∀ i, IsReal (cos i)) (hs : ∀ i, IsReal (sin i)) (hw : ∀ i, IsReal (w i))
    (hq : ∀ i, IsReal (qw i)) (b : Fin 4) (h : Fin 16) (n : Fin 2048) (e : Fin 64) : IsReal (qrS x cos sin w qw b h n e) := by
  unfold qrS
  exact ropeS_real _ cos sin (fun e' => normS_real _ qw (fun e'' => qkvS_real x w hx hw _ _ _) hq e') hc hs n e

theorem krS_real (x : XArr) (cos sin : RopeArr) (w : WqkvArr) (kw : NormArr)
    (hx : ∀ i, IsReal (x i)) (hc : ∀ i, IsReal (cos i)) (hs : ∀ i, IsReal (sin i)) (hw : ∀ i, IsReal (w i))
    (hk : ∀ i, IsReal (kw i)) (b : Fin 4) (h : Fin 16) (n : Fin 2048) (e : Fin 64) : IsReal (krS x cos sin w kw b h n e) := by
  unfold krS
  exact ropeS_real _ cos sin (fun e' => normS_real _ kw (fun e'' => qkvS_real x w hx hw _ _ _) hk e') hc hs n e

theorem scoreRef_real (q k : Fin 64 → EReal) (hq : ∀ e, IsReal (q e)) (hk : ∀ e, IsReal (k e)) : IsReal (scoreRef q k) := by
  unfold scoreRef
  rw [scale_eq]
  exact (IsReal.sum _ fun e => (hq e).mul (hk e)).mul (IsReal.coe _)

/-! ## The two arrangements agree -/

/-- The attention output: scale after and divide before, against scale before and divide after. -/
theorem refForm_eq_kerForm (x : XArr) (cos sin : RopeArr) (w : WqkvArr) (qw kw : NormArr)
    (hx : ∀ i, ∃ r : ℝ, x i = (r : EReal)) (hc : ∀ i, ∃ r : ℝ, cos i = (r : EReal)) (hs : ∀ i, ∃ r : ℝ, sin i = (r : EReal))
    (hw : ∀ i, ∃ r : ℝ, w i = (r : EReal)) (hq : ∀ i, ∃ r : ℝ, qw i = (r : EReal)) (hk : ∀ i, ∃ r : ℝ, kw i = (r : EReal)) :
    refForm x cos sin w qw kw = kerForm x cos sin w qw kw := by
  funext b h n e
  unfold refForm kerForm
  exact attnRef_eq_attnKer _ _ _ (funext fun k => scoreRef_eq_scoreKer _ _)
    (fun k => scoreRef_real _ _ (fun e' => qrS_real x cos sin w qw hx hc hs hw hq b h n e')
      (fun e' => krS_real x cos sin w kw hx hc hs hw hk b h k e'))

/-- The whole result: the reference's arrangement is the kernel's when the six arrays that reach the scores are real. -/
theorem refResult_eq_kerResult (x : XArr) (cos sin : RopeArr) (w : WqkvArr) (wp : WprojArr) (bp : BiasArr) (qw kw : NormArr)
    (hx : ∀ i, ∃ r : ℝ, x i = (r : EReal)) (hc : ∀ i, ∃ r : ℝ, cos i = (r : EReal)) (hs : ∀ i, ∃ r : ℝ, sin i = (r : EReal))
    (hw : ∀ i, ∃ r : ℝ, w i = (r : EReal)) (hq : ∀ i, ∃ r : ℝ, qw i = (r : EReal)) (hk : ∀ i, ∃ r : ℝ, kw i = (r : EReal)) :
    refResult x cos sin w wp bp qw kw = kerResult x cos sin w wp bp qw kw := by
  unfold refResult kerResult
  rw [refForm_eq_kerForm x cos sin w qw kw hx hc hs hw hq hk]

end Cert.AttnLaws

end
-- ==== Proof.AttnPay1Rows.lean ====
/-
  The attention kernel's body, one row at a time. A head's 64 lanes of one row are a function t : Fin 64 → EReal;
  normalisation and rotation of a row are written as plain functions of such rows (the specification's own, with
  the weight and the rotary tables given as rows too), and the lane reductions and the half-swap the body uses are
  read at an index in exactly those terms.
-/
import proofs.«143587_j22539988369511_2_alg».proof.Proof.KIFrame1
import proofs.«143587_j22539988369511_2_alg».proof.Proof.KIValue1Ops
import proofs.«143587_j22539988369511_2_alg».proof.Proof.AttnSpec
import proofs.«143587_j22539988369511_2_alg».proof.Proof.AttnLaws

set_option maxRecDepth 16384

noncomputable section

namespace Cert.AttnPay1

open Cert.KernelIdeal Cert.KernelIdeal.Gen Cert.KernelIdeal.Value1 Cert.AttnSpec
open Idealize.ShloMosaic Idealize.ShloMosaic.ValueIdx
open scoped BigOperators

/-! ## Rows -/

/-- norm(t)[e] = t[e] / rms(t) · w[e], the weight given as a row. -/
def normF (t w : Fin 64 → EReal) (e : Fin 64) : EReal := Ideal.div (t e) (rmsS t) * w e

/-- rope(t)[e] = t[e] · cos[e] + rot(t)[e] · sin[e], the tables given as rows. -/
def ropeF (t cosn sinn : Fin 64 → EReal) (e : Fin 64) : EReal := t e * cosn e + rotS t e * sinn e

theorem qrS_eq (x : XArr) (cos sin : RopeArr) (w : WqkvArr) (qw : NormArr) (b : Fin 4) (h : Fin 16) (n : Fin 2048) (e : Fin 64) :
    qrS x cos sin w qw b h n e = ropeF (normF (fun e' => headS x w 0 b h n e') (fun e' => qw (ix1 e')))
      (fun e' => cos (ix4 0 0 n e')) (fun e' => sin (ix4 0 0 n e')) e := rfl

theorem krS_eq (x : XArr) (cos sin : RopeArr) (w : WqkvArr) (kw : NormArr) (b : Fin 4) (h : Fin 16) (n : Fin 2048) (e : Fin 64) :
    krS x cos sin w kw b h n e = ropeF (normF (fun e' => headS x w 1 b h n e') (fun e' => kw (ix1 e')))
      (fun e' => cos (ix4 0 0 n e')) (fun e' => sin (ix4 0 0 n e')) e := rfl

/-- The half-swap written with a subtraction from the zero word, as the body prints it. -/
theorem rotS_eq_dite (t : Fin 64 → EReal) (e : Fin 64) :
    rotS t e = if he : e.val < 32 then Ideal.ofBits .f32 0x00000000#32 - t ⟨32 + e.val, by omega⟩
      else t ⟨0 + (e.val - 32), by have := e.isLt; omega⟩ := by
  unfold rotS rotLane
  by_cases he : e.val < 32
  · rw [if_pos he, dif_pos he, dif_pos he, Ideal.ofBits_zero_f32, sub_eq_add_neg, zero_add]
    exact congrArg (fun j => -(t j)) (Fin.ext (Nat.add_comm _ _))
  · rw [if_neg he, dif_neg he, dif_neg he]
    exact congrArg t (Fin.ext (Nat.zero_add _).symm)

/-! ## The lane reductions at the body's extents

A lane sum is the instance's sum of what reduces to an index, a lane maximum the fold of max from the accumulator's
value; both are read here at row r as the sum, or the running maximum, over the lanes of that row. -/

theorem radd_512x64 (v : FVec Ideal S512x64 .f32) (r : Fin 512) :
    Ideal.reduceAdd reduces_S512x64_S512 v (ix1 r) = ∑ e : Fin 64, v (ix2 r e) := by
  have h := sumLanes_lit v reduces_S512x64_S512 (Or.inl rfl) rfl r
  simpa only [multiReduction, Ideal.reduceAdd_def] using h

theorem radd_2048x64 (v : FVec Ideal S2048x64 .f32) (r : Fin 2048) :
    Ideal.reduceAdd reduces_S2048x64_S2048 v (ix1 r) = ∑ e : Fin 64, v (ix2 r e) := by
  have h := sumLanes_lit v reduces_S2048x64_S2048 (Or.inl rfl) rfl r
  simpa only [multiReduction, Ideal.reduceAdd_def] using h

theorem radd_512x2048 (v : FVec Ideal S512x2048 .f32) (r : Fin 512) :
    Ideal.reduceAdd reduces_S512x2048_S512 v (ix1 r) = ∑ k : Fin 2048, v (ix2 r k) := by
  have h := sumLanes_lit v reduces_S512x2048_S512 (Or.inl rfl) rfl r
  simpa only [multiReduction, Ideal.reduceAdd_def] using h

theorem rmax_512x2048 (v : FVec Ideal S512x2048 .f32) (r : Fin 512) :
    reduceFold reduces_S512x2048_S512 FloatOps.maximumf (FloatOps.ofBits (F := Ideal) .f32 0xFF800000#32) v (ix1 r)
      = (Finset.univ : Finset (Fin 2048)).fold max (Ideal.ofBits .f32 0xFF800000#32) (fun k => v (ix2 r k)) := by
  have h := maxLanes_lit v reduces_S512x2048_S512 (Or.inl rfl) rfl r
  simpa only [multiReduction] using h

/-- Two blocks of 32 lanes side by side, read at lane e: the first below 32, the second from 32 on. -/
theorem concat32_apply {a : ℕ} (x₁ x₂ : (⟨2, ![a, 32]⟩ : Shape).Idx → EReal)
    (h : Shape.Concatenates [(⟨2, ![a, 32]⟩ : Shape), ⟨2, ![a, 32]⟩] ⟨2, ![a, 64]⟩ 1) (r : Fin a) (e : Fin 64) :
    concatenate ⟨2, ![a, 64]⟩ 1 [⟨⟨2, ![a, 32]⟩, x₁⟩, ⟨⟨2, ![a, 32]⟩, x₂⟩] h (ix2 r e)
      = if he : e.val < 32 then x₁ (ix2 r ⟨e.val, he⟩) else x₂ (ix2 r ⟨e.val - 32, by have := e.isLt; omega⟩) := by
  by_cases he : e.val < 32
  · rw [dif_pos he]
    exact concatLanes_left x₁ x₂ h r e ⟨e.val, he⟩ rfl
  · rw [dif_neg he]
    exact concatLanes_right x₁ x₂ h r e ⟨e.val - 32, by have := e.isLt; omega⟩ (by show e.val - 32 + 32 = e.val; omega)

/-! ## The first head's normalised query rows -/

/-- The normalised first-half query block at (p, e): the normalisation of row p's first 64 lanes by the weight row. -/
theorem pay13_apply (qn : Vec Ideal S1x64 .f32) (q : Vec Ideal S512x128 .bf16) (p : Fin 512) (e : Fin 64) :
    k1_pay13 (F := Ideal) qn q (ix2 p e)
      = normF (fun e' : Fin 64 => q (ix2 p (⟨0 + e'.val, by omega⟩ : Fin 128))) (fun e' => qn (ix2 (0 : Fin 1) e')) e := by
  unfold k1_pay13 k1_pay8 k1_pay6 normF rmsS
  simp only [shapeCast_self, mulf_apply, divf_apply, addf_apply, subf_apply, broadcast_apply, constant_apply, extf_apply,
    truncf_apply, sqrt_apply, exp_apply, broadcastTo_a1_ab_apply, broadcastTo_1b_ab_apply, shapeCast_a_a1_apply,
    slice2_axis1_eq, multiReduction, Ideal.reduceAdd_def, radd_512x64]
  rfl

end Cert.AttnPay1

end
-- ==== Proof.KIValue1.lean ====
/-
  What the attention region leaves in its output array, entry by entry, on the extended reals.

  The region's grid is 4 × 8 × 4: batch, head pair, query tile. At a point the nine input windows show: rows
  (4·batch + tile)·512 … of the projection's output at the columns of the pair's two query heads; all 2048 rows of the
  batch at the columns of the pair's two key heads and of its two value heads; the rotation tables' rows of the query
  tile and all of their rows; the two weight rows. The output window shows rows (4·batch + tile)·512 … at the pair's
  128 columns of the output array, and the blocks of the 128 points tile that array.

  So: read each input block's entry as an entry of its array (`iblk1_W_apply`), name the function `G9` of the heads,
  tables and weights that the output array should hold, show that what a point writes back is its block of `G9`
  (`flushed9_eq`: the stored vector at a row, a head of the pair and a lane is the attention output of that row and head,
  a fact about the kernel's arithmetic taken here as the hypothesis `PayloadReads`), that the blocks cover the array
  (`cover9`), and conclude (`final9`, `attn_value`).
-/
import proofs.«143587_j22539988369511_2_alg».proof.Proof.KIFrame1
import proofs.«143587_j22539988369511_2_alg».proof.Proof.AttnSpec
import proofs.«143587_j22539988369511_2_alg».proof.Proof.AttnPay1Rows
import Idealize.ShloMosaic.Lib.Pipeline.Value
import Idealize.ShloMosaic.Lib.ValueIdx
import Idealize.ShloMosaic.Lib.Tactic

set_option maxRecDepth 16384

noncomputable section

namespace Cert.KernelIdeal.Value1

open Cert.KernelIdeal Cert.KernelIdeal.Gen Cert.KernelIdeal.Frame1 Cert.AttnSpec Cert.AttnPay1
open Idealize.ShloMosaic Idealize.ShloMosaic.TcCoe Idealize.SL.Sem Idealize.ShloMosaic.ValueIdx
open Idealize.ShloMosaic.Pipeline (Dat)

-- the contents of the core's buffers when the region is entered
variable (V : (c : Dev nD) → (b : Ref sig .tc) → Buf (Elt Ideal) ((c : Thread nD τ).loc b))

/-! ## Where each window's block sits in its array -/

/-- The printed index maps over the grid. Point `t` is batch `t / 32`, head pair `t / 4 % 8`, query tile `t % 4`. The
    query block and the output block are block row `4·batch + tile`, block column `pair`; the key and value blocks are
    block row `batch`, block columns `8 + pair` and `16 + pair`; the query rows' tables are block row `tile`; the key
    rows' tables and the weights are whole. -/
theorem idx_facts : ∀ t : Fin cfg1.N,
    win1_0.index t (0 : Fin 2) = t.val / 32 * 4 + t.val % 4 ∧ win1_0.index t (1 : Fin 2) = t.val / 4 % 8
    ∧ win1_1.index t (0 : Fin 2) = t.val / 32 ∧ win1_1.index t (1 : Fin 2) = 8 + t.val / 4 % 8
    ∧ win1_2.index t (0 : Fin 2) = t.val / 32 ∧ win1_2.index t (1 : Fin 2) = 16 + t.val / 4 % 8
    ∧ win1_3.index t (0 : Fin 2) = t.val % 4 ∧ win1_3.index t (1 : Fin 2) = 0
    ∧ win1_4.index t (0 : Fin 2) = t.val % 4 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val / 32 * 4 + t.val % 4 ∧ win1_9.index t (1 : Fin 2) = t.val / 4 % 8 :=
  (by decide +kernel : ∀ t : Fin grid1.N, _)

/-- Every block of the output array is some point's. -/
theorem idx_onto9 : ∀ (q0 : Fin 16) (q1 : Fin 8), ∃ t : Fin cfg1.N, win1_9.index t = ![q0.val, q1.val] :=
  (by decide +kernel : ∀ (q0 : Fin 16) (q1 : Fin 8), ∃ t : Fin grid1.N, win1_9.index t = ![q0.val, q1.val])

/-! ## An input block's entry is an entry of its array

    The entry `x` of window `w`'s block at point `t` is the array's entry whose coordinate on each axis is the block
    index times the block's extent plus `x`'s coordinate. -/

theorem iblk1_0_apply (c : Dev nD) (t : Fin cfg1.N) (x : S512x128.Idx) (k : S8192x3072.Idx)
    (hk0 : (k 0).val = win1_0.index t 0 * 512 + (x 0).val) (hk1 : (k 1).val = win1_0.index t 1 * 128 + (x 1).val) :
    (iblk1 V c 0 t : Vec Ideal S512x128 .bf16) x = (V c main_v11 : S8192x3072.Idx → Elt Ideal .bf16) k := by
  unfold iblk1
  rw [View.read_apply]
  show V c main_v11 _ = V c main_v11 _
  congr 1
  funext a
  apply Fin.ext
  match a with
  | ⟨0, _⟩ => show win1_0.index t 0 * 512 + 1 * (x 0).val = (k 0).val; omega
  | ⟨1, _⟩ => show win1_0.index t 1 * 128 + 1 * (x 1).val = (k 1).val; omega
theorem iblk1_1_apply (c : Dev nD) (t : Fin cfg1.N) (x : S2048x128.Idx) (k : S8192x3072.Idx)
    (hk0 : (k 0).val = win1_1.index t 0 * 2048 + (x 0).val) (hk1 : (k 1).val = win1_1.index t 1 * 128 + (x 1).val) :
    (iblk1 V c 1 t : Vec Ideal S2048x128 .bf16) x = (V c main_v11 : S8192x3072.Idx → Elt Ideal .bf16) k := by
  unfold iblk1
  rw [View.read_apply]
  show V c main_v11 _ = V c main_v11 _
  congr 1
  funext a
  apply Fin.ext
  match a with
  | ⟨0, _⟩ => show win1_1.index t 0 * 2048 + 1 * (x 0).val = (k 0).val; omega
  | ⟨1, _⟩ => show win1_1.index t 1 * 128 + 1 * (x 1).val = (k 1).val; omega
theorem iblk1_2_apply (c : Dev nD) (t : Fin cfg1.N) (x : S2048x128.Idx) (k : S8192x3072.Idx)
    (hk0 : (k 0).val = win1_2.index t 0 * 2048 + (x 0).val) (hk1 : (k 1).val = win1_2.index t 1 * 128 + (x 1).val) :
    (iblk1 V c 2 t : Vec Ideal S2048x128 .bf16) x = (V c main_v11 : S8192x3072.Idx → Elt Ideal .bf16) k := by
  unfold iblk1
  rw [View.read_apply]
  show V c main_v11 _ = V c main_v11 _
  congr 1
  funext a
  apply Fin.ext
  match a with
  | ⟨0, _⟩ => show win1_2.index t 0 * 2048 + 1 * (x 0).val = (k 0).val; omega
  | ⟨1, _⟩ => show win1_2.index t 1 * 128 + 1 * (x 1).val = (k 1).val; omega
theorem iblk1_3_apply (c : Dev nD) (t : Fin cfg1.N) (x : S512x64.Idx) (k : S2048x64.Idx)
    (hk0 : (k 0).val = win1_3.index t 0 * 512 + (x 0).val) (hk1 : (k 1).val = win1_3.index t 1 * 64 + (x 1).val) :
    (iblk1 V c 3 t : Vec Ideal S512x64 .f32) x = (V c main_v9 : S2048x64.Idx → Elt Ideal .f32) k := by
  unfold iblk1
  rw [View.read_apply]
  show V c main_v9 _ = V c main_v9 _
  congr 1
  funext a
  apply Fin.ext
  match a with
  | ⟨0, _⟩ => show win1_3.index t 0 * 512 + 1 * (x 0).val = (k 0).val; omega
  | ⟨1, _⟩ => show win1_3.index t 1 * 64 + 1 * (x 1).val = (k 1).val; omega
theorem iblk1_4_apply (c : Dev nD) (t : Fin cfg1.N) (x : S512x64.Idx) (k : S2048x64.Idx)
    (hk0 : (k 0).val = win1_4.index t 0 * 512 + (x 0).val) (hk1 : (k 1).val = win1_4.index t 1 * 64 + (x 1).val) :
    (iblk1 V c 4 t : Vec Ideal S512x64 .f32) x = (V c main_v10 : S2048x64.Idx → Elt Ideal .f32) k := by
  unfold iblk1
  rw [View.read_apply]
  show V c main_v10 _ = V c main_v10 _
  congr 1
  funext a
  apply Fin.ext
  match a with
  | ⟨0, _⟩ => show win1_4.index t 0 * 512 + 1 * (x 0).val = (k 0).val; omega
  | ⟨1, _⟩ => show win1_4.index t 1 * 64 + 1 * (x 1).val = (k 1).val; omega
theorem iblk1_5_apply (c : Dev nD) (t : Fin cfg1.N) (x : S2048x64.Idx) (k : S2048x64.Idx)
    (hk0 : (k 0).val = win1_5.index t 0 * 2048 + (x 0).val) (hk1 : (k 1).val = win1_5.index t 1 * 64 + (x 1).val) :
    (iblk1 V c 5 t : Vec Ideal S2048x64 .f32) x = (V c main_v9 : S2048x64.Idx → Elt Ideal .f32) k := by
  unfold iblk1
  rw [View.read_apply]
  show V c main_v9 _ = V c main_v9 _
  congr 1
  funext a
  apply Fin.ext
  match a with
  | ⟨0, _⟩ => show win1_5.index t 0 * 2048 + 1 * (x 0).val = (k 0).val; omega
  | ⟨1, _⟩ => show win1_5.index t 1 * 64 + 1 * (x 1).val = (k 1).val; omega
theorem iblk1_6_apply (c : Dev nD) (t : Fin cfg1.N) (x : S2048x64.Idx) (k : S2048x64.Idx)
    (hk0 : (k 0).val = win1_6.index t 0 * 2048 + (x 0).val) (hk1 : (k 1).val = win1_6.index t 1 * 64 + (x 1).val) :
    (iblk1 V c 6 t : Vec Ideal S2048x64 .f32) x = (V c main_v10 : S2048x64.Idx → Elt Ideal .f32) k := by
  unfold iblk1
  rw [View.read_apply]
  show V c main_v10 _ = V c main_v10 _
  congr 1
  funext a
  apply Fin.ext
  match a with
  | ⟨0, _⟩ => show win1_6.index t 0 * 2048 + 1 * (x 0).val = (k 0).val; omega
  | ⟨1, _⟩ => show win1_6.index t 1 * 64 + 1 * (x 1).val = (k 1).val; omega
theorem iblk1_7_apply (c : Dev nD) (t : Fin cfg1.N) (x : S1x64.Idx) (k : S1x64.Idx)
    (hk0 : (k 0).val = win1_7.index t 0 * 1 + (x 0).val) (hk1 : (k 1).val = win1_7.index t 1 * 64 + (x 1).val) :
    (iblk1 V c 7 t : Vec Ideal S1x64 .f32) x = (V c main_v7 : S1x64.Idx → Elt Ideal .f32) k := by
  unfold iblk1
  rw [View.read_apply]
  show V c main_v7 _ = V c main_v7 _
  congr 1
  funext a
  apply Fin.ext
  match a with
  | ⟨0, _⟩ => show win1_7.index t 0 * 1 + 1 * (x 0).val = (k 0).val; omega
  | ⟨1, _⟩ => show win1_7.index t 1 * 64 + 1 * (x 1).val = (k 1).val; omega
theorem iblk1_8_apply (c : Dev nD) (t : Fin cfg1.N) (x : S1x64.Idx) (k : S1x64.Idx)
    (hk0 : (k 0).val = win1_8.index t 0 * 1 + (x 0).val) (hk1 : (k 1).val = win1_8.index t 1 * 64 + (x 1).val) :
    (iblk1 V c 8 t : Vec Ideal S1x64 .f32) x = (V c main_v8 : S1x64.Idx → Elt Ideal .f32) k := by
  unfold iblk1
  rw [View.read_apply]
  show V c main_v8 _ = V c main_v8 _
  congr 1
  funext a
  apply Fin.ext
  match a with
  | ⟨0, _⟩ => show win1_8.index t 0 * 1 + 1 * (x 0).val = (k 0).val; omega
  | ⟨1, _⟩ => show win1_8.index t 1 * 64 + 1 * (x 1).val = (k 1).val; omega

/-! ## The coordinates -/

/-- Row `b·2048 + n` of the projection's output and of the attention output: batch `b`, position `n`. -/
abbrev rowOf (b : Fin 4) (n : Fin 2048) : Fin 8192 := ⟨b.val * 2048 + n.val, by have := b.isLt; have := n.isLt; omega⟩
/-- Column `(s·16 + h)·64 + e` of the projection's output: section `s`, head `h`, lane `e`. -/
abbrev colOf3 (s : Fin 3) (h : Fin 16) (e : Fin 64) : Fin 3072 :=
  ⟨(s.val * 16 + h.val) * 64 + e.val, by have := s.isLt; have := h.isLt; have := e.isLt; omega⟩
/-- Column `h·64 + e` of the attention output: head `h`, lane `e`. -/
abbrev colOf (h : Fin 16) (e : Fin 64) : Fin 1024 := ⟨h.val * 64 + e.val, by have := h.isLt; have := e.isLt; omega⟩
/-- Lane `hl·64 + e` of a 128-lane block: the block's head `hl`, lane `e`. -/
abbrev lane (hl : Fin 2) (e : Fin 64) : Fin 128 := ⟨hl.val * 64 + e.val, by have := hl.isLt; have := e.isLt; omega⟩

theorem hz2 : (![0, 0] : Fin 2 → Nat) = fun _ => 0 := funext fun a => by fin_cases a <;> rfl

/-! ## The attention output as one function of the region's input arrays -/

section Readers

variable (head : Fin 3 → Fin 4 → Fin 16 → Fin 2048 → Fin 64 → EReal)
variable (cos sin : Fin 2048 → Fin 64 → EReal) (qw kw : Fin 64 → EReal)

/-- The attention output at batch `b`, head `h`, position `n`, lane `e`: the query row and every key row normalised
    and rotated, the scores against all keys, the softmax-weighted sum of the value rows' lane `e`. -/
def attnAt (b : Fin 4) (h : Fin 16) (n : Fin 2048) (e : Fin 64) : EReal :=
  attnKer (fun k : Fin 2048 => scoreKer (fun e' => ropeF (normF (head 0 b h n) qw) (cos n) (sin n) e')
      (fun e' => ropeF (normF (head 1 b h k) kw) (cos k) (sin k) e'))
    (fun k => head 2 b h k e)

/-- The whole output array: entry `(r, d)` is the attention output at batch `r / 2048`, head `d / 64`, position
    `r % 2048`, lane `d % 64`. -/
def G9 : S8192x1024.Idx → EReal := fun i =>
  attnAt head cos sin qw kw ⟨(i 0).val / 2048, by have h : (i 0).val < 8192 := (i 0).isLt; omega⟩
    ⟨(i 1).val / 64, by have h : (i 1).val < 1024 := (i 1).isLt; omega⟩
    ⟨(i 0).val % 2048, Nat.mod_lt _ (by decide)⟩ ⟨(i 1).val % 64, Nat.mod_lt _ (by decide)⟩

theorem G9_apply (i : S8192x1024.Idx) (b : Fin 4) (h : Fin 16) (n : Fin 2048) (e : Fin 64)
    (h0 : (i 0).val = b.val * 2048 + n.val) (h1 : (i 1).val = h.val * 64 + e.val) :
    G9 head cos sin qw kw i = attnAt head cos sin qw kw b h n e := by
  have hb := b.isLt; have hn := n.isLt; have hh := h.isLt; have he := e.isLt
  unfold G9
  have e1 : (⟨(i 0).val / 2048, by have h : (i 0).val < 8192 := (i 0).isLt; omega⟩ : Fin 4) = b := Fin.ext (by show (i 0).val / 2048 = b.val; omega)
  have e2 : (⟨(i 1).val / 64, by have h : (i 1).val < 1024 := (i 1).isLt; omega⟩ : Fin 16) = h := Fin.ext (by show (i 1).val / 64 = h.val; omega)
  have e3 : (⟨(i 0).val % 2048, Nat.mod_lt _ (by decide)⟩ : Fin 2048) = n := Fin.ext (by show (i 0).val % 2048 = n.val; omega)
  have e4 : (⟨(i 1).val % 64, Nat.mod_lt _ (by decide)⟩ : Fin 64) = e := Fin.ext (by show (i 1).val % 64 = e.val; omega)
  rw [e1, e2, e3, e4]

variable (c : Dev nD)

/-- What the stored vector is at row `p`, head `hl`, lane `e` of the block, from the nine loaded vectors: the attention
    output of the block's rows (the kernel's arithmetic read at an index). -/
def PayloadReads : Prop :=
  ∀ (q : Vec Ideal S512x128 .bf16) (k v : Vec Ideal S2048x128 .bf16) (qc qs : Vec Ideal S512x64 .f32)
    (kc ks : Vec Ideal S2048x64 .f32) (qn kn : Vec Ideal S1x64 .f32) (p : Fin 512) (hl : Fin 2) (e : Fin 64),
    k1_out (F := Ideal) q k v qc qs kc ks qn kn (ix2 p (lane hl e))
      = attnKer (fun kk : Fin 2048 => scoreKer
          (fun e' => ropeF (normF (fun e'' => q (ix2 p (lane hl e''))) (fun e'' => qn (ix2 (0 : Fin 1) e''))) (fun e'' => qc (ix2 p e'')) (fun e'' => qs (ix2 p e'')) e')
          (fun e' => ropeF (normF (fun e'' => k (ix2 kk (lane hl e''))) (fun e'' => kn (ix2 (0 : Fin 1) e''))) (fun e'' => kc (ix2 kk e'')) (fun e'' => ks (ix2 kk e'')) e'))
        (fun kk => v (ix2 kk (lane hl e)))

/-- WHAT POINT `t` WRITES BACK is block `t` of `G9`, when the region's input arrays hold the projections' heads, the
    rotation tables and the two weights. -/
theorem flushed9_eq (hpay : PayloadReads)
    (hhead : ∀ s b h n e, (V c main_v11 : S8192x3072.Idx → Elt Ideal .bf16) (ix2 (rowOf b n) (colOf3 s h e)) = head s b h n e)
    (hcos : ∀ n e, (V c main_v9 : S2048x64.Idx → Elt Ideal .f32) (ix2 n e) = cos n e)
    (hsin : ∀ n e, (V c main_v10 : S2048x64.Idx → Elt Ideal .f32) (ix2 n e) = sin n e)
    (hqw : ∀ e, (V c main_v7 : S1x64.Idx → Elt Ideal .f32) (ix2 (0 : Fin 1) e) = qw e)
    (hkw : ∀ e, (V c main_v8 : S1x64.Idx → Elt Ideal .f32) (ix2 (0 : Fin 1) e) = kw e)
    (t : Fin cfg1.N) :
    (dat1 V out1_9 c).flushed 9 t = ((cfg1.win 9).blk t).view.read (Elt Ideal) (G9 head cos sin qw kw) := by
  show (cfg1.win 9).cut (grid1.coords t) ((dat1 V out1_9 c).after 9 t) = _
  rw [after1_9]
  unfold out1_9
  rw [View.canon_unit_zero hz2]
  simp only [View.ld_unit_zero (S := S512x128) hz2, View.ld_unit_zero (S := S2048x128) hz2, View.ld_unit_zero (S := S512x64) hz2, View.ld_unit_zero (S := S2048x64) hz2, View.ld_unit_zero (S := S1x64) hz2]
  obtain ⟨f0a, f0b, f1a, f1b, f2a, f2b, f3a, f3b, f4a, f4b, f5a, f5b, f6a, f6b, f7a, f7b, f8a, f8b, f9a, f9b⟩ := idx_facts t
  have hN : cfg1.N = 128 := N_1
  have ht : t.val < 128 := hN ▸ t.isLt
  funext j
  obtain ⟨p, l, rfl⟩ : ∃ (p : Fin 512) (l : Fin 128), j = ix2 p l := ⟨j 0, j 1, eq_ix2 j⟩
  have hp := p.isLt; have hl' := l.isLt
  obtain ⟨hl, e, rfl⟩ : ∃ (hl : Fin 2) (e : Fin 64), l = lane hl e :=
    ⟨⟨l.val / 64, by omega⟩, ⟨l.val % 64, Nat.mod_lt _ (by decide)⟩, Fin.ext (by show l.val = l.val / 64 * 64 + l.val % 64; omega)⟩
  have hhl := hl.isLt; have he := e.isLt
  refine (hpay (iblk1 V c 0 t : Vec Ideal S512x128 .bf16) (iblk1 V c 1 t : Vec Ideal S2048x128 .bf16) (iblk1 V c 2 t : Vec Ideal S2048x128 .bf16)
    (iblk1 V c 3 t : Vec Ideal S512x64 .f32) (iblk1 V c 4 t : Vec Ideal S512x64 .f32) (iblk1 V c 5 t : Vec Ideal S2048x64 .f32) (iblk1 V c 6 t : Vec Ideal S2048x64 .f32)
    (iblk1 V c 7 t : Vec Ideal S1x64 .f32) (iblk1 V c 8 t : Vec Ideal S1x64 .f32) p hl e).trans ?_
  -- the point's batch, head and the block row's position
  let b : Fin 4 := ⟨t.val / 32, by omega⟩
  let h : Fin 16 := ⟨t.val / 4 % 8 * 2 + hl.val, by omega⟩
  let n : Fin 2048 := ⟨t.val % 4 * 512 + p.val, by omega⟩
  have hG : G9 head cos sin qw kw (((cfg1.win 9).blk t).view.emb (ix2 p (lane hl e))) = attnAt head cos sin qw kw b h n e :=
    G9_apply head cos sin qw kw _ b h n e
      (by show win1_9.index t (0 : Fin 2) * 512 + 1 * p.val = t.val / 32 * 2048 + (t.val % 4 * 512 + p.val); omega)
      (by show win1_9.index t (1 : Fin 2) * 128 + 1 * (hl.val * 64 + e.val) = (t.val / 4 % 8 * 2 + hl.val) * 64 + e.val; omega)
  refine Eq.trans ?_ hG.symm
  unfold attnAt
  have hq : (fun e'' : Fin 64 => (iblk1 V c 0 t : Vec Ideal S512x128 .bf16) (ix2 p (lane hl e''))) = head 0 b h n := funext fun e'' => by
    have he'' := e''.isLt
    refine (iblk1_0_apply V c t _ (ix2 (rowOf b n) (colOf3 0 h e'')) ?_ ?_).trans (hhead 0 b h n e'')
    · show t.val / 32 * 2048 + (t.val % 4 * 512 + p.val) = win1_0.index t (0 : Fin 2) * 512 + p.val; omega
    · show (0 * 16 + (t.val / 4 % 8 * 2 + hl.val)) * 64 + e''.val = win1_0.index t (1 : Fin 2) * 128 + (hl.val * 64 + e''.val); omega
  have hk : ∀ kk : Fin 2048, (fun e'' : Fin 64 => (iblk1 V c 1 t : Vec Ideal S2048x128 .bf16) (ix2 kk (lane hl e''))) = head 1 b h kk := fun kk => funext fun e'' => by
    have he'' := e''.isLt; have hkk := kk.isLt
    refine (iblk1_1_apply V c t _ (ix2 (rowOf b kk) (colOf3 1 h e'')) ?_ ?_).trans (hhead 1 b h kk e'')
    · show t.val / 32 * 2048 + kk.val = win1_1.index t (0 : Fin 2) * 2048 + kk.val; omega
    · show (1 * 16 + (t.val / 4 % 8 * 2 + hl.val)) * 64 + e''.val = win1_1.index t (1 : Fin 2) * 128 + (hl.val * 64 + e''.val); omega
  have hv : ∀ kk : Fin 2048, (iblk1 V c 2 t : Vec Ideal S2048x128 .bf16) (ix2 kk (lane hl e)) = head 2 b h kk e := fun kk => by
    have hkk := kk.isLt
    refine (iblk1_2_apply V c t _ (ix2 (rowOf b kk) (colOf3 2 h e)) ?_ ?_).trans (hhead 2 b h kk e)
    · show t.val / 32 * 2048 + kk.val = win1_2.index t (0 : Fin 2) * 2048 + kk.val; omega
    · show (2 * 16 + (t.val / 4 % 8 * 2 + hl.val)) * 64 + e.val = win1_2.index t (1 : Fin 2) * 128 + (hl.val * 64 + e.val); omega
  have hqc : (fun e'' : Fin 64 => (iblk1 V c 3 t : Vec Ideal S512x64 .f32) (ix2 p e'')) = cos n := funext fun e'' => by
    refine (iblk1_3_apply V c t _ (ix2 n e'') ?_ ?_).trans (hcos n e'')
    · show t.val % 4 * 512 + p.val = win1_3.index t (0 : Fin 2) * 512 + p.val; omega
    · show e''.val = win1_3.index t (1 : Fin 2) * 64 + e''.val; omega
  have hqs : (fun e'' : Fin 64 => (iblk1 V c 4 t : Vec Ideal S512x64 .f32) (ix2 p e'')) = sin n := funext fun e'' => by
    refine (iblk1_4_apply V c t _ (ix2 n e'') ?_ ?_).trans (hsin n e'')
    · show t.val % 4 * 512 + p.val = win1_4.index t (0 : Fin 2) * 512 + p.val; omega
    · show e''.val = win1_4.index t (1 : Fin 2) * 64 + e''.val; omega
  have hkc : ∀ kk : Fin 2048, (fun e'' : Fin 64 => (iblk1 V c 5 t : Vec Ideal S2048x64 .f32) (ix2 kk e'')) = cos kk := fun kk => funext fun e'' => by
    refine (iblk1_5_apply V c t _ (ix2 kk e'') ?_ ?_).trans (hcos kk e'')
    · show kk.val = win1_5.index t (0 : Fin 2) * 2048 + kk.val; omega
    · show e''.val = win1_5.index t (1 : Fin 2) * 64 + e''.val; omega
  have hks : ∀ kk : Fin 2048, (fun e'' : Fin 64 => (iblk1 V c 6 t : Vec Ideal S2048x64 .f32) (ix2 kk e'')) = sin kk := fun kk => funext fun e'' => by
    refine (iblk1_6_apply V c t _ (ix2 kk e'') ?_ ?_).trans (hsin kk e'')
    · show kk.val = win1_6.index t (0 : Fin 2) * 2048 + kk.val; omega
    · show e''.val = win1_6.index t (1 : Fin 2) * 64 + e''.val; omega
  have hqn : (fun e'' : Fin 64 => (iblk1 V c 7 t : Vec Ideal S1x64 .f32) (ix2 (0 : Fin 1) e'')) = qw := funext fun e'' => by
    refine (iblk1_7_apply V c t _ (ix2 (0 : Fin 1) e'') ?_ ?_).trans (hqw e'')
    · show 0 = win1_7.index t (0 : Fin 2) * 1 + 0; omega
    · show e''.val = win1_7.index t (1 : Fin 2) * 64 + e''.val; omega
  have hkn : (fun e'' : Fin 64 => (iblk1 V c 8 t : Vec Ideal S1x64 .f32) (ix2 (0 : Fin 1) e'')) = kw := funext fun e'' => by
    refine (iblk1_8_apply V c t _ (ix2 (0 : Fin 1) e'') ?_ ?_).trans (hkw e'')
    · show 0 = win1_8.index t (0 : Fin 2) * 1 + 0; omega
    · show e''.val = win1_8.index t (1 : Fin 2) * 64 + e''.val; omega
  simp only [hq, hk, hv, hqc, hqs, hkc, hks, hqn, hkn]

end Readers

/-! ## The output's blocks tile its array -/

/-- An index of the output array is in point `t`'s block iff each coordinate is in the block's range on its axis. -/
theorem mem_blk9 (t : Fin cfg1.N) (i : S8192x1024.Idx) :
    i ∈ ((cfg1.win 9).blk t).view.set ↔ ∀ a : Fin 2, win1_9.index t a * S512x128.size a ≤ (i a).val ∧ (i a).val < win1_9.index t a * S512x128.size a + S512x128.size a := by
  show i ∈ ((View.whole main_v12).slice (win1_9.rect t)).set ↔ _
  rw [View.set_slice_whole, Rect.mem_set_unit]
  exact Iff.rfl

/-- Every index of the output array is in the block of the point whose block row is the index's row over 512 and whose
    block column is its column over 128; every point writes its block back. -/
theorem cover9 (i : S8192x1024.Idx) : ∃ t : Fin cfg1.N, (cfg1.win 9).flush t = true ∧ i ∈ ((cfg1.win 9).blk t).view.set := by
  have hi0 : (i 0).val < 8192 := (i 0).isLt
  have hi1 : (i 1).val < 1024 := (i 1).isLt
  obtain ⟨t, ht⟩ := idx_onto9 ⟨(i 0).val / 512, by omega⟩ ⟨(i 1).val / 128, by omega⟩
  have q0 : win1_9.index t (0 : Fin 2) = (i 0).val / 512 := congrFun ht 0
  have q1 : win1_9.index t (1 : Fin 2) = (i 1).val / 128 := congrFun ht 1
  refine ⟨t, flush1_9 t, ?_⟩
  rw [mem_blk9]
  intro a
  match a with
  | ⟨0, _⟩ => show win1_9.index t (0 : Fin 2) * 512 ≤ (i 0).val ∧ (i 0).val < win1_9.index t (0 : Fin 2) * 512 + 512; omega
  | ⟨1, _⟩ => show win1_9.index t (1 : Fin 2) * 128 ≤ (i 1).val ∧ (i 1).val < win1_9.index t (1 : Fin 2) * 128 + 128; omega

/-! ## The output array after the region -/

section Final

variable (head : Fin 3 → Fin 4 → Fin 16 → Fin 2048 → Fin 64 → EReal)
variable (cos sin : Fin 2048 → Fin 64 → EReal) (qw kw : Fin 64 → EReal) (c : Dev nD)

/-- THE ARRAY after the region's last point: `G9` of the heads, the tables and the weights. -/
theorem final9 (hpay : PayloadReads)
    (hhead : ∀ s b h n e, (V c main_v11 : S8192x3072.Idx → Elt Ideal .bf16) (ix2 (rowOf b n) (colOf3 s h e)) = head s b h n e)
    (hcos : ∀ n e, (V c main_v9 : S2048x64.Idx → Elt Ideal .f32) (ix2 n e) = cos n e)
    (hsin : ∀ n e, (V c main_v10 : S2048x64.Idx → Elt Ideal .f32) (ix2 n e) = sin n e)
    (hqw : ∀ e, (V c main_v7 : S1x64.Idx → Elt Ideal .f32) (ix2 (0 : Fin 1) e) = qw e)
    (hkw : ∀ e, (V c main_v8 : S1x64.Idx → Elt Ideal .f32) (ix2 (0 : Fin 1) e) = kw e) :
    (dat1 V out1_9 c).arrAt 9 cfg1.N = G9 head cos sin qw kw :=
  (dat1 V out1_9 c).arrAt_eq_of_cover 9 (G9 head cos sin qw kw)
    (fun t _ => flushed9_eq V head cos sin qw kw c hpay hhead hcos hsin hqw hkw t) cover9

/-- Entry by entry: row `b·2048 + n`, column `h·64 + e` of the attention output array holds the attention output at
    batch `b`, head `h`, position `n`, lane `e`. -/
theorem attn_value (hpay : PayloadReads)
    (hhead : ∀ s b h n e, (V c main_v11 : S8192x3072.Idx → Elt Ideal .bf16) (ix2 (rowOf b n) (colOf3 s h e)) = head s b h n e)
    (hcos : ∀ n e, (V c main_v9 : S2048x64.Idx → Elt Ideal .f32) (ix2 n e) = cos n e)
    (hsin : ∀ n e, (V c main_v10 : S2048x64.Idx → Elt Ideal .f32) (ix2 n e) = sin n e)
    (hqw : ∀ e, (V c main_v7 : S1x64.Idx → Elt Ideal .f32) (ix2 (0 : Fin 1) e) = qw e)
    (hkw : ∀ e, (V c main_v8 : S1x64.Idx → Elt Ideal .f32) (ix2 (0 : Fin 1) e) = kw e)
    (b : Fin 4) (h : Fin 16) (n : Fin 2048) (e : Fin 64) :
    ((dat1 V out1_9 c).arrAt 9 cfg1.N : S8192x1024.Idx → Elt Ideal .bf16) (ix2 (rowOf b n) (colOf h e))
      = attnKer (fun k : Fin 2048 => scoreKer (fun e' => ropeF (normF (head 0 b h n) qw) (cos n) (sin n) e')
            (fun e' => ropeF (normF (head 1 b h k) kw) (cos k) (sin k) e'))
          (fun k => head 2 b h k e) := by
  rw [final9 V head cos sin qw kw c hpay hhead hcos hsin hqw hkw]
  exact G9_apply head cos sin qw kw _ b h n e rfl rfl

end Final

end Cert.KernelIdeal.Value1

end
-- ==== Proof.KIKernelValue.lean ====
/-
  The kernel program's result array on the extended reals, as one function of its argument arrays: the output
  projection of the attention whose scores are scaled before their sum and whose softmax denominator is divided
  out after the weighted sum of the values. The attention region finds, in the projection's array, the q, k and v
  heads of every position (row b·2048+n, column (s·16+h)·64+e is head h, lane e of q/k/v number s at position n of
  batch b), the rotation tables and the norm weights as the host operations laid them out; what it leaves at row
  b·2048+n, column h·64+e is that attention.
-/
import proofs.«143587_j22539988369511_2_alg».proof.Proof.KIResult
import proofs.«143587_j22539988369511_2_alg».proof.Proof.KIValue1
import proofs.«143587_j22539988369511_2_alg».proof.Proof.AttnPay1Rows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KernelValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

open Cert.KernelIdeal.Frame1 Cert.KernelIdeal.Host Cert.KernelIdeal.Result Cert.KernelIdeal.Value1 Cert.AttnSpec Cert.AttnPay1

variable (m : (ℓ : Loc nD τ sig) → Buf (Elt Ideal) ℓ) (c : Dev nD)

/-- The attention region's output array holds the attention of the arguments, head by head. -/
theorem attn_of_args (hpay : PayloadReads) (b : Fin 4) (h : Fin 16) (n : Fin 2048) (e : Fin 64)
    (hr : b.val * 2048 + n.val < 8192) (hc : h.val * 64 + e.val < 1024) :
    (Run.V3 out1_9 m c main_v12 : S8192x1024.Idx → EReal) (ix2 (⟨b.val * 2048 + n.val, hr⟩ : Fin 8192) (⟨h.val * 64 + e.val, hc⟩ : Fin 1024))
      = kerForm (A0 m c) (A1 m c) (A2 m c) (A3 m c) (A6 m c) (A7 m c) b h n e := by
  have e12 : (Run.V3 out1_9 m c main_v12 : S8192x1024.Idx → EReal) = (dat1 (Run.V2 m) out1_9 c).arrAt 9 cfg1.N := Run.W3_out out1_9 m c
  refine (congrFun e12 _).trans ?_
  refine (attn_value (Run.V2 m) (fun s b h n e => headS (A0 m c) (A3 m c) s b h n e)
    (fun n e => A1 m c (ix4 (0 : Fin 1) (0 : Fin 1) n e)) (fun n e => A2 m c (ix4 (0 : Fin 1) (0 : Fin 1) n e))
    (fun e => A6 m c (ix1 e)) (fun e => A7 m c (ix1 e)) c hpay ?_ ?_ ?_ ?_ ?_ b h n e).trans ?_
  · intro s b h n e
    exact v11_apply m c b n (chan s h e) (rowOf b n).isLt
  · intro n e
    exact (congrFun (V2_v9 m c) _).trans (v9_apply m c n e)
  · intro n e
    exact (congrFun (V2_v10 m c) _).trans (v10_apply m c n e)
  · intro e
    exact (congrFun (V2_v7 m c) _).trans (v7_apply m c e)
  · intro e
    exact (congrFun (V2_v8 m c) _).trans (v8_apply m c e)
  · rfl

/-- THE KERNEL'S RESULT: the output projection of that attention. -/
theorem kernel_value (hpay : PayloadReads) :
    (Run.W5 out1_9 m c (Proc.devRef .tc main_v14) : S4x2048x1024.Idx → EReal)
      = kerResult (A0 m c) (A1 m c) (A2 m c) (A3 m c) (A4 m c) (A5 m c) (A6 m c) (A7 m c) :=
  result_of_attn m c out1_9 (kerForm (A0 m c) (A1 m c) (A2 m c) (A3 m c) (A6 m c) (A7 m c))
    (fun b h n e hr hc => attn_of_args m c hpay b h n e hr hc)

end Cert.KernelIdeal.KernelValue

end
-- ==== Proof.AttnPay1Half0.lean ====
/-
  The first head of a block pair, over the body's own intermediate blocks: from the normalised query rows, the key
  rows and their squares, the rotary tables and the key weight, the value the body computes at (p, e) is the
  softmax-weighted sum in the kernel's arrangement — the scale on each query lane before the score sum, the division
  by the sum of the weights after the weighted sum of the values.
-/
import proofs.«143587_j22539988369511_2_alg».proof.Proof.AttnPay1Rows

set_option maxRecDepth 16384

noncomputable section

namespace Cert.AttnPay1

open Cert.KernelIdeal Cert.KernelIdeal.Gen Cert.KernelIdeal.Value1 Cert.AttnSpec
open Idealize.ShloMosaic Idealize.ShloMosaic.ValueIdx
open scoped BigOperators

/-- The first head's output block at (p, e), from the blocks the body holds when it computes it. -/
theorem pay15_apply (v1 v3 : FVec Ideal S512x64 .f32) (v5 v7 : FVec Ideal S2048x64 .f32) (v11 : FVec Ideal S1x64 .f32) (v21 : FVec Ideal S2048x64 .f32)
    (v22 : FVec Ideal S2048x64 .bf16) (v34 : FVec Ideal S512x64 .f32) (v35 : FVec Ideal S2048x64 .f32)
    (hv35 : ∀ (kk : Fin 2048) (e : Fin 64), v35 (ix2 kk e) = v21 (ix2 kk e) * v21 (ix2 kk e))
    (p : Fin 512) (e : Fin 64) :
    k1_pay15 (F := Ideal) v1 v3 v5 v7 v11 v21 v22 v34 v35 (ix2 p e)
      = attnKer (fun kk : Fin 2048 => scoreKer
          (fun e' => ropeF (fun e'' => v34 (ix2 p e'')) (fun e'' => v1 (ix2 p e'')) (fun e'' => v3 (ix2 p e'')) e')
          (fun e' => ropeF (normF (fun e'' => v21 (ix2 kk e'')) (fun e'' => v11 (ix2 (0 : Fin 1) e'')))
            (fun e'' => v5 (ix2 kk e'')) (fun e'' => v7 (ix2 kk e'')) e'))
        (fun kk => v22 (ix2 kk e)) := by
  unfold k1_pay15 attnKer scoreKer wgtS smaxS ropeF normF rmsS
  simp only [rotS_eq_dite, shapeCast_self, mulf_apply, divf_apply, addf_apply, subf_apply, broadcast_apply, constant_apply, extf_apply, truncf_apply, sqrt_apply, exp_apply, broadcastTo_a1_ab_apply, broadcastTo_1b_ab_apply, shapeCast_a_a1_apply, slice2_axis1_eq, multiReduction, Ideal.reduceAdd_def, radd_512x64, radd_2048x64, radd_512x2048, rmax_512x2048, concat32_apply, matmulT_apply, matmulP_apply, hv35]
  rfl

end Cert.AttnPay1

end
-- ==== Proof.AttnPay1Half1.lean ====
/-
  The second head of a block pair, over the body's own intermediate blocks: the unnormalised softmax weights of row p
  against every key, their sum over the keys, and the stored block — the first head's output in the lower 64 lanes,
  and in the upper 64 the weighted sum of the second head's values divided by the sum of the weights.
-/
import proofs.«143587_j22539988369511_2_alg».proof.Proof.AttnPay1Rows

set_option maxRecDepth 16384

noncomputable section

namespace Cert.AttnPay1

open Cert.KernelIdeal Cert.KernelIdeal.Gen Cert.KernelIdeal.Value1 Cert.AttnSpec
open Idealize.ShloMosaic Idealize.ShloMosaic.ValueIdx
open scoped BigOperators

/-- The second head's unnormalised weight of key kk for query row p. -/
theorem pay20_apply (v1 v3 : FVec Ideal S512x64 .f32) (v5 v7 : FVec Ideal S2048x64 .f32) (v9 v11 : FVec Ideal S1x64 .f32) (v80 : FVec Ideal S512x64 .f32)
    (v81 : FVec Ideal S2048x64 .f32) (v84 : FVec Ideal S512 .f32)
    (hv84 : ∀ p : Fin 512, v84 (ix1 p) = ∑ e : Fin 64, v80 (ix2 p e) * v80 (ix2 p e))
    (p : Fin 512) (kk : Fin 2048) :
    k1_pay20 (F := Ideal) v1 v3 v5 v7 v9 v11 v80 v81 v84 (ix2 p kk)
      = wgtS (fun kk : Fin 2048 => scoreKer
          (fun e' => ropeF (normF (fun e'' => v80 (ix2 p e'')) (fun e'' => v9 (ix2 (0 : Fin 1) e'')))
            (fun e'' => v1 (ix2 p e'')) (fun e'' => v3 (ix2 p e'')) e')
          (fun e' => ropeF (normF (fun e'' => v81 (ix2 kk e'')) (fun e'' => v11 (ix2 (0 : Fin 1) e'')))
            (fun e'' => v5 (ix2 kk e'')) (fun e'' => v7 (ix2 kk e'')) e'))
          (smaxS (fun kk : Fin 2048 => scoreKer
          (fun e' => ropeF (normF (fun e'' => v80 (ix2 p e'')) (fun e'' => v9 (ix2 (0 : Fin 1) e'')))
            (fun e'' => v1 (ix2 p e'')) (fun e'' => v3 (ix2 p e'')) e')
          (fun e' => ropeF (normF (fun e'' => v81 (ix2 kk e'')) (fun e'' => v11 (ix2 (0 : Fin 1) e'')))
            (fun e'' => v5 (ix2 kk e'')) (fun e'' => v7 (ix2 kk e'')) e'))) kk := by
  unfold k1_pay20 scoreKer wgtS smaxS ropeF normF rmsS
  simp only [rotS_eq_dite, shapeCast_self, mulf_apply, divf_apply, addf_apply, subf_apply, broadcast_apply, constant_apply, extf_apply, truncf_apply, sqrt_apply, exp_apply, broadcastTo_a1_ab_apply, broadcastTo_1b_ab_apply, shapeCast_a_a1_apply, slice2_axis1_eq, multiReduction, Ideal.reduceAdd_def, radd_512x64, radd_2048x64, radd_512x2048, rmax_512x2048, concat32_apply, matmulT_apply, matmulP_apply, hv84]
  rfl

/-- The sum over the keys of the second head's weights for query row p. -/
theorem pay21_apply (v1 v3 : FVec Ideal S512x64 .f32) (v5 v7 : FVec Ideal S2048x64 .f32) (v9 v11 : FVec Ideal S1x64 .f32) (v80 : FVec Ideal S512x64 .f32)
    (v81 : FVec Ideal S2048x64 .f32) (v84 : FVec Ideal S512 .f32) (p : Fin 512) :
    k1_pay21 (F := Ideal) v1 v3 v5 v7 v9 v11 v80 v81 v84 (ix1 p)
      = ∑ kk : Fin 2048, k1_pay20 (F := Ideal) v1 v3 v5 v7 v9 v11 v80 v81 v84 (ix2 p kk) := by
  unfold k1_pay21
  simp only [multiReduction, Ideal.reduceAdd_def, radd_512x2048]

/-- The stored block in its lower 64 lanes: the first head's output. -/
theorem pay1_lo (v79 : FVec Ideal S512x64 .bf16) (v82 : FVec Ideal S2048x64 .bf16) (v132 : FVec Ideal S512x2048 .f32) (v133 : FVec Ideal S512 .f32)
    (p : Fin 512) (l : Fin 128) (e : Fin 64) (hl : e.val = l.val) :
    k1_pay1 (F := Ideal) v79 v82 v132 v133 (ix2 p l) = v79 (ix2 p e) := by
  unfold k1_pay1
  exact concatLanes_left _ _ concatenates_S512x64_S512x64_S512x128_d1 p l e hl

/-- The stored block in its upper 64 lanes: the weighted sum of the second head's values over the sum of the weights. -/
theorem pay1_hi (v79 : FVec Ideal S512x64 .bf16) (v82 : FVec Ideal S2048x64 .bf16) (v132 : FVec Ideal S512x2048 .f32) (v133 : FVec Ideal S512 .f32)
    (p : Fin 512) (l : Fin 128) (e : Fin 64) (hl : l.val = 64 + e.val) :
    k1_pay1 (F := Ideal) v79 v82 v132 v133 (ix2 p l)
      = Ideal.div (∑ kk : Fin 2048, v132 (ix2 p kk) * v82 (ix2 kk e)) (v133 (ix1 p)) := by
  unfold k1_pay1
  refine (concatLanes_right _ _ concatenates_S512x64_S512x64_S512x128_d1 p l e (by omega)).trans ?_
  simp only [shapeCast_self, mulf_apply, divf_apply, addf_apply, subf_apply, broadcast_apply, constant_apply, extf_apply, truncf_apply, sqrt_apply, exp_apply, broadcastTo_a1_ab_apply, broadcastTo_1b_ab_apply, shapeCast_a_a1_apply, slice2_axis1_eq, multiReduction, Ideal.reduceAdd_def, radd_512x64, radd_2048x64, radd_512x2048, rmax_512x2048, concat32_apply, matmulT_apply, matmulP_apply]

end Cert.AttnPay1

end
-- ==== Proof.AttnPay1.lean ====
/-
  The vector the attention kernel's body stores, read at an entry. The stored block has 128 lanes: two heads of 64.
  At row p and lane hl·64 + e it holds the softmax-weighted sum, in the kernel's arrangement, for the head in half hl:
  the scores of row p's normalised and rotated query lanes hl·64 … hl·64 + 63 (scaled lane by lane) against each key
  row's normalised and rotated lanes of the same half, their maximum over the keys from −∞, the exponentials, and
  the weighted sum of the value rows' lane hl·64 + e divided by the sum of the weights. The changes of float format
  and the recasts to the same shape are the identity on the extended reals.
-/
import proofs.«143587_j22539988369511_2_alg».proof.Proof.AttnPay1Half0
import proofs.«143587_j22539988369511_2_alg».proof.Proof.AttnPay1Half1

set_option maxRecDepth 16384

noncomputable section

namespace Cert.AttnPay1

open Cert.KernelIdeal Cert.KernelIdeal.Gen Cert.KernelIdeal.Value1 Cert.AttnSpec
open Idealize.ShloMosaic Idealize.ShloMosaic.ValueIdx
open scoped BigOperators

open Cert.KernelIdeal.Frame1

/-! ## The loaded blocks recast, widened and cut -/

theorem pay2_eq (x : Vec Ideal S512x64 .f32) : k1_pay2 (F := Ideal) x = x := by unfold k1_pay2; exact shapeCast_self _ _
theorem pay3_eq (x : Vec Ideal S512x64 .f32) : k1_pay3 (F := Ideal) x = x := by unfold k1_pay3; exact shapeCast_self _ _
theorem pay4_eq (x : Vec Ideal S2048x64 .f32) : k1_pay4 (F := Ideal) x = x := by unfold k1_pay4; exact shapeCast_self _ _
theorem pay5_eq (x : Vec Ideal S2048x64 .f32) : k1_pay5 (F := Ideal) x = x := by unfold k1_pay5; exact shapeCast_self _ _
theorem pay6_eq (x : Vec Ideal S1x64 .f32) : k1_pay6 (F := Ideal) x = x := by unfold k1_pay6; exact shapeCast_self _ _
theorem pay7_eq (x : Vec Ideal S1x64 .f32) : k1_pay7 (F := Ideal) x = x := by unfold k1_pay7; exact shapeCast_self _ _
theorem pay10_eq (x : Vec Ideal S2048x128 .bf16) : k1_pay10 (F := Ideal) x = x := by unfold k1_pay10; exact shapeCast_self _ _

theorem pay8_apply (x : Vec Ideal S512x128 .bf16) (i : S512x128.Idx) : k1_pay8 (F := Ideal) x i = x i := by
  unfold k1_pay8; rw [shapeCast_self]; rfl
theorem pay9_apply (x : Vec Ideal S2048x128 .bf16) (i : S2048x128.Idx) : k1_pay9 (F := Ideal) x i = x i := by
  unfold k1_pay9; rw [shapeCast_self]; rfl

theorem pay11_apply (x : Vec Ideal S2048x128 .bf16) (kk : Fin 2048) (e : Fin 64) :
    k1_pay11 (F := Ideal) x (ix2 kk e) = x (ix2 kk (⟨0 + e.val, by omega⟩ : Fin 128)) := by
  unfold k1_pay11; simp only [slice2_axis1_eq, pay9_apply]
theorem pay12_apply (x : Vec Ideal S2048x128 .bf16) (kk : Fin 2048) (e : Fin 64) :
    k1_pay12 (F := Ideal) x (ix2 kk e) = x (ix2 kk (⟨0 + e.val, by omega⟩ : Fin 128)) := by
  unfold k1_pay12; simp only [slice2_axis1_eq, pay10_eq]
theorem pay16_apply (x : FVec Ideal S512x128 .f32) (p : Fin 512) (e : Fin 64) :
    k1_pay16 (F := Ideal) x (ix2 p e) = x (ix2 p (⟨64 + e.val, by omega⟩ : Fin 128)) := by
  unfold k1_pay16; simp only [slice2_axis1_eq]
theorem pay17_apply (x : FVec Ideal S2048x128 .f32) (kk : Fin 2048) (e : Fin 64) :
    k1_pay17 (F := Ideal) x (ix2 kk e) = x (ix2 kk (⟨64 + e.val, by omega⟩ : Fin 128)) := by
  unfold k1_pay17; simp only [slice2_axis1_eq]
theorem pay18_apply (x : FVec Ideal S2048x128 .bf16) (kk : Fin 2048) (e : Fin 64) :
    k1_pay18 (F := Ideal) x (ix2 kk e) = x (ix2 kk (⟨64 + e.val, by omega⟩ : Fin 128)) := by
  unfold k1_pay18; simp only [slice2_axis1_eq]

/-- The squares of the first-half key rows. -/
theorem pay14_apply (x : Vec Ideal S2048x128 .bf16) (kk : Fin 2048) (e : Fin 64) :
    k1_pay14 (F := Ideal) x (ix2 kk e) = k1_pay11 (F := Ideal) x (ix2 kk e) * k1_pay11 (F := Ideal) x (ix2 kk e) := rfl

/-- The sum of squares of the second-half query rows. -/
theorem pay19_apply (x : FVec Ideal S512x128 .f32) (p : Fin 512) :
    k1_pay19 (F := Ideal) x (ix1 p) = ∑ e : Fin 64, k1_pay16 (F := Ideal) x (ix2 p e) * k1_pay16 (F := Ideal) x (ix2 p e) := by
  unfold k1_pay19
  simp only [multiReduction, Ideal.reduceAdd_def, radd_512x64, mulf_apply]

/-! ## The stored vector at an entry -/

/-- Row p, lane hl·64 + e of the stored block: head half hl's softmax-weighted sum in the kernel's arrangement. -/
theorem pay1_apply (q : Vec Ideal S512x128 .bf16) (k v : Vec Ideal S2048x128 .bf16) (qc qs : Vec Ideal S512x64 .f32)
    (kc ks : Vec Ideal S2048x64 .f32) (qn kn : Vec Ideal S1x64 .f32) (p : Fin 512) (hl : Fin 2) (e : Fin 64) :
    k1_out (F := Ideal) q k v qc qs kc ks qn kn (ix2 p (⟨hl.val * 64 + e.val, by have := hl.isLt; have := e.isLt; omega⟩ : Fin 128))
      = attnKer (fun kk : Fin 2048 => scoreKer
          (fun e' => ropeF (normF (fun e'' : Fin 64 => q (ix2 p (⟨hl.val * 64 + e''.val, by have := hl.isLt; have := e''.isLt; omega⟩ : Fin 128))) (fun e'' => qn (ix2 (0 : Fin 1) e'')))
            (fun e'' => qc (ix2 p e'')) (fun e'' => qs (ix2 p e'')) e')
          (fun e' => ropeF (normF (fun e'' : Fin 64 => k (ix2 kk (⟨hl.val * 64 + e''.val, by have := hl.isLt; have := e''.isLt; omega⟩ : Fin 128))) (fun e'' => kn (ix2 (0 : Fin 1) e'')))
            (fun e'' => kc (ix2 kk e'')) (fun e'' => ks (ix2 kk e'')) e'))
        (fun kk => v (ix2 kk (⟨hl.val * 64 + e.val, by have := hl.isLt; have := e.isLt; omega⟩ : Fin 128))) := by
  match hl with
  | ⟨0, _⟩ =>
    simp only [k1_out]
    rw [pay1_lo _ _ _ _ p _ e (by show e.val = 0 * 64 + e.val; omega),
      pay15_apply _ _ _ _ _ _ _ _ _ (fun kk e => pay14_apply k kk e) p e]
    simp only [pay2_eq, pay3_eq, pay4_eq, pay5_eq, pay7_eq, pay11_apply, pay12_apply, pay13_apply]
  | ⟨1, _⟩ =>
    simp only [k1_out]
    rw [pay1_hi _ _ _ _ p _ e (by show 1 * 64 + e.val = 64 + e.val; omega), pay21_apply]
    simp only [pay20_apply (k1_pay2 qc) (k1_pay3 qs) (k1_pay4 kc) (k1_pay5 ks) (k1_pay6 qn) (k1_pay7 kn) (k1_pay16 (k1_pay8 q))
      (k1_pay17 (k1_pay9 k)) (k1_pay19 (k1_pay8 q)) (pay19_apply _)]
    simp only [pay2_eq, pay3_eq, pay4_eq, pay5_eq, pay6_eq, pay7_eq, pay8_apply, pay9_apply, pay10_eq, pay16_apply, pay17_apply,
      pay18_apply]
    unfold attnKer
    rfl

end Cert.AttnPay1

end
-- ==== Proof.AttnRefHeads.lean ====
/-
  The reference's three projected sections, read at coordinates: the reshape to [4, 2048, 3, 16, 64], the transpose
  to [3, 4, 16, 2048, 64], the slice of one section and the reshape that drops its unit axis compose to
  t[b, h, n, e] = qkv[b, n, (s·16 + h)·64 + e], and the first contraction is the sum over the 1024 input channels.
  Each layout operation is read at an index built from literal coordinates; the flattened positions of the two
  reshapes are compared by linear arithmetic with division by literals.
-/
import proofs.«143587_j22539988369511_2_alg».proof.Proof.Gen.ReferenceIdeal.Read
import proofs.«143587_j22539988369511_2_alg».proof.Proof.AttnSpec

noncomputable section

namespace Cert.AttnRef

open Cert.ReferenceIdeal Cert.ReferenceIdeal.Read Cert.AttnSpec Idealize.ShloMosaic Idealize.ShloMosaic.ValueIdx
open scoped BigOperators

/-- The reshape [1, 4, 16, 2048, 64] → [4, 16, 2048, 64] reads position (b, h, n, e) at (0, b, h, n, e). -/
theorem idx_v4 (b : Fin 4) (h : Fin 16) (n : Fin 2048) (e : Fin 64) :
    idx_main_v4 (ix4 b h n e) = ix5 (0 : Fin 1) b h n e := by
  have hb := b.isLt; have hh := h.isLt; have hn := n.isLt; have he := e.isLt
  refine funext fun a => Fin.ext ?_
  match a with
  | ⟨0, _⟩ => rfl
  | ⟨1, _⟩ => show (((b.val * 16 + h.val) * 2048 + n.val) * 64 + e.val) / 2097152 % 4 = b.val; omega
  | ⟨2, _⟩ => show (((b.val * 16 + h.val) * 2048 + n.val) * 64 + e.val) / 131072 % 16 = h.val; omega
  | ⟨3, _⟩ => show (((b.val * 16 + h.val) * 2048 + n.val) * 64 + e.val) / 64 % 2048 = n.val; omega
  | ⟨4, _⟩ => show (((b.val * 16 + h.val) * 2048 + n.val) * 64 + e.val) % 64 = e.val; omega

/-- The reshape [1, 4, 16, 2048, 64] → [4, 16, 2048, 64] reads position (b, h, n, e) at (0, b, h, n, e). -/
theorem idx_v6 (b : Fin 4) (h : Fin 16) (n : Fin 2048) (e : Fin 64) :
    idx_main_v6 (ix4 b h n e) = ix5 (0 : Fin 1) b h n e := by
  have hb := b.isLt; have hh := h.isLt; have hn := n.isLt; have he := e.isLt
  refine funext fun a => Fin.ext ?_
  match a with
  | ⟨0, _⟩ => rfl
  | ⟨1, _⟩ => show (((b.val * 16 + h.val) * 2048 + n.val) * 64 + e.val) / 2097152 % 4 = b.val; omega
  | ⟨2, _⟩ => show (((b.val * 16 + h.val) * 2048 + n.val) * 64 + e.val) / 131072 % 16 = h.val; omega
  | ⟨3, _⟩ => show (((b.val * 16 + h.val) * 2048 + n.val) * 64 + e.val) / 64 % 2048 = n.val; omega
  | ⟨4, _⟩ => show (((b.val * 16 + h.val) * 2048 + n.val) * 64 + e.val) % 64 = e.val; omega

/-- The reshape [1, 4, 16, 2048, 64] → [4, 16, 2048, 64] reads position (b, h, n, e) at (0, b, h, n, e). -/
theorem idx_v8 (b : Fin 4) (h : Fin 16) (n : Fin 2048) (e : Fin 64) :
    idx_main_v8 (ix4 b h n e) = ix5 (0 : Fin 1) b h n e := by
  have hb := b.isLt; have hh := h.isLt; have hn := n.isLt; have he := e.isLt
  refine funext fun a => Fin.ext ?_
  match a with
  | ⟨0, _⟩ => rfl
  | ⟨1, _⟩ => show (((b.val * 16 + h.val) * 2048 + n.val) * 64 + e.val) / 2097152 % 4 = b.val; omega
  | ⟨2, _⟩ => show (((b.val * 16 + h.val) * 2048 + n.val) * 64 + e.val) / 131072 % 16 = h.val; omega
  | ⟨3, _⟩ => show (((b.val * 16 + h.val) * 2048 + n.val) * 64 + e.val) / 64 % 2048 = n.val; omega
  | ⟨4, _⟩ => show (((b.val * 16 + h.val) * 2048 + n.val) * 64 + e.val) % 64 = e.val; omega

/-- The slice of section 0 reads (0, b, h, n, e) at (0, b, h, n, e). -/
theorem idx_v3 (b : Fin 4) (h : Fin 16) (n : Fin 2048) (e : Fin 64) :
    idx_main_v3 (ix5 (0 : Fin 1) b h n e) = ix5 (0 : Fin 3) b h n e := by
  refine funext fun a => Fin.ext ?_
  match a with
  | ⟨0, _⟩ => rfl
  | ⟨1, _⟩ => rfl
  | ⟨2, _⟩ => rfl
  | ⟨3, _⟩ => rfl
  | ⟨4, _⟩ => rfl

/-- The slice of section 1 reads (0, b, h, n, e) at (1, b, h, n, e). -/
theorem idx_v5 (b : Fin 4) (h : Fin 16) (n : Fin 2048) (e : Fin 64) :
    idx_main_v5 (ix5 (0 : Fin 1) b h n e) = ix5 (1 : Fin 3) b h n e := by
  refine funext fun a => Fin.ext ?_
  match a with
  | ⟨0, _⟩ => rfl
  | ⟨1, _⟩ => rfl
  | ⟨2, _⟩ => rfl
  | ⟨3, _⟩ => rfl
  | ⟨4, _⟩ => rfl

/-- The slice of section 2 reads (0, b, h, n, e) at (2, b, h, n, e). -/
theorem idx_v7 (b : Fin 4) (h : Fin 16) (n : Fin 2048) (e : Fin 64) :
    idx_main_v7 (ix5 (0 : Fin 1) b h n e) = ix5 (2 : Fin 3) b h n e := by
  refine funext fun a => Fin.ext ?_
  match a with
  | ⟨0, _⟩ => rfl
  | ⟨1, _⟩ => rfl
  | ⟨2, _⟩ => rfl
  | ⟨3, _⟩ => rfl
  | ⟨4, _⟩ => rfl

/-- The transpose to [3, 4, 16, 2048, 64] reads (s, b, h, n, e) at (b, n, s, h, e). -/
theorem idx_v2 (s : Fin 3) (b : Fin 4) (h : Fin 16) (n : Fin 2048) (e : Fin 64) :
    idx_main_v2 (ix5 s b h n e) = ix5 b n s h e := by
  refine funext fun a => Fin.ext ?_
  match a with
  | ⟨0, _⟩ => rfl
  | ⟨1, _⟩ => rfl
  | ⟨2, _⟩ => rfl
  | ⟨3, _⟩ => rfl
  | ⟨4, _⟩ => rfl

/-- The reshape [4, 2048, 3072] → [4, 2048, 3, 16, 64] reads (b, n, s, h, e) at channel (s·16 + h)·64 + e of row (b, n). -/
theorem idx_v1 (b : Fin 4) (n : Fin 2048) (s : Fin 3) (h : Fin 16) (e : Fin 64) :
    idx_main_v1 (ix5 b n s h e) = ix3 b n (chan s h e) := by
  have hb := b.isLt; have hh := h.isLt; have hn := n.isLt; have he := e.isLt; have hs := s.isLt
  refine funext fun a => Fin.ext ?_
  match a with
  | ⟨0, _⟩ => show ((((b.val * 2048 + n.val) * 3 + s.val) * 16 + h.val) * 64 + e.val) / 6291456 = b.val; omega
  | ⟨1, _⟩ => show ((((b.val * 2048 + n.val) * 3 + s.val) * 16 + h.val) * 64 + e.val) / 3072 % 2048 = n.val; omega
  | ⟨2, _⟩ => show ((((b.val * 2048 + n.val) * 3 + s.val) * 16 + h.val) * 64 + e.val) % 3072 = (s.val * 16 + h.val) * 64 + e.val; omega

/-- The first contraction's left operand at (b, n, d), term c: x[b, n, c]. -/
theorem lidx_v0 (b : Fin 4) (n : Fin 2048) (d : Fin 3072) (c : Fin 1024) :
    lidx_main_v0 (ix3 b n d) c = ix3 b n c := by
  refine funext fun a => Fin.ext ?_
  match a with
  | ⟨0, _⟩ => rfl
  | ⟨1, _⟩ => rfl
  | ⟨2, _⟩ => rfl

/-- The first contraction's right operand at (b, n, d), term c: w_qkv[d, c]. -/
theorem ridx_v0 (b : Fin 4) (n : Fin 2048) (d : Fin 3072) (c : Fin 1024) :
    ridx_main_v0 (ix3 b n d) c = ix2 d c := by
  refine funext fun a => Fin.ext ?_
  match a with
  | ⟨0, _⟩ => rfl
  | ⟨1, _⟩ => rfl

/-- The projection at (b, n, d) is the sum over the input channels. -/
theorem v0_eq (x0 : (⟨S4x2048x1024, .f32⟩ : BufTy).Contents (Elt Ideal)) (x3 : (⟨S3072x1024, .f32⟩ : BufTy).Contents (Elt Ideal)) (b : Fin 4) (n : Fin 2048) (d : Fin 3072) :
    val_main_v0 (F := Ideal) x0 x3 (ix3 b n d) = qkvS x0 x3 b n d := by
  rw [val_main_v0_apply]
  unfold qkvS
  simp only [lidx_v0, ridx_v0]

/-- Section s of the projection, before its unit axis is dropped, at (s, b, h, n, e). -/
theorem v2_eq (x0 : (⟨S4x2048x1024, .f32⟩ : BufTy).Contents (Elt Ideal)) (x3 : (⟨S3072x1024, .f32⟩ : BufTy).Contents (Elt Ideal)) (s : Fin 3) (b : Fin 4) (h : Fin 16) (n : Fin 2048) (e : Fin 64) :
    val_main_v2 (F := Ideal) x0 x3 (ix5 s b h n e) = headS x0 x3 s b h n e := by
  rw [val_main_v2_apply, idx_v2, val_main_v1_apply, idx_v1, v0_eq]
  rfl

/-- The query section at (b, h, n, e). -/
theorem v4_eq (x0 : (⟨S4x2048x1024, .f32⟩ : BufTy).Contents (Elt Ideal)) (x3 : (⟨S3072x1024, .f32⟩ : BufTy).Contents (Elt Ideal)) (b : Fin 4) (h : Fin 16) (n : Fin 2048) (e : Fin 64) :
    val_main_v4 (F := Ideal) x0 x3 (ix4 b h n e) = headS x0 x3 0 b h n e := by
  rw [val_main_v4_apply, idx_v4, val_main_v3_apply, idx_v3, v2_eq]

/-- The key section at (b, h, n, e). -/
theorem v6_eq (x0 : (⟨S4x2048x1024, .f32⟩ : BufTy).Contents (Elt Ideal)) (x3 : (⟨S3072x1024, .f32⟩ : BufTy).Contents (Elt Ideal)) (b : Fin 4) (h : Fin 16) (n : Fin 2048) (e : Fin 64) :
    val_main_v6 (F := Ideal) x0 x3 (ix4 b h n e) = headS x0 x3 1 b h n e := by
  rw [val_main_v6_apply, idx_v6, val_main_v5_apply, idx_v5, v2_eq]

/-- The value section at (b, h, n, e). -/
theorem v8_eq (x0 : (⟨S4x2048x1024, .f32⟩ : BufTy).Contents (Elt Ideal)) (x3 : (⟨S3072x1024, .f32⟩ : BufTy).Contents (Elt Ideal)) (b : Fin 4) (h : Fin 16) (n : Fin 2048) (e : Fin 64) :
    val_main_v8 (F := Ideal) x0 x3 (ix4 b h n e) = headS x0 x3 2 b h n e := by
  rw [val_main_v8_apply, idx_v8, val_main_v7_apply, idx_v7, v2_eq]

end Cert.AttnRef

end
-- ==== Proof.AttnRefQK.lean ====
/-
  The reference's query and key after normalisation and rotation, read at coordinates (b, h, n, e).
  The mean of squares is the host's sum over the 64 lanes from the zero word (so the initial value drops),
  divided by the literal 64; the keepdims column [4, 16, 2048, 1] is read at lane 0; the weight and the rotary tables
  are broadcasts read at their own coordinates. The rotation is a concatenation of the negated upper half and the
  lower half along the lane axis: lane e reads the first piece for e < 32 and the second for e ≥ 32.
-/
import proofs.«143587_j22539988369511_2_alg».proof.Proof.Gen.ReferenceIdeal.Read
import proofs.«143587_j22539988369511_2_alg».proof.Proof.AttnSpec
import proofs.«143587_j22539988369511_2_alg».proof.Proof.AttnRefHeads

noncomputable section

namespace Cert.AttnRef

open Cert.ReferenceIdeal Cert.ReferenceIdeal.Read Cert.AttnSpec Idealize.ShloMosaic Idealize.ShloMosaic.ValueIdx
open scoped BigOperators

/-- The rotation reads lane 32 + e in the lower half. -/
theorem rotLane_lt (e : Fin 64) (he : e.val < 32) : rotLane e = ⟨32 + e.val, by omega⟩ := by
  unfold rotLane; rw [dif_pos he]; exact Fin.ext (Nat.add_comm _ _)

/-- The rotation reads lane e − 32 in the upper half. -/
theorem rotLane_ge (e : Fin 64) (he : ¬ e.val < 32) : rotLane e = ⟨e.val - 32, by have := e.isLt; omega⟩ := by
  unfold rotLane; rw [dif_neg he]

/-! ## The query -/

theorem idx_v17 (b : Fin 4) (h : Fin 16) (n : Fin 2048) (e : Fin 64) : idx_main_v17 (ix4 b h n e) = ix4 b h n (0 : Fin 1) := by
  refine funext fun a => Fin.ext ?_
  match a with
  | ⟨0, _⟩ => rfl
  | ⟨1, _⟩ => rfl
  | ⟨2, _⟩ => rfl
  | ⟨3, _⟩ => rfl

theorem idx_v11 (b : Fin 4) (h : Fin 16) (n : Fin 2048) : idx_main_v11 (ix4 b h n (0 : Fin 1)) = ix3 b h n := by
  refine funext fun a => Fin.ext ?_
  match a with
  | ⟨0, _⟩ => rfl
  | ⟨1, _⟩ => rfl
  | ⟨2, _⟩ => rfl

theorem idx_v10 (b : Fin 4) (h : Fin 16) (n : Fin 2048) (k : Fin 64) : idx_main_v10 (ix3 b h n) k = ix4 b h n k := by
  refine funext fun a => Fin.ext ?_
  match a with
  | ⟨0, _⟩ => rfl
  | ⟨1, _⟩ => rfl
  | ⟨2, _⟩ => rfl
  | ⟨3, _⟩ => rfl

theorem idx_v20 (b : Fin 4) (h : Fin 16) (n : Fin 2048) (e : Fin 64) : idx_main_v20 (ix4 b h n e) = ix4 (0 : Fin 1) (0 : Fin 1) (0 : Fin 1) e := by
  refine funext fun a => Fin.ext ?_
  match a with
  | ⟨0, _⟩ => rfl
  | ⟨1, _⟩ => rfl
  | ⟨2, _⟩ => rfl
  | ⟨3, _⟩ => rfl

theorem idx_v19 (e : Fin 64) : idx_main_v19 (ix4 (0 : Fin 1) (0 : Fin 1) (0 : Fin 1) e) = ix1 e := by
  refine funext fun a => Fin.ext ?_
  match a with
  | ⟨0, _⟩ => rfl

/-- The normalised query at (b, h, n, e). -/
theorem v21_eq (x0 : (⟨S4x2048x1024, .f32⟩ : BufTy).Contents (Elt Ideal)) (x3 : (⟨S3072x1024, .f32⟩ : BufTy).Contents (Elt Ideal)) (x6 : (⟨S64, .f32⟩ : BufTy).Contents (Elt Ideal)) (b : Fin 4) (h : Fin 16) (n : Fin 2048) (e : Fin 64) :
    val_main_v21 (F := Ideal) x0 x3 x6 (ix4 b h n e) = normS (fun e' => headS x0 x3 0 b h n e') x6 e := by
  rw [val_main_v21_apply, val_main_v18_apply, val_main_v17_apply, idx_v17, val_main_v16_apply, val_main_v15_apply,
    val_main_v13_apply, val_main_v11_apply, idx_v11, val_main_v10_apply, val_main_cst_apply, val_main_v12_apply,
    val_main_cst_0_apply, val_main_v14_apply, val_main_cst_1_apply, val_main_v20_apply, idx_v20, val_main_v19_apply, idx_v19,
    v4_eq]
  simp only [idx_v10, val_main_v9_apply, v4_eq, Ideal.mulf_def, Ideal.hostDivf_def, Ideal.addf_def,
    Ideal.hostUnary_sqrt_def, Ideal.ofBits_def, Ideal.ofBits_zero_f32, zero_add]
  rfl

theorem idx_v38 (b : Fin 4) (h : Fin 16) (n : Fin 2048) (e : Fin 32) :
    idx_main_v38 (ix4 b h n e) = ix4 b h n (⟨32 + e.val, by omega⟩ : Fin 64) := by
  refine funext fun a => Fin.ext ?_
  match a with
  | ⟨0, _⟩ => rfl
  | ⟨1, _⟩ => rfl
  | ⟨2, _⟩ => rfl
  | ⟨3, _⟩ => rfl

theorem idx_v37 (b : Fin 4) (h : Fin 16) (n : Fin 2048) (e : Fin 32) :
    idx_main_v37 (ix4 b h n e) = ix4 b h n (⟨e.val, by omega⟩ : Fin 64) := by
  refine funext fun a => Fin.ext ?_
  match a with
  | ⟨0, _⟩ => rfl
  | ⟨1, _⟩ => rfl
  | ⟨2, _⟩ => rfl
  | ⟨3, _⟩ => rfl

/-- The rotated half-swap of the normalised query at (b, h, n, e). -/
theorem v40_eq (x0 : (⟨S4x2048x1024, .f32⟩ : BufTy).Contents (Elt Ideal)) (x3 : (⟨S3072x1024, .f32⟩ : BufTy).Contents (Elt Ideal)) (x6 : (⟨S64, .f32⟩ : BufTy).Contents (Elt Ideal)) (b : Fin 4) (h : Fin 16) (n : Fin 2048) (e : Fin 64) :
    val_main_v40 (F := Ideal) x0 x3 x6 (ix4 b h n e) = rotS (normS (fun e' => headS x0 x3 0 b h n e') x6) e := by
  unfold val_main_v40 rotS
  by_cases he : e.val < 32
  · rw [if_pos he, rotLane_lt e he]
    refine (concatenate_pair_apply_left (t := S4x16x2048x64) (s₁ := S4x16x2048x32) (s₂ := S4x16x2048x32) _ _ _ _ (ix4 b h n e) rfl (ix4 b h n (⟨e.val, he⟩ : Fin 32)) ?_).trans ?_
    · intro a
      match a with
      | ⟨0, _⟩ => rfl
      | ⟨1, _⟩ => rfl
      | ⟨2, _⟩ => rfl
      | ⟨3, _⟩ => rfl
    · rw [val_main_v39_apply, val_main_v38_apply, idx_v38, v21_eq]
      rfl
  · rw [if_neg he, rotLane_ge e he]
    have he' := e.isLt
    refine (concatenate_pair_apply_right (t := S4x16x2048x64) (s₁ := S4x16x2048x32) (s₂ := S4x16x2048x32) _ _ _ _ (ix4 b h n e) rfl rfl (ix4 b h n (⟨e.val - 32, by omega⟩ : Fin 32)) ?_ ?_).trans ?_
    · intro a
      match a with
      | ⟨0, _⟩ => exact fun _ => rfl
      | ⟨1, _⟩ => exact fun _ => rfl
      | ⟨2, _⟩ => exact fun _ => rfl
      | ⟨3, _⟩ => exact fun hne => absurd rfl hne
    · show (e.val - 32) + 32 = e.val
      omega
    · rw [val_main_v37_apply, idx_v37, v21_eq]

theorem idx_v35 (b : Fin 4) (h : Fin 16) (n : Fin 2048) (e : Fin 64) : idx_main_v35 (ix4 b h n e) = ix4 (0 : Fin 1) (0 : Fin 1) n e := by
  refine funext fun a => Fin.ext ?_
  match a with
  | ⟨0, _⟩ => rfl
  | ⟨1, _⟩ => rfl
  | ⟨2, _⟩ => rfl
  | ⟨3, _⟩ => rfl

theorem idx_v41 (b : Fin 4) (h : Fin 16) (n : Fin 2048) (e : Fin 64) : idx_main_v41 (ix4 b h n e) = ix4 (0 : Fin 1) (0 : Fin 1) n e := by
  refine funext fun a => Fin.ext ?_
  match a with
  | ⟨0, _⟩ => rfl
  | ⟨1, _⟩ => rfl
  | ⟨2, _⟩ => rfl
  | ⟨3, _⟩ => rfl

/-- The query after normalisation and rotation at (b, h, n, e). -/
theorem v43_eq (x0 : (⟨S4x2048x1024, .f32⟩ : BufTy).Contents (Elt Ideal)) (x1 : (⟨S1x1x2048x64, .f32⟩ : BufTy).Contents (Elt Ideal)) (x2 : (⟨S1x1x2048x64, .f32⟩ : BufTy).Contents (Elt Ideal)) (x3 : (⟨S3072x1024, .f32⟩ : BufTy).Contents (Elt Ideal)) (x6 : (⟨S64, .f32⟩ : BufTy).Contents (Elt Ideal)) (b : Fin 4) (h : Fin 16) (n : Fin 2048) (e : Fin 64) :
    val_main_v43 (F := Ideal) x0 x1 x2 x3 x6 (ix4 b h n e) = qrS x0 x1 x2 x3 x6 b h n e := by
  rw [val_main_v43_apply, val_main_v36_apply, val_main_v42_apply, val_main_v35_apply, idx_v35,
    val_main_v41_apply, idx_v41, v21_eq, v40_eq]
  simp only [Ideal.addf_def, Ideal.mulf_def]
  rfl

/-! ## The key -/

theorem idx_v30 (b : Fin 4) (h : Fin 16) (n : Fin 2048) (e : Fin 64) : idx_main_v30 (ix4 b h n e) = ix4 b h n (0 : Fin 1) := by
  refine funext fun a => Fin.ext ?_
  match a with
  | ⟨0, _⟩ => rfl
  | ⟨1, _⟩ => rfl
  | ⟨2, _⟩ => rfl
  | ⟨3, _⟩ => rfl

theorem idx_v24 (b : Fin 4) (h : Fin 16) (n : Fin 2048) : idx_main_v24 (ix4 b h n (0 : Fin 1)) = ix3 b h n := by
  refine funext fun a => Fin.ext ?_
  match a with
  | ⟨0, _⟩ => rfl
  | ⟨1, _⟩ => rfl
  | ⟨2, _⟩ => rfl

theorem idx_v23 (b : Fin 4) (h : Fin 16) (n : Fin 2048) (k : Fin 64) : idx_main_v23 (ix3 b h n) k = ix4 b h n k := by
  refine funext fun a => Fin.ext ?_
  match a with
  | ⟨0, _⟩ => rfl
  | ⟨1, _⟩ => rfl
  | ⟨2, _⟩ => rfl
  | ⟨3, _⟩ => rfl

theorem idx_v33 (b : Fin 4) (h : Fin 16) (n : Fin 2048) (e : Fin 64) : idx_main_v33 (ix4 b h n e) = ix4 (0 : Fin 1) (0 : Fin 1) (0 : Fin 1) e := by
  refine funext fun a => Fin.ext ?_
  match a with
  | ⟨0, _⟩ => rfl
  | ⟨1, _⟩ => rfl
  | ⟨2, _⟩ => rfl
  | ⟨3, _⟩ => rfl

theorem idx_v32 (e : Fin 64) : idx_main_v32 (ix4 (0 : Fin 1) (0 : Fin 1) (0 : Fin 1) e) = ix1 e := by
  refine funext fun a => Fin.ext ?_
  match a with
  | ⟨0, _⟩ => rfl

/-- The normalised key at (b, h, n, e). -/
theorem v34_eq (x0 : (⟨S4x2048x1024, .f32⟩ : BufTy).Contents (Elt Ideal)) (x3 : (⟨S3072x1024, .f32⟩ : BufTy).Contents (Elt Ideal)) (x7 : (⟨S64, .f32⟩ : BufTy).Contents (Elt Ideal)) (b : Fin 4) (h : Fin 16) (n : Fin 2048) (e : Fin 64) :
    val_main_v34 (F := Ideal) x0 x3 x7 (ix4 b h n e) = normS (fun e' => headS x0 x3 1 b h n e') x7 e := by
  rw [val_main_v34_apply, val_main_v31_apply, val_main_v30_apply, idx_v30, val_main_v29_apply, val_main_v28_apply,
    val_main_v26_apply, val_main_v24_apply, idx_v24, val_main_v23_apply, val_main_cst_2_apply, val_main_v25_apply,
    val_main_cst_3_apply, val_main_v27_apply, val_main_cst_4_apply, val_main_v33_apply, idx_v33, val_main_v32_apply, idx_v32,
    v6_eq]
  simp only [idx_v23, val_main_v22_apply, v6_eq, Ideal.mulf_def, Ideal.hostDivf_def, Ideal.addf_def,
    Ideal.hostUnary_sqrt_def, Ideal.ofBits_def, Ideal.ofBits_zero_f32, zero_add]
  rfl

theorem idx_v47 (b : Fin 4) (h : Fin 16) (n : Fin 2048) (e : Fin 32) :
    idx_main_v47 (ix4 b h n e) = ix4 b h n (⟨32 + e.val, by omega⟩ : Fin 64) := by
  refine funext fun a => Fin.ext ?_
  match a with
  | ⟨0, _⟩ => rfl
  | ⟨1, _⟩ => rfl
  | ⟨2, _⟩ => rfl
  | ⟨3, _⟩ => rfl

theorem idx_v46 (b : Fin 4) (h : Fin 16) (n : Fin 2048) (e : Fin 32) :
    idx_main_v46 (ix4 b h n e) = ix4 b h n (⟨e.val, by omega⟩ : Fin 64) := by
  refine funext fun a => Fin.ext ?_
  match a with
  | ⟨0, _⟩ => rfl
  | ⟨1, _⟩ => rfl
  | ⟨2, _⟩ => rfl
  | ⟨3, _⟩ => rfl

/-- The rotated half-swap of the normalised key at (b, h, n, e). -/
theorem v49_eq (x0 : (⟨S4x2048x1024, .f32⟩ : BufTy).Contents (Elt Ideal)) (x3 : (⟨S3072x1024, .f32⟩ : BufTy).Contents (Elt Ideal)) (x7 : (⟨S64, .f32⟩ : BufTy).Contents (Elt Ideal)) (b : Fin 4) (h : Fin 16) (n : Fin 2048) (e : Fin 64) :
    val_main_v49 (F := Ideal) x0 x3 x7 (ix4 b h n e) = rotS (normS (fun e' => headS x0 x3 1 b h n e') x7) e := by
  unfold val_main_v49 rotS
  by_cases he : e.val < 32
  · rw [if_pos he, rotLane_lt e he]
    refine (concatenate_pair_apply_left (t := S4x16x2048x64) (s₁ := S4x16x2048x32) (s₂ := S4x16x2048x32) _ _ _ _ (ix4 b h n e) rfl (ix4 b h n (⟨e.val, he⟩ : Fin 32)) ?_).trans ?_
    · intro a
      match a with
      | ⟨0, _⟩ => rfl
      | ⟨1, _⟩ => rfl
      | ⟨2, _⟩ => rfl
      | ⟨3, _⟩ => rfl
    · rw [val_main_v48_apply, val_main_v47_apply, idx_v47, v34_eq]
      rfl
  · rw [if_neg he, rotLane_ge e he]
    have he' := e.isLt
    refine (concatenate_pair_apply_right (t := S4x16x2048x64) (s₁ := S4x16x2048x32) (s₂ := S4x16x2048x32) _ _ _ _ (ix4 b h n e) rfl rfl (ix4 b h n (⟨e.val - 32, by omega⟩ : Fin 32)) ?_ ?_).trans ?_
    · intro a
      match a with
      | ⟨0, _⟩ => exact fun _ => rfl
      | ⟨1, _⟩ => exact fun _ => rfl
      | ⟨2, _⟩ => exact fun _ => rfl
      | ⟨3, _⟩ => exact fun hne => absurd rfl hne
    · show (e.val - 32) + 32 = e.val
      omega
    · rw [val_main_v46_apply, idx_v46, v34_eq]

theorem idx_v44 (b : Fin 4) (h : Fin 16) (n : Fin 2048) (e : Fin 64) : idx_main_v44 (ix4 b h n e) = ix4 (0 : Fin 1) (0 : Fin 1) n e := by
  refine funext fun a => Fin.ext ?_
  match a with
  | ⟨0, _⟩ => rfl
  | ⟨1, _⟩ => rfl
  | ⟨2, _⟩ => rfl
  | ⟨3, _⟩ => rfl

theorem idx_v50 (b : Fin 4) (h : Fin 16) (n : Fin 2048) (e : Fin 64) : idx_main_v50 (ix4 b h n e) = ix4 (0 : Fin 1) (0 : Fin 1) n e := by
  refine funext fun a => Fin.ext ?_
  match a with
  | ⟨0, _⟩ => rfl
  | ⟨1, _⟩ => rfl
  | ⟨2, _⟩ => rfl
  | ⟨3, _⟩ => rfl

/-- The key after normalisation and rotation at (b, h, n, e). -/
theorem v52_eq (x0 : (⟨S4x2048x1024, .f32⟩ : BufTy).Contents (Elt Ideal)) (x1 : (⟨S1x1x2048x64, .f32⟩ : BufTy).Contents (Elt Ideal)) (x2 : (⟨S1x1x2048x64, .f32⟩ : BufTy).Contents (Elt Ideal)) (x3 : (⟨S3072x1024, .f32⟩ : BufTy).Contents (Elt Ideal)) (x7 : (⟨S64, .f32⟩ : BufTy).Contents (Elt Ideal)) (b : Fin 4) (h : Fin 16) (n : Fin 2048) (e : Fin 64) :
    val_main_v52 (F := Ideal) x0 x1 x2 x3 x7 (ix4 b h n e) = krS x0 x1 x2 x3 x7 b h n e := by
  rw [val_main_v52_apply, val_main_v45_apply, val_main_v51_apply, val_main_v44_apply, idx_v44,
    val_main_v50_apply, idx_v50, v34_eq, v49_eq]
  simp only [Ideal.addf_def, Ideal.mulf_def]
  rfl

end Cert.AttnRef

end
-- ==== Proof.AttnRefAttn.lean ====
/-
  The reference's attention output, read at coordinates (b, h, n, e): the scores are the contraction of the
  rotated query row n with the rotated key row k over the 64 lanes, times the scale; their maximum over the keys is
  the host's fold of max from −∞ over the key axis, taken once more against −∞; the weights are exp(score − maximum);
  the normaliser is the host's sum of the weights from the zero word (so the initial value drops), read through the
  keepdims column at lane 0; each weight is divided by it, and the result is the contraction with the value rows
  over the 2048 keys.
-/
import proofs.«143587_j22539988369511_2_alg».proof.Proof.Gen.ReferenceIdeal.Read
import proofs.«143587_j22539988369511_2_alg».proof.Proof.AttnSpec
import proofs.«143587_j22539988369511_2_alg».proof.Proof.AttnRefHeads
import proofs.«143587_j22539988369511_2_alg».proof.Proof.AttnRefQK

noncomputable section

namespace Cert.AttnRef

open Cert.ReferenceIdeal Cert.ReferenceIdeal.Gen Cert.ReferenceIdeal.Read Cert.AttnSpec Idealize.ShloMosaic Idealize.ShloMosaic.ValueIdx
open scoped BigOperators

theorem lidx_v53 (b : Fin 4) (h : Fin 16) (n : Fin 2048) (k : Fin 2048) (e : Fin 64) : lidx_main_v53 (ix4 b h n k) e = ix4 b h n e := by
  refine funext fun a => Fin.ext ?_
  match a with
  | ⟨0, _⟩ => rfl
  | ⟨1, _⟩ => rfl
  | ⟨2, _⟩ => rfl
  | ⟨3, _⟩ => rfl

theorem ridx_v53 (b : Fin 4) (h : Fin 16) (n : Fin 2048) (k : Fin 2048) (e : Fin 64) : ridx_main_v53 (ix4 b h n k) e = ix4 b h k e := by
  refine funext fun a => Fin.ext ?_
  match a with
  | ⟨0, _⟩ => rfl
  | ⟨1, _⟩ => rfl
  | ⟨2, _⟩ => rfl
  | ⟨3, _⟩ => rfl

/-- The scaled score of query row n against key row k. -/
theorem v55_eq (x0 : (⟨S4x2048x1024, .f32⟩ : BufTy).Contents (Elt Ideal)) (x1 : (⟨S1x1x2048x64, .f32⟩ : BufTy).Contents (Elt Ideal)) (x2 : (⟨S1x1x2048x64, .f32⟩ : BufTy).Contents (Elt Ideal)) (x3 : (⟨S3072x1024, .f32⟩ : BufTy).Contents (Elt Ideal)) (x6 : (⟨S64, .f32⟩ : BufTy).Contents (Elt Ideal)) (x7 : (⟨S64, .f32⟩ : BufTy).Contents (Elt Ideal)) (b : Fin 4) (h : Fin 16) (n : Fin 2048) (k : Fin 2048) :
    val_main_v55 (F := Ideal) x0 x1 x2 x3 x6 x7 (ix4 b h n k)
      = scoreRef (fun e' => qrS x0 x1 x2 x3 x6 b h n e') (fun e' => krS x0 x1 x2 x3 x7 b h k e') := by
  rw [val_main_v55_apply, val_main_v53_apply, val_main_v54_apply, val_main_cst_5_apply]
  simp only [lidx_v53, ridx_v53, v43_eq, v52_eq, Ideal.mulf_def, Ideal.ofBits_def]
  rfl

/-- The maximum of row n's scores over the keys: the fold of max from −∞. -/
theorem v56_eq (x0 : (⟨S4x2048x1024, .f32⟩ : BufTy).Contents (Elt Ideal)) (x1 : (⟨S1x1x2048x64, .f32⟩ : BufTy).Contents (Elt Ideal)) (x2 : (⟨S1x1x2048x64, .f32⟩ : BufTy).Contents (Elt Ideal)) (x3 : (⟨S3072x1024, .f32⟩ : BufTy).Contents (Elt Ideal)) (x6 : (⟨S64, .f32⟩ : BufTy).Contents (Elt Ideal)) (x7 : (⟨S64, .f32⟩ : BufTy).Contents (Elt Ideal)) (b : Fin 4) (h : Fin 16) (n : Fin 2048) :
    val_main_v56 (F := Ideal) x0 x1 x2 x3 x6 x7 (ix3 b h n) = smaxS (fun k => scoreRef (fun e' => qrS x0 x1 x2 x3 x6 b h n e') (fun e' => krS x0 x1 x2 x3 x7 b h k e')) := by
  unfold val_main_v56
  have hred : S4x16x2048x2048.Reduces [3] S4x16x2048 := by decide
  rw [Host.reduce_eq_fold_single FloatOps.maximumf _ _ reducesTo_S4x16x2048x2048_S4x16x2048_d3 hred h_S_ (ix3 b h n),
    val_main_cst_6_apply]
  unfold smaxS
  show (Finset.univ : Finset (Fin 2048)).fold max (Ideal.ofBits .f32 0xFF800000#32) _ = _
  refine Finset.fold_congr fun k _ => ?_
  show val_main_v55 (F := Ideal) x0 x1 x2 x3 x6 x7 (hred.lift (ix3 b h n) k) = _
  rw [show hred.lift (ix3 b h n) k = ix4 b h n k from funext fun a => Fin.ext (by
    match a with
    | ⟨0, _⟩ => rfl
    | ⟨1, _⟩ => rfl
    | ⟨2, _⟩ => rfl
    | ⟨3, _⟩ => rfl), v55_eq]

theorem idx_v60 (b : Fin 4) (h : Fin 16) (n : Fin 2048) (k : Fin 2048) : idx_main_v60 (ix4 b h n k) = ix4 b h n (0 : Fin 1) := by
  refine funext fun a => Fin.ext ?_
  match a with
  | ⟨0, _⟩ => rfl
  | ⟨1, _⟩ => rfl
  | ⟨2, _⟩ => rfl
  | ⟨3, _⟩ => rfl

theorem idx_v59 (b : Fin 4) (h : Fin 16) (n : Fin 2048) : idx_main_v59 (ix4 b h n (0 : Fin 1)) = ix3 b h n := by
  refine funext fun a => Fin.ext ?_
  match a with
  | ⟨0, _⟩ => rfl
  | ⟨1, _⟩ => rfl
  | ⟨2, _⟩ => rfl

/-- The weight of key k for query row n. -/
theorem v62_eq (x0 : (⟨S4x2048x1024, .f32⟩ : BufTy).Contents (Elt Ideal)) (x1 : (⟨S1x1x2048x64, .f32⟩ : BufTy).Contents (Elt Ideal)) (x2 : (⟨S1x1x2048x64, .f32⟩ : BufTy).Contents (Elt Ideal)) (x3 : (⟨S3072x1024, .f32⟩ : BufTy).Contents (Elt Ideal)) (x6 : (⟨S64, .f32⟩ : BufTy).Contents (Elt Ideal)) (x7 : (⟨S64, .f32⟩ : BufTy).Contents (Elt Ideal)) (b : Fin 4) (h : Fin 16) (n : Fin 2048) (k : Fin 2048) :
    val_main_v62 (F := Ideal) x0 x1 x2 x3 x6 x7 (ix4 b h n k) = wgtS (fun k => scoreRef (fun e' => qrS x0 x1 x2 x3 x6 b h n e') (fun e' => krS x0 x1 x2 x3 x7 b h k e')) (max negInfLit (smaxS (fun k => scoreRef (fun e' => qrS x0 x1 x2 x3 x6 b h n e') (fun e' => krS x0 x1 x2 x3 x7 b h k e')))) k := by
  rw [val_main_v62_apply, val_main_v61_apply, val_main_v60_apply, idx_v60, val_main_v59_apply, idx_v59, val_main_v58_apply,
    val_main_v57_apply, val_main_cst_7_apply, v56_eq, v55_eq]
  simp only [Ideal.hostUnary_exp_def, Ideal.subf_def, Ideal.maximumf_def, Ideal.ofBits_def]
  rfl

theorem idx_v65 (b : Fin 4) (h : Fin 16) (n : Fin 2048) (k : Fin 2048) : idx_main_v65 (ix4 b h n k) = ix4 b h n (0 : Fin 1) := by
  refine funext fun a => Fin.ext ?_
  match a with
  | ⟨0, _⟩ => rfl
  | ⟨1, _⟩ => rfl
  | ⟨2, _⟩ => rfl
  | ⟨3, _⟩ => rfl

theorem idx_v64 (b : Fin 4) (h : Fin 16) (n : Fin 2048) : idx_main_v64 (ix4 b h n (0 : Fin 1)) = ix3 b h n := by
  refine funext fun a => Fin.ext ?_
  match a with
  | ⟨0, _⟩ => rfl
  | ⟨1, _⟩ => rfl
  | ⟨2, _⟩ => rfl

theorem idx_v63 (b : Fin 4) (h : Fin 16) (n : Fin 2048) (k : Fin 2048) : idx_main_v63 (ix3 b h n) k = ix4 b h n k := by
  refine funext fun a => Fin.ext ?_
  match a with
  | ⟨0, _⟩ => rfl
  | ⟨1, _⟩ => rfl
  | ⟨2, _⟩ => rfl
  | ⟨3, _⟩ => rfl

/-- The normalised weight of key k for query row n. -/
theorem v66_eq (x0 : (⟨S4x2048x1024, .f32⟩ : BufTy).Contents (Elt Ideal)) (x1 : (⟨S1x1x2048x64, .f32⟩ : BufTy).Contents (Elt Ideal)) (x2 : (⟨S1x1x2048x64, .f32⟩ : BufTy).Contents (Elt Ideal)) (x3 : (⟨S3072x1024, .f32⟩ : BufTy).Contents (Elt Ideal)) (x6 : (⟨S64, .f32⟩ : BufTy).Contents (Elt Ideal)) (x7 : (⟨S64, .f32⟩ : BufTy).Contents (Elt Ideal)) (b : Fin 4) (h : Fin 16) (n : Fin 2048) (k : Fin 2048) :
    val_main_v66 (F := Ideal) x0 x1 x2 x3 x6 x7 (ix4 b h n k)
      = Ideal.div (wgtS (fun k => scoreRef (fun e' => qrS x0 x1 x2 x3 x6 b h n e') (fun e' => krS x0 x1 x2 x3 x7 b h k e')) (max negInfLit (smaxS (fun k => scoreRef (fun e' => qrS x0 x1 x2 x3 x6 b h n e') (fun e' => krS x0 x1 x2 x3 x7 b h k e')))) k) (∑ j : Fin 2048, wgtS (fun k => scoreRef (fun e' => qrS x0 x1 x2 x3 x6 b h n e') (fun e' => krS x0 x1 x2 x3 x7 b h k e')) (max negInfLit (smaxS (fun k => scoreRef (fun e' => qrS x0 x1 x2 x3 x6 b h n e') (fun e' => krS x0 x1 x2 x3 x7 b h k e')))) j) := by
  rw [val_main_v66_apply, val_main_v65_apply, idx_v65, val_main_v64_apply, idx_v64, val_main_v63_apply, val_main_cst_8_apply,
    v62_eq]
  simp only [idx_v63, v62_eq, Ideal.hostDivf_def, Ideal.ofBits_def, Ideal.ofBits_zero_f32, zero_add]

theorem lidx_v67 (b : Fin 4) (h : Fin 16) (n : Fin 2048) (e : Fin 64) (k : Fin 2048) : lidx_main_v67 (ix4 b h n e) k = ix4 b h n k := by
  refine funext fun a => Fin.ext ?_
  match a with
  | ⟨0, _⟩ => rfl
  | ⟨1, _⟩ => rfl
  | ⟨2, _⟩ => rfl
  | ⟨3, _⟩ => rfl

theorem ridx_v67 (b : Fin 4) (h : Fin 16) (n : Fin 2048) (e : Fin 64) (k : Fin 2048) : ridx_main_v67 (ix4 b h n e) k = ix4 b h k e := by
  refine funext fun a => Fin.ext ?_
  match a with
  | ⟨0, _⟩ => rfl
  | ⟨1, _⟩ => rfl
  | ⟨2, _⟩ => rfl
  | ⟨3, _⟩ => rfl

/-- The attention output at (b, h, n, e) is the specification's first arrangement. -/
theorem v67_eq (x0 : (⟨S4x2048x1024, .f32⟩ : BufTy).Contents (Elt Ideal)) (x1 : (⟨S1x1x2048x64, .f32⟩ : BufTy).Contents (Elt Ideal)) (x2 : (⟨S1x1x2048x64, .f32⟩ : BufTy).Contents (Elt Ideal)) (x3 : (⟨S3072x1024, .f32⟩ : BufTy).Contents (Elt Ideal)) (x6 : (⟨S64, .f32⟩ : BufTy).Contents (Elt Ideal)) (x7 : (⟨S64, .f32⟩ : BufTy).Contents (Elt Ideal)) (b : Fin 4) (h : Fin 16) (n : Fin 2048) (e : Fin 64) :
    val_main_v67 (F := Ideal) x0 x1 x2 x3 x6 x7 (ix4 b h n e) = refForm x0 x1 x2 x3 x6 x7 b h n e := by
  rw [val_main_v67_apply]
  simp only [lidx_v67, ridx_v67, v66_eq, v8_eq]
  rfl

end Cert.AttnRef

end
-- ==== Proof.AttnRef.lean ====
/-
  The reference's result is the specification's, in the reference's arrangement: the attention output is transposed
  to [4, 2048, 16, 64] and reshaped to [4, 2048, 1024], so channel d of row (b, n) is head d / 64, lane d % 64; the
  output projection is the contraction over the 1024 channels with w_proj[c, d], and the bias is a broadcast read at c.
-/
import proofs.«143587_j22539988369511_2_alg».proof.Proof.Gen.ReferenceIdeal.Read
import proofs.«143587_j22539988369511_2_alg».proof.Proof.AttnSpec
import proofs.«143587_j22539988369511_2_alg».proof.Proof.AttnRefAttn

noncomputable section

namespace Cert.AttnRef

open Cert.ReferenceIdeal Cert.ReferenceIdeal.Read Cert.AttnSpec Idealize.ShloMosaic Idealize.ShloMosaic.ValueIdx
open scoped BigOperators

theorem idx_v72 (b : Fin 4) (n : Fin 2048) (c : Fin 1024) : idx_main_v72 (ix3 b n c) = ix3 (0 : Fin 1) (0 : Fin 1) c := by
  refine funext fun a => Fin.ext ?_
  match a with
  | ⟨0, _⟩ => rfl
  | ⟨1, _⟩ => rfl
  | ⟨2, _⟩ => rfl

theorem idx_v71 (c : Fin 1024) : idx_main_v71 (ix3 (0 : Fin 1) (0 : Fin 1) c) = ix1 c := by
  refine funext fun a => Fin.ext ?_
  match a with
  | ⟨0, _⟩ => rfl

theorem lidx_v70 (b : Fin 4) (n : Fin 2048) (c d : Fin 1024) : lidx_main_v70 (ix3 b n c) d = ix3 b n d := by
  refine funext fun a => Fin.ext ?_
  match a with
  | ⟨0, _⟩ => rfl
  | ⟨1, _⟩ => rfl
  | ⟨2, _⟩ => rfl

theorem ridx_v70 (b : Fin 4) (n : Fin 2048) (c d : Fin 1024) : ridx_main_v70 (ix3 b n c) d = ix2 c d := by
  refine funext fun a => Fin.ext ?_
  match a with
  | ⟨0, _⟩ => rfl
  | ⟨1, _⟩ => rfl

/-- The reshape [4, 2048, 16, 64] → [4, 2048, 1024] reads channel d of row (b, n) at head d / 64, lane d % 64. -/
theorem idx_v69 (b : Fin 4) (n : Fin 2048) (d : Fin 1024) :
    idx_main_v69 (ix3 b n d) = ix4 b n (headOf d) (laneOf d) := by
  have hb := b.isLt; have hn := n.isLt; have hd := d.isLt
  refine funext fun a => Fin.ext ?_
  match a with
  | ⟨0, _⟩ => show ((b.val * 2048 + n.val) * 1024 + d.val) / 2097152 = b.val; omega
  | ⟨1, _⟩ => show ((b.val * 2048 + n.val) * 1024 + d.val) / 1024 % 2048 = n.val; omega
  | ⟨2, _⟩ => show ((b.val * 2048 + n.val) * 1024 + d.val) / 64 % 16 = d.val / 64; omega
  | ⟨3, _⟩ => show ((b.val * 2048 + n.val) * 1024 + d.val) % 64 = d.val % 64; omega

/-- The transpose to [4, 2048, 16, 64] reads (b, n, h, e) at (b, h, n, e). -/
theorem idx_v68 (b : Fin 4) (n : Fin 2048) (h : Fin 16) (e : Fin 64) : idx_main_v68 (ix4 b n h e) = ix4 b h n e := by
  refine funext fun a => Fin.ext ?_
  match a with
  | ⟨0, _⟩ => rfl
  | ⟨1, _⟩ => rfl
  | ⟨2, _⟩ => rfl
  | ⟨3, _⟩ => rfl

/-- The reference's result array is the specification's result over the first arrangement of the attention output. -/
theorem ref_eq (x0 : (⟨S4x2048x1024, .f32⟩ : BufTy).Contents (Elt Ideal)) (x1 : (⟨S1x1x2048x64, .f32⟩ : BufTy).Contents (Elt Ideal)) (x2 : (⟨S1x1x2048x64, .f32⟩ : BufTy).Contents (Elt Ideal)) (x3 : (⟨S3072x1024, .f32⟩ : BufTy).Contents (Elt Ideal)) (x4 : (⟨S1024x1024, .f32⟩ : BufTy).Contents (Elt Ideal)) (x5 : (⟨S1024, .f32⟩ : BufTy).Contents (Elt Ideal)) (x6 : (⟨S64, .f32⟩ : BufTy).Contents (Elt Ideal)) (x7 : (⟨S64, .f32⟩ : BufTy).Contents (Elt Ideal)) :
    val_main_v73 (F := Ideal) x0 x1 x2 x3 x4 x5 x6 x7 = refResult x0 x1 x2 x3 x4 x5 x6 x7 := by
  funext i
  obtain ⟨b, n, c, rfl⟩ : ∃ (b : Fin 4) (n : Fin 2048) (c : Fin 1024), i = ix3 b n c := ⟨i 0, i 1, i 2, eq_ix3 i⟩
  rw [val_main_v73_apply, val_main_v70_apply, val_main_v72_apply, idx_v72, val_main_v71_apply, idx_v71]
  simp only [lidx_v70, ridx_v70, val_main_v69_apply, idx_v69, val_main_v68_apply, idx_v68, v67_eq, Ideal.addf_def]
  rfl

end Cert.AttnRef

end
-- ==== Proof.AttnPre.lean ====
/-
  The precondition read back: it is the conjunction, over the eight argument arrays, of all(|x| < +inf) = 1.
  A conjunction of one-bit words is 1 exactly when each is, and an all-reduction by `and` from 1 that comes out 1
  met only 1s; an entry whose absolute value is below +infinity is a real number. So every entry of every argument
  array is a real number.
-/
import proofs.«143587_j22539988369511_2_alg».proof.Pre_finite_inputs
import proofs.«143587_j22539988369511_2_alg».proof.Proof.LibFiniteAll
import Idealize.ShloMosaic.Lib.Affine
import Idealize.ShloMosaic.Lib.ValueIdx

noncomputable section

namespace Cert.AttnPre

open Idealize.ShloMosaic Cert.Pre_finite_inputs

variable [Cert.Pre_finite_inputs.Facts]

/-- Under the precondition every entry of each of the eight argument arrays is a real number. -/
theorem reals (a0 : FVec Ideal S4x2048x1024 .f32) (a1 a2 : FVec Ideal S1x1x2048x64 .f32) (a3 : FVec Ideal S3072x1024 .f32)
    (a4 : FVec Ideal S1024x1024 .f32) (a5 : FVec Ideal S1024 .f32) (a6 a7 : FVec Ideal S64 .f32)
    (h : Cert.Pre_finite_inputs.fn (F := Ideal) a0 a1 a2 a3 a4 a5 a6 a7 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal))
    ∧ (∀ i, ∃ r : ℝ, a6 i = (r : EReal)) ∧ (∀ i, ∃ r : ℝ, a7 i = (r : EReal)) := by
  have h0 := congrFun h ValueIdx.ix0
  dsimp only [Cert.Pre_finite_inputs.fn, Cert.Pre_finite_inputs.fn_part1, Cert.Pre_finite_inputs.fn_part2] at h0
  simp only [Idealize.ShloMosaic.andi, IntOp.andi_eq_one] at h0
  obtain ⟨⟨⟨⟨⟨⟨⟨e0, e1⟩, e2⟩, e3⟩, e4⟩, e5⟩, e6⟩, e7⟩ := h0
  exact ⟨fun i => Cert.LibFiniteAll.real_of_all a0 _ _ _ e0 i, fun i => Cert.LibFiniteAll.real_of_all a1 _ _ _ e1 i,
    fun i => Cert.LibFiniteAll.real_of_all a2 _ _ _ e2 i, fun i => Cert.LibFiniteAll.real_of_all a3 _ _ _ e3 i,
    fun i => Cert.LibFiniteAll.real_of_all a4 _ _ _ e4 i, fun i => Cert.LibFiniteAll.real_of_all a5 _ _ _ e5 i,
    fun i => Cert.LibFiniteAll.real_of_all a6 _ _ _ e6 i, fun i => Cert.LibFiniteAll.real_of_all a7 _ _ _ e7 i⟩

end Cert.AttnPre

end
-- ==== Proof.AttnRefKer.lean ====
/-
  The reference's result array, under the precondition, is the specification's result in the kernel's arrangement:
  the reference is the specification in its own arrangement (index by index), the precondition makes every input
  entry a real number, and on real inputs the two arrangements agree.
-/
import proofs.«143587_j22539988369511_2_alg».proof.Proof.AttnRef
import proofs.«143587_j22539988369511_2_alg».proof.Proof.AttnLaws
import proofs.«143587_j22539988369511_2_alg».proof.Proof.AttnPre

noncomputable section

namespace Cert.AttnRef

open Cert.ReferenceIdeal Cert.ReferenceIdeal.Read Cert.AttnSpec Idealize.ShloMosaic

/-- Under the precondition the reference computes the specification's result in the kernel's arrangement. -/
theorem ref_eq_kerResult [Cert.Pre_finite_inputs.Facts]
    (x0 : (⟨S4x2048x1024, .f32⟩ : BufTy).Contents (Elt Ideal)) (x1 : (⟨S1x1x2048x64, .f32⟩ : BufTy).Contents (Elt Ideal)) (x2 : (⟨S1x1x2048x64, .f32⟩ : BufTy).Contents (Elt Ideal)) (x3 : (⟨S3072x1024, .f32⟩ : BufTy).Contents (Elt Ideal))
    (x4 : (⟨S1024x1024, .f32⟩ : BufTy).Contents (Elt Ideal)) (x5 : (⟨S1024, .f32⟩ : BufTy).Contents (Elt Ideal)) (x6 : (⟨S64, .f32⟩ : BufTy).Contents (Elt Ideal)) (x7 : (⟨S64, .f32⟩ : BufTy).Contents (Elt Ideal))
    (h : Cert.Pre_finite_inputs.fn (F := Ideal) x0 x1 x2 x3 x4 x5 x6 x7 = fun _ => 1#1) :
    val_main_v73 (F := Ideal) x0 x1 x2 x3 x4 x5 x6 x7 = kerResult x0 x1 x2 x3 x4 x5 x6 x7 := by
  obtain ⟨h0, h1, h2, h3, _, _, h6, h7⟩ := Cert.AttnPre.reals x0 x1 x2 x3 x4 x5 x6 x7 h
  rw [ref_eq, Cert.AttnLaws.refResult_eq_kerResult x0 x1 x2 x3 x4 x5 x6 x7 h0 h1 h2 h3 h6 h7]

end Cert.AttnRef

end
-- ==== Proof.lean ====
/-
  Multi-head attention, tiled into three kernels, against its plain formulation: both compute, for a batch of 4
  sequences of 2048 positions of 1024 channels, 16 heads of 64 lanes,

      qkv = x · w_qkvᵀ ;  q, k ← rotate (rms-normalise (q, k)) ;  out = softmax (q · kᵀ / 8) · v ;  result = out · w_projᵀ + b_proj.

  The kernel program flattens the batch, projects to q/k/v in one region (8 row blocks), runs the attention in a
  second region over (batch, pair of heads, tile of 512 queries) reading its q, k, v blocks straight out of the
  projection's array, and projects the output in a third region (8 row blocks). On the extended reals the two
  programs differ in two places only: the kernel scales q by 1/8 before the score sum where the reference scales the
  sum — equal because a nonnegative real factor distributes over a sum of extended reals —, and the kernel divides
  by the softmax denominator after the weighted sum of the values where the reference divides each weight first —
  equal when the denominator is a positive real, which finite inputs give: every score is then a real number, the
  exponentials of score minus row maximum are reals in (0, 1], one of them 1.

  The frames: each region's body loads its input blocks whole, computes, and overwrites its output block whole, so
  the pipeline's invariant is the plain one; the attention region stages one array through several windows, whose
  shares of that array are cut on entry and joined on exit. The run follows every buffer's contents from the launch
  to the end; nothing writes an argument. The kernel's value: each region's output array is the function its blocks
  are restrictions of (the blocks cover the array). The reference's value: its run read back one operation at a time.
-/
import proofs.«143587_j22539988369511_2_alg».proof.Defs
import proofs.«143587_j22539988369511_2_alg».proof.Proof.Gen.Kernel
import proofs.«143587_j22539988369511_2_alg».proof.Proof.Gen.Kernel.Skeleton
import proofs.«143587_j22539988369511_2_alg».proof.Proof.Gen.Kernel.Launch
import proofs.«143587_j22539988369511_2_alg».proof.Proof.Gen.Kernel.Regions
import proofs.«143587_j22539988369511_2_alg».proof.Proof.Gen.Kernel.Points
import proofs.«143587_j22539988369511_2_alg».proof.Proof.Gen.KernelIdeal
import proofs.«143587_j22539988369511_2_alg».proof.Proof.Gen.KernelIdeal.Skeleton
import proofs.«143587_j22539988369511_2_alg».proof.Proof.Gen.KernelIdeal.Launch
import proofs.«143587_j22539988369511_2_alg».proof.Proof.Gen.KernelIdeal.Regions
import proofs.«143587_j22539988369511_2_alg».proof.Proof.Gen.KernelIdeal.Points
import proofs.«143587_j22539988369511_2_alg».proof.Proof.Gen.ReferenceIdeal
import proofs.«143587_j22539988369511_2_alg».proof.Proof.Gen.ReferenceIdeal.Run
import proofs.«143587_j22539988369511_2_alg».proof.Proof.Gen.ReferenceIdeal.Read
import proofs.«143587_j22539988369511_2_alg».proof.Proof.Gen.Pre_finite_inputs
import proofs.«143587_j22539988369511_2_alg».proof.Proof.KFrame
import proofs.«143587_j22539988369511_2_alg».proof.Proof.KFrame1
import proofs.«143587_j22539988369511_2_alg».proof.Proof.KIFrame
import proofs.«143587_j22539988369511_2_alg».proof.Proof.KIFrame1
import proofs.«143587_j22539988369511_2_alg».proof.Proof.KIKernelValue
import proofs.«143587_j22539988369511_2_alg».proof.Proof.AttnPay1
import proofs.«143587_j22539988369511_2_alg».proof.Proof.AttnRefKer
import Idealize.ShloMosaic.Adequacy
import Idealize.ShloMosaic.Init

noncomputable section

namespace Cert.Proof

open Idealize.ShloMosaic Idealize.ShloMosaic.TcCoe Idealize.SL.Sem

/-- The kernel program as printed runs to the end and leaves its arguments alone. -/
theorem frame_K : Cert.frame_Kernel := fun m ρ _ =>
  Cert.Kernel.Run.frame (F := Bits) Cert.Kernel.Frame1.out1_9 (fun V c => Cert.Kernel.Frame1.body_obligation1 V c) m ρ

/-- So does its reading on the extended reals. -/
theorem frame_KI : Cert.frame_KernelIdeal := fun m ρ _ =>
  Cert.KernelIdeal.Run.frame (F := Ideal) Cert.KernelIdeal.Frame1.out1_9 (fun V c => Cert.KernelIdeal.Frame1.body_obligation1 V c) m ρ

/-- The reference is host operations only: its run with the result dropped. -/
theorem frame_RI : Cert.frame_ReferenceIdeal := fun m ρ _ =>
  (θ_run Cert.ReferenceIdeal.defs _ _).mono (fun _ h c => (h c).2) (Cert.ReferenceIdeal.Value.run (F := Ideal) m ρ)

/-- No operation of the kernel was rewritten for the reading on the extended reals. -/
theorem preserves : Cert.preserves_Kernel_KernelIdeal := trivial

/-- From memories agreeing on the arguments, both programs end with the same result array: the attention of the
    arguments with the score scaled before its sum and the softmax denominator divided out after the weighted sum. -/
theorem algebraic : Cert.algebraic_KernelIdeal_ReferenceIdeal := by
  intro m ρ m' ρ' hpre hagree
  refine ⟨fun c => Cert.AttnSpec.kerResult
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KernelValue.kernel_value m c
          (fun q k v qc qs kc ks qn kn p hl e => Cert.AttnPay1.pay1_apply q k v qc qs kc ks qn kn p hl e)), (h c).2⟩)
      (Cert.KernelIdeal.Run.run_result (F := Ideal) Cert.KernelIdeal.Frame1.out1_9 (fun V c => Cert.KernelIdeal.Frame1.body_obligation1 V c) m ρ)
  · refine (θ_run Cert.ReferenceIdeal.defs _ _).mono (fun _ h c => ⟨?_, (h c).2⟩) (Cert.ReferenceIdeal.Value.run (F := Ideal) m' ρ')
    rw [(h c).1, Cert.ReferenceIdeal.Read.val_main_v73_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact Cert.AttnRef.ref_eq_kerResult _ _ _ _ _ _ _ _ (hpre c)

theorem claim : Cert.Claim := ⟨Cert.Kernel.Gen.facts, Cert.KernelIdeal.Gen.facts, Cert.ReferenceIdeal.Gen.facts, Cert.Pre_finite_inputs.Gen.facts,
  frame_K, frame_KI, frame_RI, preserves, algebraic⟩

end Cert.Proof

end
